-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S600000x5 : Shape := ⟨2, ![600000, 5]⟩
abbrev S4x128 : Shape := ⟨2, ![4, 128]⟩
abbrev S128 : Shape := ⟨1, ![128]⟩
abbrev S128x128 : Shape := ⟨2, ![128, 128]⟩
abbrev S261x128 : Shape := ⟨2, ![261, 128]⟩
abbrev S128x1 : Shape := ⟨2, ![128, 1]⟩
abbrev S1 : Shape := ⟨1, ![1]⟩
abbrev S2x600000 : Shape := ⟨2, ![2, 600000]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S600000x5 : S_.BroadcastsInDim S600000x5 (![] : Fin 0 → Fin S600000x5.rank)
  reducesTo_S600000x5_S_d0_1 : S600000x5.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S261x128 : S_.BroadcastsInDim S261x128 (![] : Fin 0 → Fin S261x128.rank)
  reducesTo_S261x128_S_d0_1 : S261x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S128x128 .f32) (main_arg5 : FVec F S128 .f32) (main_arg6 : FVec F S261x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S261x128 .f32 := Host.absf main_arg6
  let main_cst_10 : FVec F S_ .f32 := constant S_ .f32 0x7F800000#32
  let main_v30 : FVec F S261x128 .f32 := broadcastInDim S261x128 ![] bcast_S_S261x128 main_cst_10
  let main_v31 : IVec S261x128 1 := cmpf .olt main_v29 main_v30
  let main_c_11 : IVec S_ 1 := constantI S_ 1 1#1
  let main_v32 : IVec S_ 1 := (fun x v => Host.reduce IntOp.andi x v reducesTo_S261x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x4 .f32) (main_arg1 : FVec F S600000x5 .f32) (main_arg2 : FVec F S4x128 .f32) (main_arg3 : FVec F S128 .f32) (main_arg4 : FVec F S128x128 .f32) (main_arg5 : FVec F S128 .f32) (main_arg6 : FVec F S261x128 .f32) (main_arg7 : FVec F S128 .f32) (main_arg8 : FVec F S128x128 .f32) (main_arg9 : FVec F S128 .f32) (main_arg10 : FVec F S128x1 .f32) (main_arg11 : FVec F S1 .f32) (main_arg12 : IVec S2x600000 32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S600000x5 .f32 := Host.absf main_arg1
  let main_cst_0 : FVec F S_ .f32 := constant S_ .f32 0x7F800000#32
  let main_v5 : FVec F S600000x5 .f32 := broadcastInDim S600000x5 ![] bcast_S_S600000x5 main_cst_0
  let main_v6 : IVec S600000x5 1 := cmpf .olt main_v4 main_v5
  let main_c_1 : IVec S_ 1 := constantI S_ 1 1#1
  let main_v7 : IVec S_ 1 := (fun x v => Host.reduce IntOp.andi x v reducesTo_S600000x5_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S100000x4 : Shape := ⟨2, ![100000, 4]⟩
abbrev S600000x5 : Shape := ⟨2, ![600000, 5]⟩
abbrev S4x128 : Shape := ⟨2, ![4, 128]⟩
abbrev S128 : Shape := ⟨1, ![128]⟩
abbrev S128x128 : Shape := ⟨2, ![128, 128]⟩
abbrev S261x128 : Shape := ⟨2, ![261, 128]⟩
abbrev S128x1 : Shape := ⟨2, ![128, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S100000x128 : Shape := ⟨2, ![100000, 128]⟩
abbrev S5000x4 : Shape := ⟨2, ![5000, 4]⟩
abbrev S5000x1 : Shape := ⟨2, ![5000, 1]⟩
abbrev S5000x128 : Shape := ⟨2, ![5000, 128]⟩
abbrev S600000x128 : Shape := ⟨2, ![600000, 128]⟩
abbrev S1x128 : Shape := ⟨2, ![1, 128]⟩
abbrev S5x128 : Shape := ⟨2, ![5, 128]⟩
abbrev S4800x128 : Shape := ⟨2, ![4800, 128]⟩
abbrev S4800x5 : Shape := ⟨2, ![4800, 5]⟩
abbrev S4800x1 : Shape := ⟨2, ![4800, 1]⟩
abbrev S1x1 : Shape := ⟨2, ![1, 1]⟩

abbrev nBuf : Space → Nat
  | .hbm => 97
  | .vmem => 44
  | .smem => 0
  | _ => 0

abbrev bufTy : (tb : Table) → Fin (tcTables nBuf tb) → BufTy
  | .hbm, ⟨0, _⟩ => ⟨S100000x4, .f32⟩
  | .hbm, ⟨1, _⟩ => ⟨S600000x5, .f32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S261x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x600000, .i32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S100000, .f32⟩
  | .hbm, ⟨21, _⟩ => ⟨S600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S100000x128, .f32⟩
  | .hbm, ⟨47, _⟩ => ⟨S600000x1, .i32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S_, .f32⟩
  | .hbm, ⟨62, _⟩ => ⟨S100000x128, .f32⟩
  | .hbm, ⟨63, _⟩ => ⟨S600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .bf16⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x128, .bf16⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .bf16⟩
  | .hbm, ⟨86, _⟩ => ⟨S600000x5, .bf16⟩
  | .hbm, ⟨87, _⟩ => ⟨S128x128, .f32⟩
  | .hbm, ⟨88, _⟩ => ⟨S128x128, .bf16⟩
  | .hbm, ⟨89, _⟩ => ⟨S128x128, .f32⟩
  | .hbm, ⟨90, _⟩ => ⟨S128x128, .bf16⟩
  | .hbm, ⟨91, _⟩ => ⟨S5x128, .f32⟩
  | .hbm, ⟨92, _⟩ => ⟨S5x128, .bf16⟩
  | .hbm, ⟨93, _⟩ => ⟨S128x128, .bf16⟩
  | .hbm, ⟨94, _⟩ => ⟨S128x1, .bf16⟩
  | .hbm, ⟨95, _⟩ => ⟨S600000x1, .f32⟩
  | .hbm, ⟨96, _⟩ => ⟨S600000, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S4800x128, .bf16⟩
  | .local _ .vmem, ⟨29, _⟩ => ⟨S4800x128, .bf16⟩
  | .local _ .vmem, ⟨30, _⟩ => ⟨S4800x128, .bf16⟩
  | .local _ .vmem, ⟨31, _⟩ => ⟨S4800x128, .bf16⟩
  | .local _ .vmem, ⟨32, _⟩ => ⟨S4800x5, .bf16⟩
  | .local _ .vmem, ⟨33, _⟩ => ⟨S4800x5, .bf16⟩
  | .local _ .vmem, ⟨34, _⟩ => ⟨S128x128, .bf16⟩
  | .local _ .vmem, ⟨35, _⟩ => ⟨S128x128, .bf16⟩
  | .local _ .vmem, ⟨36, _⟩ => ⟨S5x128, .bf16⟩
  | .local _ .vmem, ⟨37, _⟩ => ⟨S128, .f32⟩
  | .local _ .vmem, ⟨38, _⟩ => ⟨S128x128, .bf16⟩
  | .local _ .vmem, ⟨39, _⟩ => ⟨S128, .f32⟩
  | .local _ .vmem, ⟨40, _⟩ => ⟨S128x1, .bf16⟩
  | .local _ .vmem, ⟨41, _⟩ => ⟨S1, .f32⟩
  | .local _ .vmem, ⟨42, _⟩ => ⟨S4800x1, .f32⟩
  | .local _ .vmem, ⟨43, _⟩ => ⟨S4800x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg8_0 : Ref sig .tc := ⟨.vmem, 39, rfl⟩
abbrev cc4_stg9_0 : Ref sig .tc := ⟨.vmem, 40, rfl⟩
abbrev cc4_stg10_0 : Ref sig .tc := ⟨.vmem, 41, rfl⟩
abbrev cc4_stg11_0 : Ref sig .tc := ⟨.vmem, 42, rfl⟩
abbrev cc4_stg11_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem8_0 : DmaSem sig := 39
abbrev cc4_sem9_0 : DmaSem sig := 40
abbrev cc4_sem10_0 : DmaSem sig := 41
abbrev cc4_sem11_0 : DmaSem sig := 42
abbrev cc4_sem11_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4800x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4800x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4800x5 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S5x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x1 .bf16 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S4800x1 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  slices_S261x128_S128x128_0_0 : S261x128.Slices ![0, 0] S128x128
  slices_S261x128_S128x128_128_0 : S261x128.Slices ![128, 0] S128x128
  slices_S261x128_S5x128_256_0 : S261x128.Slices ![256, 0] S5x128
  inb_S4800x128_S4800x128_0_0 : ∀ a, (![0, 0] : Fin 2 → Nat) a + S4800x128.size a ≤ S4800x128.size a
  h_S4800x128 : 0 < S4800x128.numel
  shapeCasts_S4800x128_S4800x128 : S4800x128.ShapeCasts S4800x128
  inb_S4800x5_S4800x5_0_0 : ∀ a, (![0, 0] : Fin 2 → Nat) a + S4800x5.size a ≤ S4800x5.size a
  h_S4800x5 : 0 < S4800x5.numel
  shapeCasts_S4800x5_S4800x5 : S4800x5.ShapeCasts S4800x5
  shapeCasts_S128x128_S128x128 : S128x128.ShapeCasts S128x128
  inb_S5x128_S5x128_0_0 : ∀ a, (![0, 0] : Fin 2 → Nat) a + S5x128.size a ≤ S5x128.size a
  h_S5x128 : 0 < S5x128.numel
  shapeCasts_S5x128_S5x128 : S5x128.ShapeCasts S5x128
  broadcasts_S1x128_S4800x128 : S1x128.Broadcasts S4800x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S4800x1 : S1x1.Broadcasts S4800x1
  inb_S4800x1_S4800x1_0_0 : ∀ a, (![0, 0] : Fin 2 → Nat) a + S4800x1.size a ≤ S4800x1.size a
  h_S4800x1 : 0 < S4800x1.numel
  shapeCasts_S600000x1_S600000 : S600000x1.ShapeCasts S600000
  scatter_S100000_S600000x1_S600000_n_0_0_1_wf : ScatterDims.WF S100000 S600000x1 S600000 [] [0] [0] 1
  dot_S5000x4_S4x128_S5000x128_1_0_0_1_n_n_wf : DotDims.WF S5000x4 S4x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S4800x128_S128x128_S4800x128_1_0_0_1_n_n_wf : DotDims.WF S4800x128 S128x128 S4800x128 [1] [0] [0] [1] [] []
  dot_S4800x5_S5x128_S4800x128_1_0_0_1_n_n_wf : DotDims.WF S4800x5 S5x128 S4800x128 [1] [0] [0] [1] [] []
  dot_S4800x128_S128x1_S4800x1_1_0_0_1_n_n_wf : DotDims.WF S4800x128 S128x1 S4800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4800x128.size a ≤ S600000x128.size a
  hwx4_0 : ∀ i : grid4.Coords, EltTy.bits .bf16 = 32 ∨ (Rect.block (s := S600000x128) S4800x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4800x128.size a ≤ S600000x128.size a
  hwx4_1 : ∀ i : grid4.Coords, EltTy.bits .bf16 = 32 ∨ (Rect.block (s := S600000x128) S4800x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4800x5.size a ≤ S600000x5.size a
  hwx4_2 : ∀ i : grid4.Coords, EltTy.bits .bf16 = 32 ∨ (Rect.block (s := S600000x5) S4800x5.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S5x128.size a ≤ S5x128.size a
  hwx4_5 : ∀ i : grid4.Coords, EltTy.bits .bf16 = 32 ∨ (Rect.block (s := S5x128) S5x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .bf16 = 32 ∨ (Rect.block (s := S128x128) S128x128.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x1.size a ≤ S128x1.size a
  hwx4_9 : ∀ i : grid4.Coords, EltTy.bits .bf16 = 32 ∨ (Rect.block (s := S128x1) S128x1.size (cc4_transform_9 i) (hinb4_9 i)).WholeWords (EltTy.packing .bf16)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1.size a ≤ S1.size a
  hwx4_10 : ∀ i : grid4.Coords, EltTy.bits .f32 = 32 ∨ (Rect.block (s := S1) S1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S4800x1.size a ≤ S600000x1.size a
  hwx4_11 : ∀ i : grid4.Coords, EltTy.bits .f32 = 32 ∨ (Rect.block (s := S600000x1) S4800x1.size (cc4_transform_11 i) (hinb4_11 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4800x128_S128x128_S4800x128_1_0_0_1_n_n : DotDims S4800x128 S128x128 S4800x128 where
  lhsContracting := [1]
  rhsContracting := [0]
  lhsNonContracting := [0]
  rhsNonContracting := [1]
  lhsBatch := []
  rhsBatch := []
  wf := dot_S4800x128_S128x128_S4800x128_1_0_0_1_n_n_wf
def dot_S4800x5_S5x128_S4800x128_1_0_0_1_n_n : DotDims S4800x5 S5x128 S4800x128 where
  lhsContracting := [1]
  rhsContracting := [0]
  lhsNonContracting := [0]
  rhsNonContracting := [1]
  lhsBatch := []
  rhsBatch := []
  wf := dot_S4800x5_S5x128_S4800x128_1_0_0_1_n_n_wf
def dot_S4800x128_S128x1_S4800x1_1_0_0_1_n_n : DotDims S4800x128 S128x1 S4800x1 where
  lhsContracting := [1]
  rhsContracting := [0]
  lhsNonContracting := [0]
  rhsNonContracting := [1]
  lhsBatch := []
  rhsBatch := []
  wf := dot_S4800x128_S128x1_S4800x1_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v48) S4800x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S4800x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S4800x5.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v58) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S5x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg7) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v63) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg9) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v64) S128x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg11) S1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v65) S4800x1.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S100000x4 : Shape := ⟨2, ![100000, 4]⟩
abbrev S600000x5 : Shape := ⟨2, ![600000, 5]⟩
abbrev S4x128 : Shape := ⟨2, ![4, 128]⟩
abbrev S128 : Shape := ⟨1, ![128]⟩
abbrev S128x128 : Shape := ⟨2, ![128, 128]⟩
abbrev S261x128 : Shape := ⟨2, ![261, 128]⟩
abbrev S128x1 : Shape := ⟨2, ![128, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S700000x128 : Shape := ⟨2, ![700000, 128]⟩
abbrev S1x128 : Shape := ⟨2, ![1, 128]⟩
abbrev S600000x1 : Shape := ⟨2, ![600000, 1]⟩
abbrev S600000x128 : Shape := ⟨2, ![600000, 128]⟩
abbrev S600000x261 : Shape := ⟨2, ![600000, 261]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x4, .f32⟩
  | 1 => ⟨S600000x5, .f32⟩
  | 2 => ⟨S4x128, .f32⟩
  | 3 => ⟨S128, .f32⟩
  | 4 => ⟨S128x128, .f32⟩
  | 5 => ⟨S128, .f32⟩
  | 6 => ⟨S261x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S2x600000, .i32⟩
  | 13 => ⟨S1x600000, .i32⟩
  | 14 => ⟨S600000, .i32⟩
  | 15 => ⟨S1x600000, .i32⟩
  | 16 => ⟨S600000, .i32⟩
  | 17 => ⟨S100000, .i32⟩
  | 18 => ⟨S700000, .i32⟩
  | 19 => ⟨S700000, .i32⟩
  | 20 => ⟨S_, .f32⟩
  | 21 => ⟨S700000, .f32⟩
  | 22 => ⟨S_, .f32⟩
  | 23 => ⟨S100000, .f32⟩
  | 24 => ⟨S700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S700000, .i32⟩
  | 36 => ⟨S700000, .i1⟩
  | 37 => ⟨S_, .i32⟩
  | 38 => ⟨S700000, .i32⟩
  | 39 => ⟨S700000, .i32⟩
  | 40 => ⟨S700000, .i32⟩
  | 41 => ⟨S700000x1, .i32⟩
  | 42 => ⟨S700000, .f32⟩
  | 43 => ⟨S_, .i32⟩
  | 44 => ⟨S700000, .i32⟩
  | 45 => ⟨S700000, .i1⟩
  | 46 => ⟨S_, .i32⟩
  | 47 => ⟨S700000, .i32⟩
  | 48 => ⟨S700000, .i32⟩
  | 49 => ⟨S700000, .i32⟩
  | 50 => ⟨S700000x1, .i32⟩
  | 51 => ⟨S700000, .f32⟩
  | 52 => ⟨S700000, .f32⟩
  | 53 => ⟨S100000x128, .f32⟩
  | 54 => ⟨S_, .i32⟩
  | 55 => ⟨S700000, .i32⟩
  | 56 => ⟨S700000, .i1⟩
  | 57 => ⟨S_, .i32⟩
  | 58 => ⟨S700000, .i32⟩
  | 59 => ⟨S700000, .i32⟩
  | 60 => ⟨S700000, .i32⟩
  | 61 => ⟨S700000x1, .i32⟩
  | 62 => ⟨S700000x128, .f32⟩
  | 63 => ⟨S700000x1, .f32⟩
  | 64 => ⟨S700000x128, .f32⟩
  | 65 => ⟨S700000x128, .f32⟩
  | 66 => ⟨S_, .f32⟩
  | 67 => ⟨S100000x128, .f32⟩
  | 68 => ⟨S700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S700000, .i32⟩
  | 79 => ⟨S700000, .i1⟩
  | 80 => ⟨S_, .i32⟩
  | 81 => ⟨S700000, .i32⟩
  | 82 => ⟨S700000, .i32⟩
  | 83 => ⟨S700000, .i32⟩
  | 84 => ⟨S700000x1, .i32⟩
  | 85 => ⟨S700000x128, .f32⟩
  | 86 => ⟨S700000x1, .f32⟩
  | 87 => ⟨S700000x128, .f32⟩
  | 88 => ⟨S700000x128, .f32⟩
  | 89 => ⟨S_, .f32⟩
  | 90 => ⟨S100000x128, .f32⟩
  | 91 => ⟨S700000x1, .i32⟩
  | 92 => ⟨S100000x128, .f32⟩
  | 93 => ⟨S1x128, .f32⟩
  | 94 => ⟨S100000x128, .f32⟩
  | 95 => ⟨S100000x128, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S600000x261, .f32⟩
  | 115 => ⟨S600000x128, .f32⟩
  | 116 => ⟨S1x128, .f32⟩
  | 117 => ⟨S600000x128, .f32⟩
  | 118 => ⟨S600000x128, .f32⟩
  | 119 => ⟨S_, .f32⟩
  | 120 => ⟨S600000x128, .f32⟩
  | 121 => ⟨S600000x128, .f32⟩
  | 122 => ⟨S600000x128, .f32⟩
  | 123 => ⟨S1x128, .f32⟩
  | 124 => ⟨S600000x128, .f32⟩
  | 125 => ⟨S600000x128, .f32⟩
  | 126 => ⟨S_, .f32⟩
  | 127 => ⟨S600000x128, .f32⟩
  | _ => ⟨S100000x4, .f32⟩

abbrev hbmTy0_1 (i : Nat) : BufTy := match i % 128 with
  | 0 => ⟨S600000x128, .f32⟩
  | 1 => ⟨S600000x1, .f32⟩
  | 2 => ⟨S1x1, .f32⟩
  | 3 => ⟨S600000x1, .f32⟩
  | 4 => ⟨S600000x1, .f32⟩
  | 5 => ⟨S600000, .f32⟩
  | 6 => ⟨S600000, .f32⟩
  | 7 => ⟨S600000, .f32⟩
  | 8 => ⟨S_, .f32⟩
  | 9 => ⟨S600000, .f32⟩
  | 10 => ⟨S600000, .f32⟩
  | 11 => ⟨S_, .f32⟩
  | 12 => ⟨S600000, .f32⟩
  | 13 => ⟨S600000, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_12 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_14 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call2_cst : Ref sig .tc := ⟨.hbm, 119, rfl⟩
abbrev main_call2_v0 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call3_cst : Ref sig .tc := ⟨.hbm, 126, rfl⟩
abbrev main_call3_v0 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_16 : Ref sig .tc := ⟨.hbm, 136, rfl⟩
abbrev main_v97 : Ref sig .tc := ⟨.hbm, 137, rfl⟩
abbrev main_v98 : Ref sig .tc := ⟨.hbm, 138, rfl⟩
abbrev main_cst_17 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x5_S600000x261_d1 : Shape.Concatenates [S600000x128, S600000x128, S600000x5] S600000x261 1
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  shapeCasts_S600000x1_S600000 : S600000x1.ShapeCasts S600000
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x4_S4x128_S100000x128_1_0_0_1_n_n_wf : DotDims.WF S100000x4 S4x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x261_S261x128_S600000x128_1_0_0_1_n_n_wf : DotDims.WF S600000x261 S261x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x261_S261x128_S600000x128_1_0_0_1_n_n : DotDims S600000x261 S261x128 S600000x128 where
  lhsContracting := [1]
  rhsContracting := [0]
  lhsNonContracting := [0]
  rhsNonContracting := [1]
  lhsBatch := []
  rhsBatch := []
  wf := dot_S600000x261_S261x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.KRun.lean ====
/-
  The idealized kernel program's run, with its result named.

  Every weakly fair execution of the program (three stretches of host operations, then five tiled regions
  alternating with three more stretches, then a final reshape) terminates without a fault; the result buffer ends
  holding what the fold of the segments leaves there (the contents after the last stretch), and the thirteen
  argument arrays end as they were launched.  The argument is the one that gives the frame: the segments are run one
  after the other over the thread state "every unscoped buffer at the boundary's contents", and the final state is read
  against the last boundary; here the result buffer is read as well as the arguments.
-/
import proofs.«140584_j4020089389438_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_val : θ_run defs (onTc (τ := τ) (main (F := F))) ⟨m, fun _ => 0, ρ⟩ (fun r => ∀ c : Dev nD,
      r.2.mem ((c.tc : Thread nD τ).loc main_v66) = W12 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v66 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Gen

end
-- ==== Proof.LibNary3.lean ====
/-
  A host operation of THREE literal operands (a three-way concatenate) read at its result buffer: the operation's
  function applied to the three operands' contents, each AT ITS OWN REFERENCE (a tuple built by `Fin.cons`) rather than
  under a binder over the operand index — the form in which the operands' own producers can be read further back.
  No program is imported.
-/
import Idealize.ShloMosaic.Lib.StableHlo.Run

noncomputable section

namespace Idealize.ShloMosaic.StableHlo

variable {τ : Topo} {sig : RefSig} {Val : EltTy → Type}
variable {x a b y : Ref sig .tc}

/-- The result of a three-operand operation at its result reference, the operands' contents named one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form a single simplifier pass over a line of operations can use. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.RefVal.lean ====
/-
  The reference program's result as a function of its arguments.

  The fold of the reference's host operations over ANY contents W of the buffers leaves, in the result buffer, the
  composed value of the operations at W's contents of the thirteen argument buffers, and leaves every argument
  buffer as W has it (no operation writes an argument).  Hence the reference's run ends with its result at that
  composed value of the launched arguments, the arguments unchanged.
-/
import proofs.«140584_j4020089389438_2_alg».proof.Proof.RunP
import proofs.«140584_j4020089389438_2_alg».proof.Proof.ReadP
import proofs.«140584_j4020089389438_2_alg».proof.Proof.LibNary3
import proofs.«140584_j4020089389438_2_alg».proof.Proof.LibTypedRef

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

set_option maxRecDepth 8192 in
set_option maxHeartbeats 4000000 in
/-- The result buffer after the operations: the composed value at the argument buffers' contents. -/
theorem after_result (W : Valuation τ sig (Elt F)) :
    after (ops (F := F)) W (Proc.devRef .tc main_v100)
      = Read.val_main_v100 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  after_results_simp
  simp only [nary3_result', Cert.LibTypedRef.ofBuf_toBuf]
  rfl

end Cert.ReferenceIdeal.RefValue

end
-- ==== Proof.RefKeep.lean ====
/-
  No operation of the reference program writes an argument buffer: the fold of the operations over any contents W
  leaves each of the thirteen argument buffers as W has it.
-/
import proofs.«140584_j4020089389438_2_alg».proof.Proof.RunP

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

/-- A buffer that no operation of the list writes is unchanged by the fold: each operation's one result buffer is
    another buffer. -/
macro "ref_keep" : tactic => `(tactic| (
  refine after_of_forall_not_mem _ _ (List.forall_iff_forall_mem.mp ?_)
  simp only [ops, List.Forall, nullary_writes, unary_writes, binary_writes, ternary_writes, quaternary_writes, reshape_writes,
    binaryIndexed_writes, nary_writes, Finset.mem_singleton]
  repeat' apply And.intro
  all_goals exact devRef_ne_of_ne (by decide)))

set_option maxRecDepth 8192 in
theorem after_arg0 (W : Valuation τ sig (Elt F)) :
    after (ops (F := F)) W (Proc.devRef .tc main_arg0) = W (Proc.devRef .tc main_arg0) := by ref_keep

set_option maxRecDepth 8192 in
theorem after_arg1 (W : Valuation τ sig (Elt F)) :
    after (ops (F := F)) W (Proc.devRef .tc main_arg1) = W (Proc.devRef .tc main_arg1) := by ref_keep

set_option maxRecDepth 8192 in
theorem after_arg2 (W : Valuation τ sig (Elt F)) :
    after (ops (F := F)) W (Proc.devRef .tc main_arg2) = W (Proc.devRef .tc main_arg2) := by ref_keep

set_option maxRecDepth 8192 in
theorem after_arg3 (W : Valuation τ sig (Elt F)) :
    after (ops (F := F)) W (Proc.devRef .tc main_arg3) = W (Proc.devRef .tc main_arg3) := by ref_keep

set_option maxRecDepth 8192 in
theorem after_arg4 (W : Valuation τ sig (Elt F)) :
    after (ops (F := F)) W (Proc.devRef .tc main_arg4) = W (Proc.devRef .tc main_arg4) := by ref_keep

set_option maxRecDepth 8192 in
theorem after_arg5 (W : Valuation τ sig (Elt F)) :
    after (ops (F := F)) W (Proc.devRef .tc main_arg5) = W (Proc.devRef .tc main_arg5) := by ref_keep

set_option maxRecDepth 8192 in
theorem after_arg6 (W : Valuation τ sig (Elt F)) :
    after (ops (F := F)) W (Proc.devRef .tc main_arg6) = W (Proc.devRef .tc main_arg6) := by ref_keep

set_option maxRecDepth 8192 in
theorem after_arg7 (W : Valuation τ sig (Elt F)) :
    after (ops (F := F)) W (Proc.devRef .tc main_arg7) = W (Proc.devRef .tc main_arg7) := by ref_keep

set_option maxRecDepth 8192 in
theorem after_arg8 (W : Valuation τ sig (Elt F)) :
    after (ops (F := F)) W (Proc.devRef .tc main_arg8) = W (Proc.devRef .tc main_arg8) := by ref_keep

set_option maxRecDepth 8192 in
theorem after_arg9 (W : Valuation τ sig (Elt F)) :
    after (ops (F := F)) W (Proc.devRef .tc main_arg9) = W (Proc.devRef .tc main_arg9) := by ref_keep

set_option maxRecDepth 8192 in
theorem after_arg10 (W : Valuation τ sig (Elt F)) :
    after (ops (F := F)) W (Proc.devRef .tc main_arg10) = W (Proc.devRef .tc main_arg10) := by ref_keep

set_option maxRecDepth 8192 in
theorem after_arg11 (W : Valuation τ sig (Elt F)) :
    after (ops (F := F)) W (Proc.devRef .tc main_arg11) = W (Proc.devRef .tc main_arg11) := by ref_keep

set_option maxRecDepth 8192 in
theorem after_arg12 (W : Valuation τ sig (Elt F)) :
    after (ops (F := F)) W (Proc.devRef .tc main_arg12) = W (Proc.devRef .tc main_arg12) := by ref_keep

end Cert.ReferenceIdeal.RefValue

end
-- ==== Proof.RefRun.lean ====
/-
  The reference program's run, its result named.

  Every weakly fair execution of the reference terminates without a fault; the result buffer ends at the composed
  value of the host operations at the launched arguments, and the thirteen argument arrays end as launched: the
  program is one straight line of host operations, every buffer ends at the fold of the operations over the launch
  contents, and the fold is read at the result buffer and at each argument buffer.
-/
import proofs.«140584_j4020089389438_2_alg».proof.Proof.RefVal
import proofs.«140584_j4020089389438_2_alg».proof.Proof.RefKeep

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

/-- The run: the result at the operations' composed value of the launched arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100)
        = Read.val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_v100).trans (after_result (launchContents m c)),
     (h c main_arg0).trans (after_arg0 (launchContents m c)),
     (h c main_arg1).trans (after_arg1 (launchContents m c)),
     (h c main_arg2).trans (after_arg2 (launchContents m c)),
     (h c main_arg3).trans (after_arg3 (launchContents m c)),
     (h c main_arg4).trans (after_arg4 (launchContents m c)),
     (h c main_arg5).trans (after_arg5 (launchContents m c)),
     (h c main_arg6).trans (after_arg6 (launchContents m c)),
     (h c main_arg7).trans (after_arg7 (launchContents m c)),
     (h c main_arg8).trans (after_arg8 (launchContents m c)),
     (h c main_arg9).trans (after_arg9 (launchContents m c)),
     (h c main_arg10).trans (after_arg10 (launchContents m c)),
     (h c main_arg11).trans (after_arg11 (launchContents m c)),
     (h c main_arg12).trans (after_arg12 (launchContents m c))⟩)
    (run_fold m ρ)

end Cert.ReferenceIdeal.RefValue

end
-- ==== Proof.KKeep.lean ====
/-
  Buffers that the kernel program's segments leave alone.

  The program is a chain of stretches of host operations and tiled regions.  A host stretch changes only the
  buffers its operations write; a region changes only its output array (an input array is staged and read, and
  ends as it was entered; every buffer it does not stage is bypassed).  The thirteen argument arrays, the two index
  rows cut from the edge list, and the degree-normalisation column are written by no segment after the first three
  stretches, so each is carried unchanged from one boundary to the next; the arguments are moreover untouched by the
  first three stretches and so equal the launch memory at every boundary.
-/
import proofs.«140584_j4020089389438_2_alg».proof.Proof.Gen.KernelIdeal.Frame

set_option maxRecDepth 16384

noncomputable section

namespace Cert.KernelIdeal.Chain

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ) (ρ : Dev nD → PrngReg)

/-- A buffer that no operation of a host stretch writes keeps its contents: the stretch's operations are listed,
    each one's written buffer is a single reference, and the reference at hand differs from every one of them. -/
macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The argument arrays. -/
def argRefs : List (Ref sig .tc) :=
  [main_arg0, main_arg1, main_arg2, main_arg3, main_arg4, main_arg5, main_arg6, main_arg7, main_arg8, main_arg9,
   main_arg10, main_arg11, main_arg12]

/-- The buffers no segment writes once region 0 is entered: the arguments, the two index rows and the
    normalisation column. -/
def keepRefs : List (Ref sig .tc) :=
  [main_arg0, main_arg1, main_arg2, main_arg3, main_arg4, main_arg5, main_arg6, main_arg7, main_arg8, main_arg9,
   main_arg10, main_arg11, main_arg12, main_v1, main_v3, main_v14]

theorem argRefs_sub : ∀ b ∈ argRefs, b ∈ keepRefs := by decide

set_option hygiene false in
/-- Split a membership in `keepRefs` into its sixteen cases. -/
macro "keep_cases " hb:ident : tactic =>
  `(tactic| (simp only [keepRefs, List.mem_cons, List.mem_singleton, List.not_mem_nil, or_false] at $hb:ident
             rcases $hb:ident with rfl | rfl | rfl | rfl | rfl | rfl | rfl | rfl | rfl | rfl | rfl | rfl | rfl | rfl | rfl | rfl))

set_option hygiene false in
/-- Split a membership in `argRefs` into its thirteen cases. -/
macro "arg_cases " hb:ident : tactic =>
  `(tactic| (simp only [argRefs, List.mem_cons, List.mem_singleton, List.not_mem_nil, or_false] at $hb:ident
             rcases $hb:ident with rfl | rfl | rfl | rfl | rfl | rfl | rfl | rfl | rfl | rfl | rfl | rfl | rfl))

/-- Region 0 stages `main_arg0`, `main_arg2` and the normalisation column as inputs and bypasses the rest. -/
theorem keep_3_4 (c : Dev nD) : ∀ b ∈ keepRefs, W4 m ρ c (Proc.devRef .tc b) = W3 m ρ c (Proc.devRef .tc b) := by
  intro b hb
  keep_cases hb
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))
    | exact (W4_arr m ρ c 2).trans (((dat0 (V3 m ρ) c).arrAt_in 2 rfl _).trans (A_eq0 (V3 m ρ) c 2))

/-- The first aggregation stretch writes none of them. -/
theorem keep_4_5 (c : Dev nD) : ∀ b ∈ keepRefs, W5 m ρ c (Proc.devRef .tc b) = W4 m ρ c (Proc.devRef .tc b) := by
  intro b hb
  keep_cases hb
  all_goals host_keep hostOps1

/-- Region 1 stages the normalisation column and `main_arg3` as inputs and bypasses the rest. -/
theorem keep_5_6 (c : Dev nD) : ∀ b ∈ keepRefs, W6 m ρ c (Proc.devRef .tc b) = W5 m ρ c (Proc.devRef .tc b) := by
  intro b hb
  keep_cases hb
  all_goals first
    | exact W6_of_ne m ρ c _ (by decide)
    | exact (W6_arr m ρ c 1).trans (((dat1 (V5 m ρ) c).arrAt_in 1 rfl _).trans (A_eq1 (V5 m ρ) c 1))
    | exact (W6_arr m ρ c 2).trans (((dat1 (V5 m ρ) c).arrAt_in 2 rfl _).trans (A_eq1 (V5 m ρ) c 2))

/-- Region 2 stages `main_arg4` and the normalisation column as inputs and bypasses the rest. -/
theorem keep_6_7 (c : Dev nD) : ∀ b ∈ keepRefs, W7 m ρ c (Proc.devRef .tc b) = W6 m ρ c (Proc.devRef .tc b) := by
  intro b hb
  keep_cases hb
  all_goals first
    | exact W7_of_ne m ρ c _ (by decide)
    | exact (W7_arr m ρ c 1).trans (((dat2 (V6 m ρ) c).arrAt_in 1 rfl _).trans (A_eq2 (V6 m ρ) c 1))
    | exact (W7_arr m ρ c 2).trans (((dat2 (V6 m ρ) c).arrAt_in 2 rfl _).trans (A_eq2 (V6 m ρ) c 2))

/-- The second aggregation stretch writes none of them. -/
theorem keep_7_8 (c : Dev nD) : ∀ b ∈ keepRefs, W8 m ρ c (Proc.devRef .tc b) = W7 m ρ c (Proc.devRef .tc b) := by
  intro b hb
  keep_cases hb
  all_goals host_keep hostOps3

/-- Region 3 stages the normalisation column and `main_arg5` as inputs and bypasses the rest. -/
theorem keep_8_9 (c : Dev nD) : ∀ b ∈ keepRefs, W9 m ρ c (Proc.devRef .tc b) = W8 m ρ c (Proc.devRef .tc b) := by
  intro b hb
  keep_cases hb
  all_goals first
    | exact W9_of_ne m ρ c _ (by decide)
    | exact (W9_arr m ρ c 1).trans (((dat3 (V8 m ρ) c).arrAt_in 1 rfl _).trans (A_eq3 (V8 m ρ) c 1))
    | exact (W9_arr m ρ c 2).trans (((dat3 (V8 m ρ) c).arrAt_in 2 rfl _).trans (A_eq3 (V8 m ρ) c 2))

/-- The stretch before the edge region writes none of them. -/
theorem keep_9_10 (c : Dev nD) : ∀ b ∈ keepRefs, W10 m ρ c (Proc.devRef .tc b) = W9 m ρ c (Proc.devRef .tc b) := by
  intro b hb
  keep_cases hb
  all_goals host_keep hostOps4

/-- Region 4 stages `main_arg7`, `main_arg9` and `main_arg11` as inputs and bypasses the rest. -/
theorem keep_10_11 (c : Dev nD) : ∀ b ∈ keepRefs, W11 m ρ c (Proc.devRef .tc b) = W10 m ρ c (Proc.devRef .tc b) := by
  intro b hb
  keep_cases hb
  all_goals first
    | exact W11_of_ne m ρ c _ (by decide)
    | exact (W11_arr m ρ c 6).trans (((dat4 (V10 m ρ) c).arrAt_in 6 rfl _).trans (A_eq4 (V10 m ρ) c 6))
    | exact (W11_arr m ρ c 8).trans (((dat4 (V10 m ρ) c).arrAt_in 8 rfl _).trans (A_eq4 (V10 m ρ) c 8))
    | exact (W11_arr m ρ c 10).trans (((dat4 (V10 m ρ) c).arrAt_in 10 rfl _).trans (A_eq4 (V10 m ρ) c 10))

/-- The first stretch (index rows, degree count) writes no argument. -/
theorem arg_0_1 (c : Dev nD) : ∀ b ∈ argRefs, W1 m ρ c (Proc.devRef .tc b) = W0 m ρ c (Proc.devRef .tc b) := by
  intro b hb
  arg_cases hb
  all_goals host_keep hostOps0

/-- The guarded reciprocal square root writes no argument. -/
theorem arg_1_2 (c : Dev nD) : ∀ b ∈ argRefs, W2 m ρ c (Proc.devRef .tc b) = W1 m ρ c (Proc.devRef .tc b) := by
  intro b hb
  arg_cases hb
  all_goals host_keep hostOps0_1

/-- The reshape to a column writes no argument. -/
theorem arg_2_3 (c : Dev nD) : ∀ b ∈ argRefs, W3 m ρ c (Proc.devRef .tc b) = W2 m ρ c (Proc.devRef .tc b) := by
  intro b hb
  arg_cases hb
  all_goals host_keep hostOps0_2

/-- The first three stretches write no argument: each argument is as launched when region 0 is entered. -/
theorem keep_0_3 (c : Dev nD) : ∀ b ∈ argRefs, W3 m ρ c (Proc.devRef .tc b) = m ((c : Thread nD τ).loc b) :=
  fun b hb => (arg_2_3 m ρ c b hb).trans ((arg_1_2 m ρ c b hb).trans ((arg_0_1 m ρ c b hb).trans rfl))

/-! ## From region 0's entry to each later boundary -/

theorem keep_3_5 (c : Dev nD) : ∀ b ∈ keepRefs, W5 m ρ c (Proc.devRef .tc b) = W3 m ρ c (Proc.devRef .tc b) :=
  fun b hb => (keep_4_5 m ρ c b hb).trans (keep_3_4 m ρ c b hb)

theorem keep_3_6 (c : Dev nD) : ∀ b ∈ keepRefs, W6 m ρ c (Proc.devRef .tc b) = W3 m ρ c (Proc.devRef .tc b) :=
  fun b hb => (keep_5_6 m ρ c b hb).trans (keep_3_5 m ρ c b hb)

theorem keep_3_7 (c : Dev nD) : ∀ b ∈ keepRefs, W7 m ρ c (Proc.devRef .tc b) = W3 m ρ c (Proc.devRef .tc b) :=
  fun b hb => (keep_6_7 m ρ c b hb).trans (keep_3_6 m ρ c b hb)

theorem keep_3_8 (c : Dev nD) : ∀ b ∈ keepRefs, W8 m ρ c (Proc.devRef .tc b) = W3 m ρ c (Proc.devRef .tc b) :=
  fun b hb => (keep_7_8 m ρ c b hb).trans (keep_3_7 m ρ c b hb)

theorem keep_3_9 (c : Dev nD) : ∀ b ∈ keepRefs, W9 m ρ c (Proc.devRef .tc b) = W3 m ρ c (Proc.devRef .tc b) :=
  fun b hb => (keep_8_9 m ρ c b hb).trans (keep_3_8 m ρ c b hb)

theorem keep_3_10 (c : Dev nD) : ∀ b ∈ keepRefs, W10 m ρ c (Proc.devRef .tc b) = W3 m ρ c (Proc.devRef .tc b) :=
  fun b hb => (keep_9_10 m ρ c b hb).trans (keep_3_9 m ρ c b hb)

theorem keep_3_11 (c : Dev nD) : ∀ b ∈ keepRefs, W11 m ρ c (Proc.devRef .tc b) = W3 m ρ c (Proc.devRef .tc b) :=
  fun b hb => (keep_10_11 m ρ c b hb).trans (keep_3_10 m ρ c b hb)

/-! ## The arguments at each boundary are the launch memory -/

theorem arg_3 (c : Dev nD) : ∀ b ∈ argRefs, W3 m ρ c (Proc.devRef .tc b) = m ((c : Thread nD τ).loc b) := keep_0_3 m ρ c

theorem arg_4 (c : Dev nD) : ∀ b ∈ argRefs, W4 m ρ c (Proc.devRef .tc b) = m ((c : Thread nD τ).loc b) :=
  fun b hb => (keep_3_4 m ρ c b (argRefs_sub b hb)).trans (keep_0_3 m ρ c b hb)

theorem arg_5 (c : Dev nD) : ∀ b ∈ argRefs, W5 m ρ c (Proc.devRef .tc b) = m ((c : Thread nD τ).loc b) :=
  fun b hb => (keep_3_5 m ρ c b (argRefs_sub b hb)).trans (keep_0_3 m ρ c b hb)

theorem arg_6 (c : Dev nD) : ∀ b ∈ argRefs, W6 m ρ c (Proc.devRef .tc b) = m ((c : Thread nD τ).loc b) :=
  fun b hb => (keep_3_6 m ρ c b (argRefs_sub b hb)).trans (keep_0_3 m ρ c b hb)

theorem arg_7 (c : Dev nD) : ∀ b ∈ argRefs, W7 m ρ c (Proc.devRef .tc b) = m ((c : Thread nD τ).loc b) :=
  fun b hb => (keep_3_7 m ρ c b (argRefs_sub b hb)).trans (keep_0_3 m ρ c b hb)

theorem arg_8 (c : Dev nD) : ∀ b ∈ argRefs, W8 m ρ c (Proc.devRef .tc b) = m ((c : Thread nD τ).loc b) :=
  fun b hb => (keep_3_8 m ρ c b (argRefs_sub b hb)).trans (keep_0_3 m ρ c b hb)

theorem arg_9 (c : Dev nD) : ∀ b ∈ argRefs, W9 m ρ c (Proc.devRef .tc b) = m ((c : Thread nD τ).loc b) :=
  fun b hb => (keep_3_9 m ρ c b (argRefs_sub b hb)).trans (keep_0_3 m ρ c b hb)

theorem arg_10 (c : Dev nD) : ∀ b ∈ argRefs, W10 m ρ c (Proc.devRef .tc b) = m ((c : Thread nD τ).loc b) :=
  fun b hb => (keep_3_10 m ρ c b (argRefs_sub b hb)).trans (keep_0_3 m ρ c b hb)

theorem arg_11 (c : Dev nD) : ∀ b ∈ argRefs, W11 m ρ c (Proc.devRef .tc b) = m ((c : Thread nD τ).loc b) :=
  fun b hb => (keep_3_11 m ρ c b (argRefs_sub b hb)).trans (keep_0_3 m ρ c b hb)

end Cert.KernelIdeal.Chain
-- ==== Proof.KHost.lean ====
/-
  What the host stretches of the kernel program compute, as whole-array terms.

  Each stretch is a straight line of array operations; the contents of one result buffer after the stretch is the
  composition of the operations that feed it, applied to the contents the stretch was entered with.  Every statement
  here is over an arbitrary entry valuation, so that it can be used at whichever boundary of the program the stretch
  sits: the two index rows cut from the edge list, the node degrees (a scatter-add of ones plus one) and their
  guarded reciprocal square root as a column, the two neighbourhood aggregations (gather the source rows, scatter-add
  them at the destination rows, add the node's own row), the rounded operands of the edge region, and the final
  reshape of the edge scores.
-/
import proofs.«140584_j4020089389438_2_alg».proof.Proof.Gen.KernelIdeal.Launch
import proofs.«140584_j4020089389438_2_alg».proof.Proof.LibTypedRef
import Idealize.ShloMosaic.Lib.StableHlo.Run

set_option maxRecDepth 16384

noncomputable section

namespace Cert.KernelIdeal.Chain

open Idealize.ShloMosaic Idealize.ShloMosaic.TcCoe Idealize.ShloMosaic.StableHlo
open Cert.KernelIdeal Cert.KernelIdeal.Gen

variable {F : FTy → Type} [FloatOps F]

/-! ## The first stretch: index rows and degrees -/

/-- The source row of the edge list. -/
theorem host0_v1 (W : Valuation τ sig (Elt F)) :
    StableHlo.after (hostOps0 (F := F)) W (Proc.devRef .tc main_v1) = (shapeCast S600000 (extractStridedSlice S1x600000 ![0, 0] (W (Proc.devRef .tc main_arg12)) slices_S2x600000_S1x600000_0_0) shapeCasts_S1x600000_S600000) := by
  after_results; rfl

/-- The destination row of the edge list. -/
theorem host0_v3 (W : Valuation τ sig (Elt F)) :
    StableHlo.after (hostOps0 (F := F)) W (Proc.devRef .tc main_v3) = (shapeCast S600000 (extractStridedSlice S1x600000 ![1, 0] (W (Proc.devRef .tc main_arg12)) slices_S2x600000_S1x600000_1_0) shapeCasts_S1x600000_S600000) := by
  after_results; rfl

/-- The degrees: ones scatter-added at the destination indices, plus one. -/
theorem host0_v9 (W : Valuation τ sig (Elt F)) :
    StableHlo.after (hostOps0 (F := F)) W (Proc.devRef .tc main_v9)
      = addf (Host.scatterAdd (F := F) scatter_S100000_S600000x1_S600000_n_0_0_1 (broadcastInDim S100000 ![] bcast_S_S100000 (constant (F := F) S_ .f32 0x00000000#32))
          (broadcastInDim S600000x1 ![0] bcast_S600000_S600000x1_0 (shapeCast S600000 (extractStridedSlice S1x600000 ![1, 0] (W (Proc.devRef .tc main_arg12)) slices_S2x600000_S1x600000_1_0) shapeCasts_S1x600000_S600000))
          (broadcastInDim S600000 ![] bcast_S_S600000 (constant (F := F) S_ .f32 0x3F800000#32)))
        (broadcastInDim S100000 ![] bcast_S_S100000 (constant (F := F) S_ .f32 0x3F800000#32)) := by
  after_results; rfl

/-- The degrees' positivity mask, over the degrees. -/
theorem host0_v11 (W : Valuation τ sig (Elt F)) :
    StableHlo.after (hostOps0 (F := F)) W (Proc.devRef .tc main_v11)
      = cmpf .ogt (StableHlo.after (hostOps0 (F := F)) W (Proc.devRef .tc main_v9)) (broadcastInDim S100000 ![] bcast_S_S100000 (constant (F := F) S_ .f32 0x00000000#32)) := by
  after_results

/-- The degrees' reciprocal square root, over the degrees. -/
theorem host0_v12 (W : Valuation τ sig (Elt F)) :
    StableHlo.after (hostOps0 (F := F)) W (Proc.devRef .tc main_v12)
      = Host.rsqrt (F := F) (StableHlo.after (hostOps0 (F := F)) W (Proc.devRef .tc main_v9)) := by
  after_results

/-- The zero the guard falls back to. -/
theorem host0_cst_3 (W : Valuation τ sig (Elt F)) :
    StableHlo.after (hostOps0 (F := F)) W (Proc.devRef .tc main_cst_3) = (constant (F := F) S_ .f32 0x00000000#32) := by
  after_results

/-! ## The second and third stretches: the guarded choice, as a column -/

/-- The guard and the reshape over whatever the first stretch left. -/
theorem host012_v14 (W : Valuation τ sig (Elt F)) :
    StableHlo.after (hostOps0_2 (F := F)) (StableHlo.after (hostOps0_1 (F := F)) W) (Proc.devRef .tc main_v14)
      = shapeCast S100000x1 (select (W (Proc.devRef .tc main_v11)) (W (Proc.devRef .tc main_v12))
          (broadcastInDim S100000 ![] bcast_S_S100000 (W (Proc.devRef .tc main_cst_3)))) shapeCasts_S100000_S100000x1 := by
  after_results
  simp only [Cert.LibTypedRef.ofBuf_toBuf]
  rfl

/-- The two later stretches leave the source row alone. -/
theorem host012_v1 (W : Valuation τ sig (Elt F)) :
    StableHlo.after (hostOps0_2 (F := F)) (StableHlo.after (hostOps0_1 (F := F)) W) (Proc.devRef .tc main_v1)
      = W (Proc.devRef .tc main_v1) := by
  after_results

/-- The two later stretches leave the destination row alone. -/
theorem host012_v3 (W : Valuation τ sig (Elt F)) :
    StableHlo.after (hostOps0_2 (F := F)) (StableHlo.after (hostOps0_1 (F := F)) W) (Proc.devRef .tc main_v3)
      = W (Proc.devRef .tc main_v3) := by
  after_results

/-- The normalisation column when region 0 is entered: the reciprocal square root of the degrees where they are
    positive, zero elsewhere. -/
theorem pre_v14 (W : Valuation τ sig (Elt F)) :
    StableHlo.after (hostOps0_2 (F := F)) (StableHlo.after (hostOps0_1 (F := F)) (StableHlo.after (hostOps0 (F := F)) W)) (Proc.devRef .tc main_v14)
      = shapeCast S100000x1 (select
          (cmpf .ogt (StableHlo.after (hostOps0 (F := F)) W (Proc.devRef .tc main_v9)) (broadcastInDim S100000 ![] bcast_S_S100000 (constant (F := F) S_ .f32 0x00000000#32)))
          (Host.rsqrt (F := F) (StableHlo.after (hostOps0 (F := F)) W (Proc.devRef .tc main_v9)))
          (broadcastInDim S100000 ![] bcast_S_S100000 (constant (F := F) S_ .f32 0x00000000#32))) shapeCasts_S100000_S100000x1 := by
  rw [host012_v14, host0_v11, host0_v12, host0_cst_3]

theorem pre_v1 (W : Valuation τ sig (Elt F)) :
    StableHlo.after (hostOps0_2 (F := F)) (StableHlo.after (hostOps0_1 (F := F)) (StableHlo.after (hostOps0 (F := F)) W)) (Proc.devRef .tc main_v1)
      = StableHlo.after (hostOps0 (F := F)) W (Proc.devRef .tc main_v1) := host012_v1 _

theorem pre_v3 (W : Valuation τ sig (Elt F)) :
    StableHlo.after (hostOps0_2 (F := F)) (StableHlo.after (hostOps0_1 (F := F)) (StableHlo.after (hostOps0 (F := F)) W)) (Proc.devRef .tc main_v3)
      = StableHlo.after (hostOps0 (F := F)) W (Proc.devRef .tc main_v3) := host012_v3 _

/-! ## The two aggregation stretches -/

/-- The first aggregation: the source rows gathered (negative indices wrapped), scatter-added at the destination rows, plus the node's own row. -/
theorem host1_v26 (W : Valuation τ sig (Elt F)) :
    StableHlo.after (hostOps1 (F := F)) W (Proc.devRef .tc main_v26)
      = addf (Host.scatterAdd (F := F) scatter_S100000x128_S600000x1_S600000x128_1_0_0_1
          (broadcastInDim S100000x128 ![] bcast_S_S100000x128 (constant (F := F) S_ .f32 0x00000000#32))
          (broadcastInDim S600000x1 ![0] bcast_S600000_S600000x1_0 (W (Proc.devRef .tc main_v3)))
          (Host.gather gather_S100000x128_S600000x1_S600000x128_1_0_n_n_0_1_1128 (W (Proc.devRef .tc main_v15))
            (broadcastInDim S600000x1 ![0] bcast_S600000_S600000x1_0 (select (cmpi .slt (W (Proc.devRef .tc main_v1)) (broadcastInDim S600000 ![] bcast_S_S600000 (constantI S_ 32 0#32))) (addi (W (Proc.devRef .tc main_v1)) (broadcastInDim S600000 ![] bcast_S_S600000 (constantI S_ 32 100000#32))) (W (Proc.devRef .tc main_v1))))))
        (W (Proc.devRef .tc main_v15)) := by
  after_results_simp

/-- The second aggregation, the same over the second layer's rows. -/
theorem host3_v39 (W : Valuation τ sig (Elt F)) :
    StableHlo.after (hostOps3 (F := F)) W (Proc.devRef .tc main_v39)
      = addf (Host.scatterAdd (F := F) scatter_S100000x128_S600000x1_S600000x128_1_0_0_1
          (broadcastInDim S100000x128 ![] bcast_S_S100000x128 (constant (F := F) S_ .f32 0x00000000#32))
          (broadcastInDim S600000x1 ![0] bcast_S600000_S600000x1_0 (W (Proc.devRef .tc main_v3)))
          (Host.gather gather_S100000x128_S600000x1_S600000x128_1_0_n_n_0_1_1128 (W (Proc.devRef .tc main_v28))
            (broadcastInDim S600000x1 ![0] bcast_S600000_S600000x1_0 (select (cmpi .slt (W (Proc.devRef .tc main_v1)) (broadcastInDim S600000 ![] bcast_S_S600000 (constantI S_ 32 0#32))) (addi (W (Proc.devRef .tc main_v1)) (broadcastInDim S600000 ![] bcast_S_S600000 (constantI S_ 32 100000#32))) (W (Proc.devRef .tc main_v1))))))
        (W (Proc.devRef .tc main_v28)) := by
  after_results_simp

/-! ## The stretch before the edge region: rounded operands -/

/-- The rounded node rows gathered at the source indices. -/
theorem host4_v48 (W : Valuation τ sig (Elt F)) :
    StableHlo.after (hostOps4 (F := F)) W (Proc.devRef .tc main_v48)
      = Host.gather gather_S100000x128_S600000x1_S600000x128_1_0_n_n_0_1_1128
          (truncf .bf16 (W (Proc.devRef .tc main_v40)) bitsLt_bf16_f32)
          (broadcastInDim S600000x1 ![0] bcast_S600000_S600000x1_0 (select (cmpi .slt (W (Proc.devRef .tc main_v1)) (broadcastInDim S600000 ![] bcast_S_S600000 (constantI S_ 32 0#32))) (addi (W (Proc.devRef .tc main_v1)) (broadcastInDim S600000 ![] bcast_S_S600000 (constantI S_ 32 100000#32))) (W (Proc.devRef .tc main_v1)))) := by
  after_results

/-- The rounded node rows gathered at the destination indices. -/
theorem host4_v55 (W : Valuation τ sig (Elt F)) :
    StableHlo.after (hostOps4 (F := F)) W (Proc.devRef .tc main_v55)
      = Host.gather gather_S100000x128_S600000x1_S600000x128_1_0_n_n_0_1_1128
          (truncf .bf16 (W (Proc.devRef .tc main_v40)) bitsLt_bf16_f32)
          (broadcastInDim S600000x1 ![0] bcast_S600000_S600000x1_0 (select (cmpi .slt (W (Proc.devRef .tc main_v3)) (broadcastInDim S600000 ![] bcast_S_S600000 (constantI S_ 32 0#32))) (addi (W (Proc.devRef .tc main_v3)) (broadcastInDim S600000 ![] bcast_S_S600000 (constantI S_ 32 100000#32))) (W (Proc.devRef .tc main_v3)))) := by
  after_results_simp

/-- The rounded edge features. -/
theorem host4_v56 (W : Valuation τ sig (Elt F)) :
    StableHlo.after (hostOps4 (F := F)) W (Proc.devRef .tc main_v56)
      = truncf .bf16 (W (Proc.devRef .tc main_arg1)) bitsLt_bf16_f32 := by
  after_results

/-- The rounded first row block of the first weight. -/
theorem host4_v58 (W : Valuation τ sig (Elt F)) :
    StableHlo.after (hostOps4 (F := F)) W (Proc.devRef .tc main_v58)
      = truncf .bf16 (extractStridedSlice S128x128 ![0, 0] (W (Proc.devRef .tc main_arg6)) slices_S261x128_S128x128_0_0) bitsLt_bf16_f32 := by
  after_results

/-- The rounded second row block of the first weight. -/
theorem host4_v60 (W : Valuation τ sig (Elt F)) :
    StableHlo.after (hostOps4 (F := F)) W (Proc.devRef .tc main_v60)
      = truncf .bf16 (extractStridedSlice S128x128 ![128, 0] (W (Proc.devRef .tc main_arg6)) slices_S261x128_S128x128_128_0) bitsLt_bf16_f32 := by
  after_results

/-- The rounded last row block of the first weight. -/
theorem host4_v62 (W : Valuation τ sig (Elt F)) :
    StableHlo.after (hostOps4 (F := F)) W (Proc.devRef .tc main_v62)
      = truncf .bf16 (extractStridedSlice S5x128 ![256, 0] (W (Proc.devRef .tc main_arg6)) slices_S261x128_S5x128_256_0) bitsLt_bf16_f32 := by
  after_results

/-- The rounded second weight. -/
theorem host4_v63 (W : Valuation τ sig (Elt F)) :
    StableHlo.after (hostOps4 (F := F)) W (Proc.devRef .tc main_v63)
      = truncf .bf16 (W (Proc.devRef .tc main_arg8)) bitsLt_bf16_f32 := by
  after_results

/-- The rounded third weight. -/
theorem host4_v64 (W : Valuation τ sig (Elt F)) :
    StableHlo.after (hostOps4 (F := F)) W (Proc.devRef .tc main_v64)
      = truncf .bf16 (W (Proc.devRef .tc main_arg10)) bitsLt_bf16_f32 := by
  after_results

/-! ## The last stretch -/

/-- The edge scores as a vector. -/
theorem host5_v66 (W : Valuation τ sig (Elt F)) :
    StableHlo.after (hostOps5 (F := F)) W (Proc.devRef .tc main_v66)
      = shapeCast S600000 (W (Proc.devRef .tc main_v65)) shapeCasts_S600000x1_S600000 := by
  after_results; rfl

end Cert.KernelIdeal.Chain
-- ==== Proof.LibAggColumns.lean ====
/-
  ROW AGGREGATION COLUMN BY COLUMN.

  A scatter-add of rows (a segment sum: row e of an E×C array of updates is added into the row of an N×C operand
  that a per-row integer index names) and a gather of rows (row e of the E×C result is the row of an N×C operand that a
  per-row integer index names) both act on every column separately. This file reads the two host operations at one
  element, at the exact (extended-real) instance:

    • the scatter-add at (r, q) is the operand at (r, q) plus the sum, over the update rows e whose index is r, of the
      update at (e, q): the guard of the sum mentions the index array, e and r only, never the column q or the number
      of columns;
    • the gather at (e, q) is the operand at (rowAt e, q), where rowAt e is the index of row e read as a signed
      integer and clamped into [0, N − 1]: again independent of the column and of the number of columns.

  The consequence, the column law: one graph-aggregation layer — scatter-add of (gathered rows times a per-edge
  factor), plus the node features times a per-node factor, plus a bias — computed on C columns and then read at column
  q' + off is the same layer computed on C' columns read at column q', whenever every array of the second computation is
  the window of columns [off, off + C') of the corresponding array of the first.
-/
import Idealize.ShloMosaic.Lib.ValueIdx

noncomputable section

open scoped BigOperators

namespace Cert.Lib.AggColumns

open Idealize.ShloMosaic Idealize.ShloMosaic.ValueIdx

/-! ## A scatter's result index, in general -/

/-- An update index lands at operand index i exactly when, on every axis, the signed start plus the window coordinate
    is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    by_cases hh : ∀ a, 0 ≤ d.start j idx a + d.window j a ∧ d.start j idx a + d.window j a < s.size a
    · rw [dif_pos hh] at h
      have hv := congrArg Fin.val (congrFun (Option.some.inj h) a)
      simp only at hv
      have := hh a
      omega
    · rw [dif_neg hh] at h
      exact absurd h (by simp)
  · intro h
    have hh : ∀ a, 0 ≤ d.start j idx a + d.window j a ∧ d.start j idx a + d.window j a < s.size a := by
      intro a
      have := h a
      have := (i a).isLt
      omega
    rw [dif_pos hh]
    congr 1
    funext a
    apply Fin.ext
    have := h a
    simp only
    omega

/-! ## The scatter-add of rows -/

/-- The dimension numbers of a scatter of rows: operand N×C, one scalar index per update row (indices E×1), updates
    E×C; the updates' axis 1 is the window axis, the operand's axis 0 is the inserted one and the one the index
    names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C : Nat} (wf : ScatterDims.WF ⟨2, ![N, C]⟩ ⟨2, ![E, 1]⟩ ⟨2, ![E, C]⟩ [1] [0] [0] 1)

/-- On the row axis the start is the update row's index, read signed. -/
theorem rowScatter_start0 (idx : IVec ⟨2, ![E, 1]⟩ 32) (e : Fin E) (b : Fin C) :
    (rowScatterDims N E C wf).start (ix2 e b) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e b) ⟨List.idxOf (0 : Fin 2) (rowScatterDims N E C wf).scatterDimsToOperandDims,
      List.idxOf_lt_length_iff.2 (List.mem_singleton.mpr rfl)⟩ = ix2 e 0 := by
    funext a; refine Fin.ext ?_
    match a with
    | ⟨0, _⟩ => rfl
    | ⟨1, _⟩ => rfl
  rw [hsi]

/-- On the column axis the start is zero. -/
theorem rowScatter_start1 (idx : IVec ⟨2, ![E, 1]⟩ 32) (j : (⟨2, ![E, C]⟩ : Shape).Idx) :
    (rowScatterDims N E C wf).start j idx 1 = 0 := by
  unfold ScatterDims.start
  rw [dif_neg (show (1 : Fin 2) ∉ ([0] : List (Fin 2)) by decide)]

/-- On the row axis there is no window coordinate. -/
theorem rowScatter_window0 (j : (⟨2, ![E, C]⟩ : Shape).Idx) :
    (rowScatterDims N E C wf).window j 0 = 0 := by
  unfold ScatterDims.window
  have h : (0 : Fin 2) ∉ (rowScatterDims N E C wf).sKept :=
    (by decide : (0 : Fin 2) ∉ (List.finRange 2).filter (· ∉ ([0] : List (Fin 2))))
  rw [dif_neg h]

/-- On the column axis the window coordinate is the update's column. -/
theorem rowScatter_window1 (e : Fin E) (b : Fin C) :
    (rowScatterDims N E C wf).window (ix2 e b) 1 = b.val := by
  unfold ScatterDims.window
  have h : (1 : Fin 2) ∈ (rowScatterDims N E C wf).sKept :=
    (by decide : (1 : Fin 2) ∈ (List.finRange 2).filter (· ∉ ([0] : List (Fin 2))))
  rw [dif_pos h]
  rfl

/-- An update at (e, b) lands at (r, q) exactly when row e's index, read signed, is r and the columns agree. -/
theorem rowScatter_resultIdx?_iff (idx : IVec ⟨2, ![E, 1]⟩ 32) (e : Fin E) (b : Fin C) (r : Fin N) (q : Fin C) :
    (rowScatterDims N E C wf).resultIdx? (ix2 e b) idx = some (ix2 r q) ↔
      ((idx (ix2 e 0)).toInt = (r.val : Int) ∧ b = q) := by
  rw [resultIdx?_eq_some_iff]
  constructor
  · intro h
    have h0 := h 0
    have h1 := h 1
    rw [rowScatter_start0, rowScatter_window0] at h0
    rw [rowScatter_start1, rowScatter_window1] at h1
    have h0' : (idx (ix2 e 0)).toInt + ((0 : Nat) : Int) = (r.val : Int) := h0
    have h1' : (0 : Int) + (b.val : Int) = (q.val : Int) := h1
    exact ⟨by omega, Fin.ext (by omega)⟩
  · rintro ⟨h0, rfl⟩ a
    match a with
    | ⟨0, _⟩ =>
      have := rowScatter_start0 wf idx e b
      have := rowScatter_window0 wf (ix2 e b)
      show (rowScatterDims N E C wf).start (ix2 e b) idx 0 + ((rowScatterDims N E C wf).window (ix2 e b) 0 : Int) = (r.val : Int)
      omega
    | ⟨1, _⟩ =>
      have := rowScatter_start1 wf idx (ix2 e b)
      have := rowScatter_window1 wf e b
      show (rowScatterDims N E C wf).start (ix2 e b) idx 1 + ((rowScatterDims N E C wf).window (ix2 e b) 1 : Int) = (b.val : Int)
      omega

/-- THE SCATTER-ADD OF ROWS AT (r, q): the operand there plus the updates of column q in the rows whose index is r. -/
theorem rowScatter_scatterAdd_apply {φ : FTy} (x : FVec Ideal ⟨2, ![N, C]⟩ φ) (idx : IVec ⟨2, ![E, 1]⟩ 32)
    (upd : FVec Ideal ⟨2, ![E, C]⟩ φ) (r : Fin N) (q : Fin C) :
    Host.scatterAdd (F := Ideal) (rowScatterDims N E C wf) x idx upd (ix2 r q)
      = x (ix2 r q) + ∑ e : Fin E, if (idx (ix2 e 0)).toInt = (r.val : Int) then upd (ix2 e q) else 0 := by
  unfold Host.scatterAdd
  rw [Ideal.hostScatterAdd_def]
  unfold Ideal.hostScatterAdd
  congr 1
  rw [Finset.sum_filter, sum_idx2]
  refine Finset.sum_congr rfl fun e _ => ?_
  simp only [rowScatter_resultIdx?_iff]
  by_cases h : (idx (ix2 e 0)).toInt = (r.val : Int)
  · simp only [h, true_and, if_true]
    rw [Finset.sum_ite_eq' Finset.univ q (fun b => upd (ix2 e b))]
    simp
  · simp only [h, false_and, if_false]
    exact Finset.sum_const_zero

end RowScatter

/-- THE SCATTER-ADD OF ROWS AT (r, q), for any dimension numbers whose lists are those of a scatter of rows: the
    operand at (r, q) plus the updates of column q in the rows whose index, read signed, is r. The guard of the sum does
    not mention the column or the number of columns. -/
theorem scatterAdd_rows_apply {N E C : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ 32)
    (upd : FVec Ideal ⟨2, ![E, C]⟩ φ) (r : Fin N) (q : Fin C) :
    Host.scatterAdd (F := Ideal) d x idx upd (ix2 r q)
      = x (ix2 r q) + ∑ e : Fin E, if (idx (ix2 e 0)).toInt = (r.val : Int) then upd (ix2 e q) else 0 := by
  obtain ⟨uw, iw, sd, iv, wf⟩ := d
  dsimp only at huw hiw hsd hiv
  subst huw hiw hsd hiv
  exact rowScatter_scatterAdd_apply wf x idx upd r q

/-! ## The gather of rows -/

/-- The operand row that an index array names for result row e: the index of row e read as a signed integer and
    clamped into [0, N − 1]. It depends on the index array, the row and the number of operand rows only. -/
def rowAt {N E : Nat} (hN : 0 < N) (idx : IVec ⟨2, ![E, 1]⟩ 32) (e : Fin E) : Fin N :=
  ⟨min (idx (ix2 e 0)).toInt.toNat (N - 1), by omega⟩

/-- The dimension numbers of a gather of rows: operand N×C, one scalar start index per result row (indices E×1),
    result E×C; the operand's axis 0 is collapsed and is the one the index names, the result's axis 1 is the offset
    axis, and a slice is one whole row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section RowGather
variable {N E C : Nat} (wf : GatherDims.WF ⟨2, ![N, C]⟩ ⟨2, ![E, 1]⟩ ⟨2, ![E, C]⟩ [1] [0] [] [0] [] 1 ![1, C])

/-- On the row axis the operand index is the clamped start: no batching and no offset coordinate there. -/
theorem rowGather_operandIdx0 (hN : 0 < N) (idx : IVec ⟨2, ![E, 1]⟩ 32) (e : Fin E) (q : Fin C) :
    ((rowGatherDims N E C wf).operandIdx (ix2 e q) idx 0).val = (rowAt hN idx e).val := by
  show (rowGatherDims N E C wf).start (ix2 e q) idx 0 + (rowGatherDims N E C wf).batchCoord (ix2 e q) 0
    + (rowGatherDims N E C wf).offCoord (ix2 e q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e q) ⟨List.idxOf (0 : Fin 2) (rowGatherDims N E C wf).startIndexMap,
      List.idxOf_lt_length_iff.2 (List.mem_singleton.mpr rfl)⟩ = ix2 e 0 := by
    funext a; refine Fin.ext ?_
    match a with
    | ⟨0, _⟩ => rfl
    | ⟨1, _⟩ => rfl
  rw [hsi]
  rfl

/-- On the column axis the operand index is the result's column: start zero, no batching, the offset coordinate. -/
theorem rowGather_operandIdx1 (idx : IVec ⟨2, ![E, 1]⟩ 32) (e : Fin E) (q : Fin C) :
    ((rowGatherDims N E C wf).operandIdx (ix2 e q) idx 1).val = q.val := by
  show (rowGatherDims N E C wf).start (ix2 e q) idx 1 + (rowGatherDims N E C wf).batchCoord (ix2 e q) 1
    + (rowGatherDims N E C wf).offCoord (ix2 e q) 1 = _
  have hs : (rowGatherDims N E C wf).start (ix2 e q) idx 1 = 0 := by
    unfold GatherDims.start
    rw [dif_neg (show (1 : Fin 2) ∉ ([0] : List (Fin 2)) by decide)]
  have ho : (rowGatherDims N E C wf).offCoord (ix2 e q) 1 = q.val := by
    unfold GatherDims.offCoord
    have h : (1 : Fin 2) ∈ (rowGatherDims N E C wf).sKept :=
      (by decide : (1 : Fin 2) ∈ (List.finRange 2).filter (· ∉ (([0] : List (Fin 2)) ++ [])))
    rw [dif_pos h]
    rfl
  rw [GatherDims.batchCoord_eq_zero _ _ _ List.not_mem_nil, hs, ho]
  omega

/-- The gather of rows at (e, q): the operand at (rowAt e, q). -/
theorem rowGather_apply {α : Type} (hN : 0 < N) (x : (⟨2, ![N, C]⟩ : Shape).Idx → α) (idx : IVec ⟨2, ![E, 1]⟩ 32)
    (e : Fin E) (q : Fin C) :
    Host.gather (rowGatherDims N E C wf) x idx (ix2 e q) = x (ix2 (rowAt hN idx e) q) := by
  unfold Host.gather
  congr 1
  funext a
  refine Fin.ext ?_
  match a with
  | ⟨0, _⟩ => exact rowGather_operandIdx0 wf hN idx e q
  | ⟨1, _⟩ => exact rowGather_operandIdx1 wf idx e q

end RowGather

/-- THE GATHER OF ROWS AT (e, q), for any dimension numbers whose lists are those of a gather of rows: the operand at
    (rowAt e, q), the row being the index of row e read signed and clamped into [0, N − 1]. -/
theorem gather_rows_apply {N E C : Nat} {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ 32)
    (e : Fin E) (q : Fin C) :
    Host.gather d x idx (ix2 e q) = x (ix2 (rowAt hN idx e) q) := by
  obtain ⟨od, cd, ob, sb, sm, iv, ss, wf⟩ := d
  dsimp only at hod hcd hob hsb hsm hiv hss
  subst hod hcd hob hsb hsm hiv hss
  exact rowGather_apply wf hN x idx e q

/-! ## The column law -/

/-- The lists of a scatter of rows (see rowScatterDims). -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The lists and slice sizes of a gather of rows (see rowGatherDims). -/
def IsRowGather {N E C : Nat} (d : GatherDims ⟨2, ![N, C]⟩ ⟨2, ![E, 1]⟩ ⟨2, ![E, C]⟩) : Prop :=
  d.offsetDims = [1] ∧ d.collapsedSliceDims = [0] ∧ d.operandBatchingDims = [] ∧ d.startIndicesBatchingDims = [] ∧
    d.startIndexMap = [0] ∧ d.indexVectorDim = 1 ∧ d.sliceSizes = ![1, C]

/-- The scatter-add of rows at (r, q), the lists bundled. -/
theorem IsRowScatter.apply {N E C : Nat} {φ : FTy} {d : ScatterDims ⟨2, ![N, C]⟩ ⟨2, ![E, 1]⟩ ⟨2, ![E, C]⟩}
    (hd : IsRowScatter d) (x : FVec Ideal ⟨2, ![N, C]⟩ φ) (idx : IVec ⟨2, ![E, 1]⟩ 32)
    (upd : FVec Ideal ⟨2, ![E, C]⟩ φ) (r : Fin N) (q : Fin C) :
    Host.scatterAdd (F := Ideal) d x idx upd (ix2 r q)
      = x (ix2 r q) + ∑ e : Fin E, if (idx (ix2 e 0)).toInt = (r.val : Int) then upd (ix2 e q) else 0 :=
  scatterAdd_rows_apply d hd.1 hd.2.1 hd.2.2.1 hd.2.2.2 x idx upd r q

/-- The gather of rows at (e, q), the lists bundled. -/
theorem IsRowGather.apply {N E C : Nat} {α : Type} {d : GatherDims ⟨2, ![N, C]⟩ ⟨2, ![E, 1]⟩ ⟨2, ![E, C]⟩}
    (hd : IsRowGather d) (hN : 0 < N) (x : (⟨2, ![N, C]⟩ : Shape).Idx → α) (idx : IVec ⟨2, ![E, 1]⟩ 32)
    (e : Fin E) (q : Fin C) :
    Host.gather d x idx (ix2 e q) = x (ix2 (rowAt hN idx e) q) :=
  gather_rows_apply hN d hd.1 hd.2.1 hd.2.2.1 hd.2.2.2.1 hd.2.2.2.2.1 hd.2.2.2.2.2.1 hd.2.2.2.2.2.2 x idx e q

/-- The aggregated messages, column by column: the sum over the edges into node n of (gathered source row times the
    per-edge factor) at column q' + off of the wide computation is the same sum at column q' of the narrow one. -/
theorem agg_sum_columns {N E C C' off : Nat} {φ : FTy} (hN : 0 < N) (hoff : C' + off ≤ C)
    {g : GatherDims ⟨2, ![N, C]⟩ ⟨2, ![E, 1]⟩ ⟨2, ![E, C]⟩} (hg : IsRowGather g)
    {g' : GatherDims ⟨2, ![N, C']⟩ ⟨2, ![E, 1]⟩ ⟨2, ![E, C']⟩} (hg' : IsRowGather g')
    (idxS idxG : IVec ⟨2, ![E, 1]⟩ 32)
    (H : FVec Ideal ⟨2, ![N, C]⟩ φ) (nb : FVec Ideal ⟨2, ![E, C]⟩ φ)
    (H' : FVec Ideal ⟨2, ![N, C']⟩ φ) (nb' : FVec Ideal ⟨2, ![E, C']⟩ φ)
    (hH : ∀ (n : Fin N) (q' : Fin C'), H (ix2 n ⟨q'.val + off, by omega⟩) = H' (ix2 n q'))
    (hnb : ∀ (e : Fin E) (q' : Fin C'), nb (ix2 e ⟨q'.val + off, by omega⟩) = nb' (ix2 e q'))
    (n : Fin N) (q' : Fin C') :
    (∑ e : Fin E, if (idxS (ix2 e 0)).toInt = (n.val : Int)
        then mulf (Host.gather g H idxG) nb (ix2 e ⟨q'.val + off, by omega⟩) else 0)
      = ∑ e : Fin E, if (idxS (ix2 e 0)).toInt = (n.val : Int)
        then mulf (Host.gather g' H' idxG) nb' (ix2 e q') else 0 := by
  refine Finset.sum_congr rfl fun e _ => ?_
  by_cases h : (idxS (ix2 e 0)).toInt = (n.val : Int)
  · rw [if_pos h, if_pos h, mulf_apply, mulf_apply, hg.apply hN, hg'.apply hN, hH, hnb]
  · rw [if_neg h, if_neg h]

/-- THE COLUMN LAW. One aggregation layer — scatter-add into z of (gathered rows of H times the per-edge factor nb),
    plus H times the per-node factor ssb, plus the bias bb — on C columns, read at column q' + off, is the same layer
    on C' columns, read at column q', when each array of the second is the window of columns [off, off + C') of the
    corresponding array of the first. The two computations share the index arrays, so they add the same edges and read
    the same source rows. -/
theorem agg_columns {N E C C' off : Nat} {φ : FTy} (hN : 0 < N) (hoff : C' + off ≤ C)
    {d : ScatterDims ⟨2, ![N, C]⟩ ⟨2, ![E, 1]⟩ ⟨2, ![E, C]⟩} (hd : IsRowScatter d)
    {g : GatherDims ⟨2, ![N, C]⟩ ⟨2, ![E, 1]⟩ ⟨2, ![E, C]⟩} (hg : IsRowGather g)
    {d' : ScatterDims ⟨2, ![N, C']⟩ ⟨2, ![E, 1]⟩ ⟨2, ![E, C']⟩} (hd' : IsRowScatter d')
    {g' : GatherDims ⟨2, ![N, C']⟩ ⟨2, ![E, 1]⟩ ⟨2, ![E, C']⟩} (hg' : IsRowGather g')
    (idxS idxG : IVec ⟨2, ![E, 1]⟩ 32)
    (H ssb bb z : FVec Ideal ⟨2, ![N, C]⟩ φ) (nb : FVec Ideal ⟨2, ![E, C]⟩ φ)
    (H' ssb' bb' z' : FVec Ideal ⟨2, ![N, C']⟩ φ) (nb' : FVec Ideal ⟨2, ![E, C']⟩ φ)
    (hH : ∀ (n : Fin N) (q' : Fin C'), H (ix2 n ⟨q'.val + off, by omega⟩) = H' (ix2 n q'))
    (hnb : ∀ (e : Fin E) (q' : Fin C'), nb (ix2 e ⟨q'.val + off, by omega⟩) = nb' (ix2 e q'))
    (hss : ∀ (n : Fin N) (q' : Fin C'), ssb (ix2 n ⟨q'.val + off, by omega⟩) = ssb' (ix2 n q'))
    (hb : ∀ (n : Fin N) (q' : Fin C'), bb (ix2 n ⟨q'.val + off, by omega⟩) = bb' (ix2 n q'))
    (hz : ∀ (n : Fin N) (q' : Fin C'), z (ix2 n ⟨q'.val + off, by omega⟩) = z' (ix2 n q'))
    (n : Fin N) (q' : Fin C') :
    addf (addf (Host.scatterAdd (F := Ideal) d z idxS (mulf (Host.gather g H idxG) nb)) (mulf H ssb)) bb
        (ix2 n ⟨q'.val + off, by omega⟩)
      = addf (addf (Host.scatterAdd (F := Ideal) d' z' idxS (mulf (Host.gather g' H' idxG) nb')) (mulf H' ssb')) bb'
        (ix2 n q') := by
  rw [addf_apply, addf_apply, mulf_apply, addf_apply, addf_apply, mulf_apply, hd.apply, hd'.apply,
    agg_sum_columns hN hoff hg hg' idxS idxG H nb H' nb' hH hnb n q', hz, hH, hss, hb]

end Cert.Lib.AggColumns

end
-- ==== Proof.LibAgg1D.lean ====
/-
  AGGREGATION OF VECTORS, AND TWO VECTORS LAID END TO END.

  The one-dimensional companions of the row operations: a scatter-add of scalars (a segment sum: entry e of a vector
  of E updates is added into the entry of an N-vector operand that a per-entry integer index names) and a gather of
  scalars (entry e of the E-vector result is the entry of an N-vector operand that a per-entry integer index names).
  This file reads the two host operations at one element, at the exact (extended-real) instance:

    • the scatter-add at r is the operand at r plus the sum, over the update entries e whose index is r, of the
      update at e;
    • the gather at e is the operand at rowAt e, where rowAt e is the index of entry e read as a signed integer and
      clamped into [0, N − 1].

  It also reads two vectors joined end to end (along axis 0) at an entry of either piece.
-/
import Idealize.ShloMosaic.Lib.ValueIdx
import Idealize.ShloMosaic.Lib.Pipeline.Value
import proofs.«140584_j4020089389438_2_alg».proof.Proof.LibAggColumns

noncomputable section

open scoped BigOperators

namespace Cert.Lib.Agg1D

open Idealize.ShloMosaic Idealize.ShloMosaic.ValueIdx
open Cert.Lib.AggColumns (rowAt resultIdx?_eq_some_iff)

/-! ## Sums over a vector's indices -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter-add of scalars -/

/-- The dimension numbers of a scatter of scalars: operand of N entries, one scalar index per update (indices E×1),
    E updates; the updates have no window axis, the operand's one axis is the inserted one and the one the index
    names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E : Nat} (wf : ScatterDims.WF ⟨1, ![N]⟩ ⟨2, ![E, 1]⟩ ⟨1, ![E]⟩ [] [0] [0] 1)

/-- On the operand's one axis the start is the update entry's index, read signed. -/
theorem vecScatter_start0 (idx : IVec ⟨2, ![E, 1]⟩ 32) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext a; refine Fin.ext ?_
    match a with
    | ⟨0, _⟩ => rfl
    | ⟨1, _⟩ => rfl
  rw [hsi]

/-- On the operand's one axis there is no window coordinate. -/
theorem vecScatter_window0 (j : (⟨1, ![E]⟩ : Shape).Idx) :
    (vecScatterDims N E wf).window j 0 = 0 := by
  unfold ScatterDims.window
  have h : (0 : Fin 1) ∉ (vecScatterDims N E wf).sKept :=
    (by decide : (0 : Fin 1) ∉ (List.finRange 1).filter (· ∉ ([0] : List (Fin 1))))
  rw [dif_neg h]

/-- An update at e lands at r exactly when entry e's index, read signed, is r. -/
theorem vecScatter_resultIdx?_iff (idx : IVec ⟨2, ![E, 1]⟩ 32) (e : Fin E) (r : Fin N) :
    (vecScatterDims N E wf).resultIdx? (ix1 e) idx = some (ix1 r) ↔ (idx (ix2 e 0)).toInt = (r.val : Int) := by
  rw [resultIdx?_eq_some_iff]
  constructor
  · intro h
    have h0 := h 0
    rw [vecScatter_start0, vecScatter_window0] at h0
    have h0' : (idx (ix2 e 0)).toInt + ((0 : Nat) : Int) = (r.val : Int) := h0
    omega
  · intro h0 a
    match a with
    | ⟨0, _⟩ =>
      have := vecScatter_start0 wf idx e
      have := vecScatter_window0 wf (ix1 e)
      show (vecScatterDims N E wf).start (ix1 e) idx 0 + ((vecScatterDims N E wf).window (ix1 e) 0 : Int) = (r.val : Int)
      omega

/-- The scatter-add of scalars at r: the operand there plus the updates whose index is r. -/
theorem vecScatter_scatterAdd_apply {φ : FTy} (x : FVec Ideal ⟨1, ![N]⟩ φ) (idx : IVec ⟨2, ![E, 1]⟩ 32)
    (upd : FVec Ideal ⟨1, ![E]⟩ φ) (r : Fin N) :
    Host.scatterAdd (F := Ideal) (vecScatterDims N E wf) x idx upd (ix1 r)
      = x (ix1 r) + ∑ e : Fin E, if (idx (ix2 e 0)).toInt = (r.val : Int) then upd (ix1 e) else 0 := by
  unfold Host.scatterAdd
  rw [Ideal.hostScatterAdd_def]
  unfold Ideal.hostScatterAdd
  congr 1
  rw [Finset.sum_filter, sum_idx1]
  refine Finset.sum_congr rfl fun e _ => ?_
  simp only [vecScatter_resultIdx?_iff]

end VecScatter

/-- THE SCATTER-ADD OF SCALARS AT r, for any dimension numbers whose lists are those of a scatter of scalars: the
    operand at r plus the sum of the updates at the entries e whose index, read signed, is r. -/
theorem scatterAdd_vec_apply {N E : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ 32)
    (upd : FVec Ideal ⟨1, ![E]⟩ φ) (r : Fin N) :
    Host.scatterAdd (F := Ideal) d x idx upd (ix1 r)
      = x (ix1 r) + ∑ e : Fin E, if (idx (ix2 e 0)).toInt = (r.val : Int) then upd (ix1 e) else 0 := by
  obtain ⟨uw, iw, sd, iv, wf⟩ := d
  dsimp only at huw hiw hsd hiv
  subst huw hiw hsd hiv
  exact vecScatter_scatterAdd_apply wf x idx upd r

/-! ## The gather of scalars -/

/-- The dimension numbers of a gather of scalars: operand of N entries, one scalar start index per result entry
    (indices E×1), result of E entries; the operand's one axis is collapsed and is the one the index names, the result
    has no offset axis, and a slice is one entry. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section VecGather
variable {N E : Nat} (wf : GatherDims.WF ⟨1, ![N]⟩ ⟨2, ![E, 1]⟩ ⟨1, ![E]⟩ [] [0] [] [0] [] 1 ![1])

/-- On the operand's one axis the operand index is the clamped start: no batching and no offset coordinate there. -/
theorem vecGather_operandIdx0 (hN : 0 < N) (idx : IVec ⟨2, ![E, 1]⟩ 32) (e : Fin E) :
    ((vecGatherDims N E wf).operandIdx (ix1 e) idx 0).val = (rowAt hN idx e).val := by
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext a; refine Fin.ext ?_
    match a with
    | ⟨0, _⟩ => rfl
    | ⟨1, _⟩ => rfl
  rw [hsi]
  rfl

/-- The gather of scalars at e: the operand at rowAt e. -/
theorem vecGather_apply {α : Type} (hN : 0 < N) (x : (⟨1, ![N]⟩ : Shape).Idx → α) (idx : IVec ⟨2, ![E, 1]⟩ 32)
    (e : Fin E) :
    Host.gather (vecGatherDims N E wf) x idx (ix1 e) = x (ix1 (rowAt hN idx e)) := by
  unfold Host.gather
  congr 1
  funext a
  refine Fin.ext ?_
  match a with
  | ⟨0, _⟩ => exact vecGather_operandIdx0 wf hN idx e

end VecGather

/-- THE GATHER OF SCALARS AT e, for any dimension numbers whose lists are those of a gather of scalars: the operand at
    rowAt e, the entry being the index of entry e read signed and clamped into [0, N − 1]. -/
theorem gather_vec_apply {N E : Nat} {α : Type} (hN : 0 < N) (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1]) (x : (⟨1, ![N]⟩ : Shape).Idx → α) (idx : IVec ⟨2, ![E, 1]⟩ 32)
    (e : Fin E) :
    Host.gather d x idx (ix1 e) = x (ix1 (rowAt hN idx e)) := by
  obtain ⟨od, cd, ob, sb, sm, iv, ss, wf⟩ := d
  dsimp only at hod hcd hob hsb hsm hiv hss
  subst hod hcd hob hsb hsm hiv hss
  exact vecGather_apply wf hN x idx e

/-! ## Two vectors laid end to end -/

/-- Entry j' of the joined vector in piece 0: it reads piece 0 at j'. -/
theorem concat2_vec_0 {α : Type} {n0 n1 c : ℕ} (x₀ : (⟨1, ![n0]⟩ : Shape).Idx → α) (x₁ : (⟨1, ![n1]⟩ : Shape).Idx → α)
    (h : Shape.Concatenates [⟨1, ![n0]⟩, ⟨1, ![n1]⟩] ⟨1, ![c]⟩ (0 : Fin 1))
    (j : Fin n0) (j' : Fin c) (hj : j'.val = 0 + j.val) :
    concatenate ⟨1, ![c]⟩ (0 : Fin 1) [⟨⟨1, ![n0]⟩, x₀⟩, ⟨⟨1, ![n1]⟩, x₁⟩] h (ix1 j') = x₀ (ix1 j) := by
  refine concatenate_apply_piece (t := ⟨1, ![c]⟩) (0 : Fin 1)
    [⟨⟨1, ![n0]⟩, x₀⟩, ⟨⟨1, ![n1]⟩, x₁⟩]
    h (ix1 j') 0 (by show 0 < 2; omega) ⟨1, ![n0]⟩ x₀ rfl rfl (0) rfl (ix1 j)
    (fun bb hb => ?_) ?_
  · match bb with
    | ⟨0, _⟩ => exact absurd rfl hb
  · show 0 + j.val = j'.val
    omega

/-- Entry j' of the joined vector in piece 1: it reads piece 1 at j' less the length of piece 0. -/
theorem concat2_vec_1 {α : Type} {n0 n1 c : ℕ} (x₀ : (⟨1, ![n0]⟩ : Shape).Idx → α) (x₁ : (⟨1, ![n1]⟩ : Shape).Idx → α)
    (h : Shape.Concatenates [⟨1, ![n0]⟩, ⟨1, ![n1]⟩] ⟨1, ![c]⟩ (0 : Fin 1))
    (j : Fin n1) (j' : Fin c) (hj : j'.val = n0 + j.val) :
    concatenate ⟨1, ![c]⟩ (0 : Fin 1) [⟨⟨1, ![n0]⟩, x₀⟩, ⟨⟨1, ![n1]⟩, x₁⟩] h (ix1 j') = x₁ (ix1 j) := by
  refine concatenate_apply_piece (t := ⟨1, ![c]⟩) (0 : Fin 1)
    [⟨⟨1, ![n0]⟩, x₀⟩, ⟨⟨1, ![n1]⟩, x₁⟩]
    h (ix1 j') 1 (by show 1 < 2; omega) ⟨1, ![n1]⟩ x₁ rfl rfl (n0 + 0) rfl (ix1 j)
    (fun bb hb => ?_) ?_
  · match bb with
    | ⟨0, _⟩ => exact absurd rfl hb
  · show n0 + 0 + j.val = j'.val
    omega

end Cert.Lib.Agg1D

end
-- ==== Proof.LibBcastRead.lean ====
/-
  Broadcasts of vectors over a matrix, read at an entry.

  A length-`E` vector turned into an `E × 1` column and then spread over `C` columns has, at entry
  `(e, q)`, the vector's entry `e`, whatever the column `q`. A length-`C` vector turned into a
  `1 × C` row and then spread over `N` rows has, at entry `(n, q)`, the vector's entry `q`. A scalar
  spread over any shape has the scalar at every entry. No program is imported.
-/
import Idealize.ShloMosaic.Lib.Pipeline.Value
import Idealize.ShloMosaic.Lib.ValueIdx

noncomputable section

namespace Cert.Lib.BcastRead

open Idealize.ShloMosaic Idealize.ShloMosaic.ValueIdx

variable {α : Type}

/-- A vector as a column, spread over the columns: entry `(e, q)` is the vector's entry `e`. -/
theorem col_spread_apply {E C : Nat} (hE : E ≠ 1)
    (h1 : (⟨1, ![E]⟩ : Shape).BroadcastsInDim ⟨2, ![E, 1]⟩ ![0])
    (h2 : (⟨2, ![E, 1]⟩ : Shape).BroadcastsInDim ⟨2, ![E, C]⟩ ![0, 1])
    (v : (⟨1, ![E]⟩ : Shape).Idx → α) (e : Fin E) (q : Fin C) :
    broadcastInDim ⟨2, ![E, C]⟩ ![0, 1] h2 (broadcastInDim ⟨2, ![E, 1]⟩ ![0] h1 v) (ix2 e q) = v (ix1 e) := by
  rw [broadcastInDim_apply ![0, 1] h2 _ (ix2 e q) (ix2 e (0 : Fin 1)) (fun a => by
    match a with
    | ⟨0, _⟩ => exact (if_neg hE).symm
    | ⟨1, _⟩ => exact (if_pos rfl).symm)]
  exact broadcastInDim_apply ![0] h1 v (ix2 e (0 : Fin 1)) (ix1 e) (fun a => by
    match a with
    | ⟨0, _⟩ => exact (if_neg hE).symm)

/-- A vector as a row, spread over the rows: entry `(n, q)` is the vector's entry `q`. -/
theorem row_spread_apply {N C : Nat} (hC : C ≠ 1)
    (h1 : (⟨1, ![C]⟩ : Shape).BroadcastsInDim ⟨2, ![1, C]⟩ ![1])
    (h2 : (⟨2, ![1, C]⟩ : Shape).BroadcastsInDim ⟨2, ![N, C]⟩ ![0, 1])
    (v : (⟨1, ![C]⟩ : Shape).Idx → α) (n : Fin N) (q : Fin C) :
    broadcastInDim ⟨2, ![N, C]⟩ ![0, 1] h2 (broadcastInDim ⟨2, ![1, C]⟩ ![1] h1 v) (ix2 n q) = v (ix1 q) := by
  rw [broadcastInDim_apply ![0, 1] h2 _ (ix2 n q) (ix2 (0 : Fin 1) q) (fun a => by
    match a with
    | ⟨0, _⟩ => exact (if_pos rfl).symm
    | ⟨1, _⟩ => exact (if_neg hC).symm)]
  exact broadcastInDim_apply ![1] h1 v (ix2 (0 : Fin 1) q) (ix1 q) (fun a => by
    match a with
    | ⟨0, _⟩ => exact (if_neg hC).symm)

/-- A scalar spread over a shape: every entry is the scalar. -/
theorem scalar_spread_apply {T : Shape} (h : (⟨0, ![]⟩ : Shape).BroadcastsInDim T ![])
    (x : (⟨0, ![]⟩ : Shape).Idx → α) (j : T.Idx) :
    broadcastInDim T ![] h x j = x ix0 :=
  broadcastInDim_apply ![] h x j ix0 (fun a => a.elim0)

end Cert.Lib.BcastRead

end
-- ==== Proof.IndexFacts.lean ====
/-
  Index words of a gather: normalisation of a negative index and clamping into the node range.

  A 32-bit index word w is first normalised (a negative w has the node count 100000 added) and then, read as a signed
  integer, clamped into [0, 99999].  For a word that already is a node number r (read signed, it equals r) both steps
  are the identity, so the row read is r itself; in particular for the k-th word of the counting sequence 0, 1, 2, ….
-/
import Idealize.ShloMosaic.PureOps.Ideal

namespace Cert.IndexFacts

open Idealize.ShloMosaic

/-- Normalisation: a negative index word has the node count added. -/
def nrm (w : BitVec 32) : BitVec 32 :=
  Scalar.select (IntOp.cmpi .slt w 0#32) (IntOp.addi w 100000#32) w

/-- The node a word names when read signed and clamped into the node range. -/
def row (w : BitVec 32) : Fin 100000 := ⟨min w.toInt.toNat (100000 - 1), by omega⟩

/-- A nonnegative word is its own normalisation. -/
theorem nrm_of_nonneg (w : BitVec 32) (h : 0 ≤ w.toInt) : nrm w = w := by
  unfold nrm Scalar.select
  have hs : w.slt 0#32 = false := by
    rw [BitVec.slt_eq_decide]
    simp only [BitVec.toInt_zero, decide_eq_false_iff_not, not_lt]
    exact h
  have hc : ¬ (IntOp.cmpi .slt w 0#32 = (1 : BitVec 1)) := by
    show ¬ (BitVec.ofBool (w.slt 0#32) = 1)
    rw [hs]; decide
  rw [if_neg hc]

/-- A word that reads signed as the node number r names row r. -/
theorem row_nrm_of_toInt (w : BitVec 32) (r : Fin 100000) (h : w.toInt = (r.val : Int)) : row (nrm w) = r := by
  rw [nrm_of_nonneg w (by omega)]
  apply Fin.ext
  show min w.toInt.toNat (100000 - 1) = r.val
  have := r.isLt
  omega

/-- The k-th counting word reads signed as k. -/
theorem toInt_ofNat (k : Fin 100000) : (BitVec.ofNat 32 k.val).toInt = (k.val : Int) := by
  have hk := k.isLt
  have h1 : (BitVec.ofNat 32 k.val).toNat = k.val := by
    rw [BitVec.toNat_ofNat]; exact Nat.mod_eq_of_lt (by omega)
  rw [BitVec.toInt_eq_toNat_cond, h1, if_pos (by omega)]

/-- The k-th counting word names row k. -/
theorem row_nrm_ofNat (k : Fin 100000) : row (nrm (BitVec.ofNat 32 k.val)) = k :=
  row_nrm_of_toInt _ k (toInt_ofNat k)

end Cert.IndexFacts
-- ==== Proof.KHostPoint.lean ====
/-
  The kernel program's host operations between its regions, read at one element on the extended reals.

  Over any index vectors src, dst (600000 words each) and any node array H:
    • the index column of a gather — negative words normalised, then laid out as a 600000 × 1 column — holds at row e
      the normalised word of e;
    • the degree: scatter-adding a constant c over the edges into a constant z, then adding c, gives at node r the value
      (z + the sum of c over the edges whose target word reads r) + c;
    • the aggregation: scatter-adding the gathered rows of H into a constant z and then adding H gives at (r, q)
      (z + the sum over the edges whose target word reads r of H at (the source's row, q)) + H at (r, q);
    • a gather of rows of H at (e, k) is H at (the row e's word names, k).
-/
import proofs.«140584_j4020089389438_2_alg».proof.Proof.Gen.KernelIdeal
import proofs.«140584_j4020089389438_2_alg».proof.Proof.LibAggColumns
import proofs.«140584_j4020089389438_2_alg».proof.Proof.LibAgg1D
import proofs.«140584_j4020089389438_2_alg».proof.Proof.LibBcastRead
import proofs.«140584_j4020089389438_2_alg».proof.Proof.IndexFacts
import Idealize.ShloMosaic.Lib.ValueIdx
import Idealize.ShloMosaic.Lib.Pipeline.Value

noncomputable section

open scoped BigOperators

namespace Cert.KernelIdeal.HostPoint

open Idealize.ShloMosaic Idealize.ShloMosaic.ValueIdx Cert.IndexFacts Cert.KernelIdeal
open Cert.Lib.AggColumns (rowAt gather_rows_apply scatterAdd_rows_apply)
open Cert.Lib.Agg1D (scatterAdd_vec_apply)
open Cert.Lib.BcastRead (scalar_spread_apply)

variable {α : Type}

/-- A vector laid out as a column holds at row e its entry e. -/
theorem col_read (hb : S600000.BroadcastsInDim S600000x1 ![0]) (y : S600000.Idx → α) (e : Fin 600000) :
    broadcastInDim S600000x1 ![0] hb y (ix2 e 0) = y (ix1 e) :=
  broadcastInDim_apply _ hb y (ix2 e 0) (ix1 e) (fun a => match a with
    | ⟨0, _⟩ => by show e.val = if (600000 : Nat) = 1 then 0 else e.val; rw [if_neg (by decide)])

/-- The index column of a gather holds at row e the normalised word of e. -/
theorem nrm_read (hb1 : S_.BroadcastsInDim S600000 ![]) (hb : S600000.BroadcastsInDim S600000x1 ![0])
    (w : IVec S600000 32) (e : Fin 600000) :
    broadcastInDim S600000x1 ![0] hb
        (select (cmpi .slt w (broadcastInDim S600000 ![] hb1 (constantI S_ 32 0#32)))
          (addi w (broadcastInDim S600000 ![] hb1 (constantI S_ 32 100000#32))) w) (ix2 e 0)
      = nrm (w (ix1 e)) := by
  rw [col_read]
  show Scalar.select (IntOp.cmpi .slt (w (ix1 e)) (broadcastInDim S600000 ![] hb1 (constantI S_ 32 0#32) (ix1 e)))
      (IntOp.addi (w (ix1 e)) (broadcastInDim S600000 ![] hb1 (constantI S_ 32 100000#32) (ix1 e))) (w (ix1 e)) = _
  rw [scalar_spread_apply, scalar_spread_apply]
  rfl

/-- The degree at node r. -/
theorem deg_read (hbz : S_.BroadcastsInDim S100000 ![]) (hb1 : S_.BroadcastsInDim S600000 ![])
    (hb : S600000.BroadcastsInDim S600000x1 ![0]) (dstV : IVec S600000 32) (r : Fin 100000) :
    addf (Host.scatterAdd (F := Ideal) scatter_S100000_S600000x1_S600000_n_0_0_1
          (broadcastInDim S100000 ![] hbz (constant (F := Ideal) S_ .f32 0x00000000#32))
          (broadcastInDim S600000x1 ![0] hb dstV)
          (broadcastInDim S600000 ![] hb1 (constant (F := Ideal) S_ .f32 0x3F800000#32)))
        (broadcastInDim S100000 ![] hbz (constant (F := Ideal) S_ .f32 0x3F800000#32)) (ix1 r)
      = (Ideal.ofBits .f32 0x00000000#32
          + ∑ e : Fin 600000, if (dstV (ix1 e)).toInt = (r.val : Int) then Ideal.ofBits .f32 0x3F800000#32 else 0)
        + Ideal.ofBits .f32 0x3F800000#32 := by
  rw [addf_apply, scatterAdd_vec_apply _ rfl rfl rfl rfl, scalar_spread_apply, scalar_spread_apply]
  refine congrArg₂ (· + ·) (congrArg₂ (· + ·) rfl (Finset.sum_congr rfl fun e _ => ?_)) rfl
  rw [col_read, scalar_spread_apply]
  rfl

/-- The aggregation at (r, q). -/
theorem agg_read (hbz : S_.BroadcastsInDim S100000x128 ![]) (hb1 : S_.BroadcastsInDim S600000 ![])
    (hb : S600000.BroadcastsInDim S600000x1 ![0]) (srcV dstV : IVec S600000 32)
    (H : FVec Ideal S100000x128 .f32) (r : Fin 100000) (q : Fin 128) :
    addf (Host.scatterAdd (F := Ideal) scatter_S100000x128_S600000x1_S600000x128_1_0_0_1
          (broadcastInDim S100000x128 ![] hbz (constant (F := Ideal) S_ .f32 0x00000000#32))
          (broadcastInDim S600000x1 ![0] hb dstV)
          (Host.gather gather_S100000x128_S600000x1_S600000x128_1_0_n_n_0_1_1128 H
            (broadcastInDim S600000x1 ![0] hb
              (select (cmpi .slt srcV (broadcastInDim S600000 ![] hb1 (constantI S_ 32 0#32)))
                (addi srcV (broadcastInDim S600000 ![] hb1 (constantI S_ 32 100000#32))) srcV))))
        H (ix2 r q)
      = (Ideal.ofBits .f32 0x00000000#32
          + ∑ e : Fin 600000, if (dstV (ix1 e)).toInt = (r.val : Int) then H (ix2 (row (nrm (srcV (ix1 e)))) q) else 0)
        + H (ix2 r q) := by
  rw [addf_apply, scatterAdd_rows_apply _ rfl rfl rfl rfl, scalar_spread_apply]
  refine congrArg₂ (· + ·) (congrArg₂ (· + ·) rfl (Finset.sum_congr rfl fun e _ => ?_)) rfl
  rw [col_read, gather_rows_apply (N := 100000) (E := 600000) (C := 128) (by decide)
    gather_S100000x128_S600000x1_S600000x128_1_0_n_n_0_1_1128 rfl rfl rfl rfl rfl rfl rfl]
  by_cases hg : (dstV (ix1 e)).toInt = (r.val : Int)
  · rw [if_pos hg, if_pos hg]
    exact congrArg (fun t => H (ix2 t q)) (congrArg row (nrm_read hb1 hb srcV e))
  · rw [if_neg hg, if_neg hg]

/-- A gather of rows at (e, k). -/
theorem gather_read {φ : FTy} (hb1 : S_.BroadcastsInDim S600000 ![])
    (hb : S600000.BroadcastsInDim S600000x1 ![0]) (srcV : IVec S600000 32)
    (H : FVec Ideal S100000x128 φ) (e : Fin 600000) (k : Fin 128) :
    Host.gather gather_S100000x128_S600000x1_S600000x128_1_0_n_n_0_1_1128 H
        (broadcastInDim S600000x1 ![0] hb
          (select (cmpi .slt srcV (broadcastInDim S600000 ![] hb1 (constantI S_ 32 0#32)))
            (addi srcV (broadcastInDim S600000 ![] hb1 (constantI S_ 32 100000#32))) srcV)) (ix2 e k)
      = H (ix2 (row (nrm (srcV (ix1 e)))) k) := by
  rw [gather_rows_apply (N := 100000) (E := 600000) (C := 128) (by decide)
    gather_S100000x128_S600000x1_S600000x128_1_0_n_n_0_1_1128 rfl rfl rfl rfl rfl rfl rfl]
  exact congrArg (fun t => H (ix2 t k)) (congrArg row (nrm_read hb1 hb srcV e))

end Cert.KernelIdeal.HostPoint

end
-- ==== Proof.LibConcat3.lean ====
/-
  Three arrays joined along one axis, read at an index built from coordinates.

  Three matrices with the same number of rows laid side by side (joined along axis 1): column j' of the joined matrix
  falls in exactly one piece, and reads that piece at the same row and at the column j' less the widths of the pieces
  before it. Likewise three vectors laid end to end (joined along axis 0).
-/
import Idealize.ShloMosaic.Lib.Pipeline.Value
import Idealize.ShloMosaic.Lib.ValueIdx

namespace LibConcat3

open Idealize.ShloMosaic Idealize.ShloMosaic.ValueIdx

variable {α : Type}

/-- Column j' of the joined matrix in piece 0: it reads piece 0 at the same row and at column j' less the widths before it. -/
theorem concat3_cols_0 {a b0 b1 b2 c : ℕ} (x₀ : (⟨2, ![a, b0]⟩ : Shape).Idx → α) (x₁ : (⟨2, ![a, b1]⟩ : Shape).Idx → α)
    (x₂ : (⟨2, ![a, b2]⟩ : Shape).Idx → α)
    (h : Shape.Concatenates [⟨2, ![a, b0]⟩, ⟨2, ![a, b1]⟩, ⟨2, ![a, b2]⟩] ⟨2, ![a, c]⟩ (1 : Fin 2))
    (p : Fin a) (j : Fin b0) (j' : Fin c) (hj : j'.val = 0 + j.val) :
    concatenate ⟨2, ![a, c]⟩ (1 : Fin 2) [⟨⟨2, ![a, b0]⟩, x₀⟩, ⟨⟨2, ![a, b1]⟩, x₁⟩, ⟨⟨2, ![a, b2]⟩, x₂⟩] h (ix2 p j') = x₀ (ix2 p j) := by
  refine concatenate_apply_piece (t := ⟨2, ![a, c]⟩) (1 : Fin 2)
    [⟨⟨2, ![a, b0]⟩, x₀⟩, ⟨⟨2, ![a, b1]⟩, x₁⟩, ⟨⟨2, ![a, b2]⟩, x₂⟩]
    h (ix2 p j') 0 (by show 0 < 3; omega) ⟨2, ![a, b0]⟩ x₀ rfl rfl (0) rfl (ix2 p j)
    (fun bb hb => ?_) ?_
  · match bb with
    | ⟨0, _⟩ => rfl
    | ⟨1, _⟩ => exact absurd rfl hb
  · show 0 + j.val = j'.val
    omega

/-- Column j' of the joined matrix in piece 1: it reads piece 1 at the same row and at column j' less the widths before it. -/
theorem concat3_cols_1 {a b0 b1 b2 c : ℕ} (x₀ : (⟨2, ![a, b0]⟩ : Shape).Idx → α) (x₁ : (⟨2, ![a, b1]⟩ : Shape).Idx → α)
    (x₂ : (⟨2, ![a, b2]⟩ : Shape).Idx → α)
    (h : Shape.Concatenates [⟨2, ![a, b0]⟩, ⟨2, ![a, b1]⟩, ⟨2, ![a, b2]⟩] ⟨2, ![a, c]⟩ (1 : Fin 2))
    (p : Fin a) (j : Fin b1) (j' : Fin c) (hj : j'.val = b0 + j.val) :
    concatenate ⟨2, ![a, c]⟩ (1 : Fin 2) [⟨⟨2, ![a, b0]⟩, x₀⟩, ⟨⟨2, ![a, b1]⟩, x₁⟩, ⟨⟨2, ![a, b2]⟩, x₂⟩] h (ix2 p j') = x₁ (ix2 p j) := by
  refine concatenate_apply_piece (t := ⟨2, ![a, c]⟩) (1 : Fin 2)
    [⟨⟨2, ![a, b0]⟩, x₀⟩, ⟨⟨2, ![a, b1]⟩, x₁⟩, ⟨⟨2, ![a, b2]⟩, x₂⟩]
    h (ix2 p j') 1 (by show 1 < 3; omega) ⟨2, ![a, b1]⟩ x₁ rfl rfl (b0 + 0) rfl (ix2 p j)
    (fun bb hb => ?_) ?_
  · match bb with
    | ⟨0, _⟩ => rfl
    | ⟨1, _⟩ => exact absurd rfl hb
  · show b0 + 0 + j.val = j'.val
    omega

/-- Column j' of the joined matrix in piece 2: it reads piece 2 at the same row and at column j' less the widths before it. -/
theorem concat3_cols_2 {a b0 b1 b2 c : ℕ} (x₀ : (⟨2, ![a, b0]⟩ : Shape).Idx → α) (x₁ : (⟨2, ![a, b1]⟩ : Shape).Idx → α)
    (x₂ : (⟨2, ![a, b2]⟩ : Shape).Idx → α)
    (h : Shape.Concatenates [⟨2, ![a, b0]⟩, ⟨2, ![a, b1]⟩, ⟨2, ![a, b2]⟩] ⟨2, ![a, c]⟩ (1 : Fin 2))
    (p : Fin a) (j : Fin b2) (j' : Fin c) (hj : j'.val = b0 + b1 + j.val) :
    concatenate ⟨2, ![a, c]⟩ (1 : Fin 2) [⟨⟨2, ![a, b0]⟩, x₀⟩, ⟨⟨2, ![a, b1]⟩, x₁⟩, ⟨⟨2, ![a, b2]⟩, x₂⟩] h (ix2 p j') = x₂ (ix2 p j) := by
  refine concatenate_apply_piece (t := ⟨2, ![a, c]⟩) (1 : Fin 2)
    [⟨⟨2, ![a, b0]⟩, x₀⟩, ⟨⟨2, ![a, b1]⟩, x₁⟩, ⟨⟨2, ![a, b2]⟩, x₂⟩]
    h (ix2 p j') 2 (by show 2 < 3; omega) ⟨2, ![a, b2]⟩ x₂ rfl rfl (b0 + (b1 + 0)) rfl (ix2 p j)
    (fun bb hb => ?_) ?_
  · match bb with
    | ⟨0, _⟩ => rfl
    | ⟨1, _⟩ => exact absurd rfl hb
  · show b0 + (b1 + 0) + j.val = j'.val
    omega

/-- Entry j' of the joined vector in piece 0: it reads piece 0 at j' less the lengths before it. -/
theorem concat3_vec_0 {n0 n1 n2 c : ℕ} (x₀ : (⟨1, ![n0]⟩ : Shape).Idx → α) (x₁ : (⟨1, ![n1]⟩ : Shape).Idx → α)
    (x₂ : (⟨1, ![n2]⟩ : Shape).Idx → α)
    (h : Shape.Concatenates [⟨1, ![n0]⟩, ⟨1, ![n1]⟩, ⟨1, ![n2]⟩] ⟨1, ![c]⟩ (0 : Fin 1))
    (j : Fin n0) (j' : Fin c) (hj : j'.val = 0 + j.val) :
    concatenate ⟨1, ![c]⟩ (0 : Fin 1) [⟨⟨1, ![n0]⟩, x₀⟩, ⟨⟨1, ![n1]⟩, x₁⟩, ⟨⟨1, ![n2]⟩, x₂⟩] h (ix1 j') = x₀ (ix1 j) := by
  refine concatenate_apply_piece (t := ⟨1, ![c]⟩) (0 : Fin 1)
    [⟨⟨1, ![n0]⟩, x₀⟩, ⟨⟨1, ![n1]⟩, x₁⟩, ⟨⟨1, ![n2]⟩, x₂⟩]
    h (ix1 j') 0 (by show 0 < 3; omega) ⟨1, ![n0]⟩ x₀ rfl rfl (0) rfl (ix1 j)
    (fun bb hb => ?_) ?_
  · match bb with
    | ⟨0, _⟩ => exact absurd rfl hb
  · show 0 + j.val = j'.val
    omega

/-- Entry j' of the joined vector in piece 1: it reads piece 1 at j' less the lengths before it. -/
theorem concat3_vec_1 {n0 n1 n2 c : ℕ} (x₀ : (⟨1, ![n0]⟩ : Shape).Idx → α) (x₁ : (⟨1, ![n1]⟩ : Shape).Idx → α)
    (x₂ : (⟨1, ![n2]⟩ : Shape).Idx → α)
    (h : Shape.Concatenates [⟨1, ![n0]⟩, ⟨1, ![n1]⟩, ⟨1, ![n2]⟩] ⟨1, ![c]⟩ (0 : Fin 1))
    (j : Fin n1) (j' : Fin c) (hj : j'.val = n0 + j.val) :
    concatenate ⟨1, ![c]⟩ (0 : Fin 1) [⟨⟨1, ![n0]⟩, x₀⟩, ⟨⟨1, ![n1]⟩, x₁⟩, ⟨⟨1, ![n2]⟩, x₂⟩] h (ix1 j') = x₁ (ix1 j) := by
  refine concatenate_apply_piece (t := ⟨1, ![c]⟩) (0 : Fin 1)
    [⟨⟨1, ![n0]⟩, x₀⟩, ⟨⟨1, ![n1]⟩, x₁⟩, ⟨⟨1, ![n2]⟩, x₂⟩]
    h (ix1 j') 1 (by show 1 < 3; omega) ⟨1, ![n1]⟩ x₁ rfl rfl (n0 + 0) rfl (ix1 j)
    (fun bb hb => ?_) ?_
  · match bb with
    | ⟨0, _⟩ => exact absurd rfl hb
  · show n0 + 0 + j.val = j'.val
    omega

/-- Entry j' of the joined vector in piece 2: it reads piece 2 at j' less the lengths before it. -/
theorem concat3_vec_2 {n0 n1 n2 c : ℕ} (x₀ : (⟨1, ![n0]⟩ : Shape).Idx → α) (x₁ : (⟨1, ![n1]⟩ : Shape).Idx → α)
    (x₂ : (⟨1, ![n2]⟩ : Shape).Idx → α)
    (h : Shape.Concatenates [⟨1, ![n0]⟩, ⟨1, ![n1]⟩, ⟨1, ![n2]⟩] ⟨1, ![c]⟩ (0 : Fin 1))
    (j : Fin n2) (j' : Fin c) (hj : j'.val = n0 + n1 + j.val) :
    concatenate ⟨1, ![c]⟩ (0 : Fin 1) [⟨⟨1, ![n0]⟩, x₀⟩, ⟨⟨1, ![n1]⟩, x₁⟩, ⟨⟨1, ![n2]⟩, x₂⟩] h (ix1 j') = x₂ (ix1 j) := by
  refine concatenate_apply_piece (t := ⟨1, ![c]⟩) (0 : Fin 1)
    [⟨⟨1, ![n0]⟩, x₀⟩, ⟨⟨1, ![n1]⟩, x₁⟩, ⟨⟨1, ![n2]⟩, x₂⟩]
    h (ix1 j') 2 (by show 2 < 3; omega) ⟨1, ![n2]⟩ x₂ rfl rfl (n0 + (n1 + 0)) rfl (ix1 j)
    (fun bb hb => ?_) ?_
  · match bb with
    | ⟨0, _⟩ => exact absurd rfl hb
  · show n0 + (n1 + 0) + j.val = j'.val
    omega

end LibConcat3
-- ==== Proof.RefUnread.lean ====
/-
  THE REFERENCE PROGRAM'S DATA-DEPENDENT AND JOINING OPERATIONS, READ AT AN INDEX.

  The operations of the reference program whose result element is not one fixed element of each operand: the two
  joins of an edge-endpoint vector with the identity vector (self loops), the degree count (a scatter-add of ones),
  the gathers of a per-node scalar and of per-node rows at the edge endpoints, the two row scatter-adds (the
  aggregation of messages), and the join of the two gathered row blocks with the edge features. Each is read here at
  an index built from coordinates, at the exact (extended-real) instance:

    • a join reads the piece the coordinate on the joined axis falls in;
    • a scatter-add at a node is the operand there plus the sum of the updates over the edges whose index is the node;
    • a gather at an edge is the operand at the node the edge's index names (read signed, clamped into range).
-/
import proofs.«140584_j4020089389438_2_alg».proof.Proof.ReadP
import proofs.«140584_j4020089389438_2_alg».proof.Proof.LibAggColumns
import proofs.«140584_j4020089389438_2_alg».proof.Proof.LibAgg1D
import proofs.«140584_j4020089389438_2_alg».proof.Proof.LibConcat3

noncomputable section

open scoped BigOperators

namespace Cert.ReferenceIdeal.RefRead

open Cert.ReferenceIdeal Cert.ReferenceIdeal.Gen Idealize.ShloMosaic Idealize.ShloMosaic.TcCoe Idealize.SL.Sem Idealize.ShloMosaic.StableHlo
open Idealize.ShloMosaic.ValueIdx
open Cert.Lib.AggColumns (rowAt scatterAdd_rows_apply gather_rows_apply)
open Cert.Lib.Agg1D (scatterAdd_vec_apply gather_vec_apply concat2_vec_0 concat2_vec_1)

/-- The sources with self loops. Entry j of the joined vector below 600000: the edge-endpoint vector at the same entry. -/
theorem val_main_v5_lo (x12 : (⟨S2x600000, .i32⟩ : BufTy).Contents (Elt Ideal)) (j : Fin 700000) (e : Fin 600000) (h : j.val = e.val) :
    Read.val_main_v5 (F := Ideal) x12 (ix1 j) = Read.val_main_v1 (F := Ideal) x12 (ix1 e) := by
  unfold Read.val_main_v5
  generalize Read.val_main_v1 (F := Ideal) x12 = a
  generalize Read.val_main_v4 (F := Ideal) = b
  exact concat2_vec_0 a b concatenates_S600000_S100000_S700000_d0 e j (by omega)

/-- The sources with self loops. Entry j = 600000 + k of the joined vector: the identity vector at k, that is k itself. -/
theorem val_main_v5_hi (x12 : (⟨S2x600000, .i32⟩ : BufTy).Contents (Elt Ideal)) (j : Fin 700000) (k : Fin 100000) (h : j.val = 600000 + k.val) :
    Read.val_main_v5 (F := Ideal) x12 (ix1 j) = BitVec.ofNat 32 k.val := by
  unfold Read.val_main_v5
  generalize Read.val_main_v1 (F := Ideal) x12 = a
  exact (concat2_vec_1 a (Read.val_main_v4 (F := Ideal)) concatenates_S600000_S100000_S700000_d0 k j h).trans
    (Read.val_main_v4_apply (F := Ideal) (ix1 k))

/-- The targets with self loops. Entry j of the joined vector below 600000: the edge-endpoint vector at the same entry. -/
theorem val_main_v6_lo (x12 : (⟨S2x600000, .i32⟩ : BufTy).Contents (Elt Ideal)) (j : Fin 700000) (e : Fin 600000) (h : j.val = e.val) :
    Read.val_main_v6 (F := Ideal) x12 (ix1 j) = Read.val_main_v3 (F := Ideal) x12 (ix1 e) := by
  unfold Read.val_main_v6
  generalize Read.val_main_v3 (F := Ideal) x12 = a
  generalize Read.val_main_v4 (F := Ideal) = b
  exact concat2_vec_0 a b concatenates_S600000_S100000_S700000_d0 e j (by omega)

/-- The targets with self loops. Entry j = 600000 + k of the joined vector: the identity vector at k, that is k itself. -/
theorem val_main_v6_hi (x12 : (⟨S2x600000, .i32⟩ : BufTy).Contents (Elt Ideal)) (j : Fin 700000) (k : Fin 100000) (h : j.val = 600000 + k.val) :
    Read.val_main_v6 (F := Ideal) x12 (ix1 j) = BitVec.ofNat 32 k.val := by
  unfold Read.val_main_v6
  generalize Read.val_main_v3 (F := Ideal) x12 = a
  exact (concat2_vec_1 a (Read.val_main_v4 (F := Ideal)) concatenates_S600000_S100000_S700000_d0 k j h).trans
    (Read.val_main_v4_apply (F := Ideal) (ix1 k))

/-- The degree count at node r: the operand there plus the sum, over the entries j whose index is r, of the update. -/
theorem val_main_v10_apply (x12 : (⟨S2x600000, .i32⟩ : BufTy).Contents (Elt Ideal)) (r : Fin 100000) :
    Read.val_main_v10 (F := Ideal) x12 (ix1 r)
      = Read.val_main_v8 (F := Ideal) (ix1 r)
        + ∑ j : Fin 700000, if (Read.val_main_v9 (F := Ideal) x12 (ix2 j 0)).toInt = (r.val : Int)
            then Read.val_main_v7 (F := Ideal) (ix1 j) else 0 := by
  unfold Read.val_main_v10
  generalize Read.val_main_v8 (F := Ideal) = a
  generalize Read.val_main_v9 (F := Ideal) x12 = b
  generalize Read.val_main_v7 (F := Ideal) = c
  exact scatterAdd_vec_apply scatter_S100000_S700000x1_S700000_n_0_0_1 rfl rfl rfl rfl a b c r

/-- The first aggregation at (r, q): the operand there plus the sum, over the entries j whose index is r, of the update at (j, q). -/
theorem val_main_v43_apply (x0 : (⟨S100000x4, .f32⟩ : BufTy).Contents (Elt Ideal)) (x2 : (⟨S4x128, .f32⟩ : BufTy).Contents (Elt Ideal)) (x12 : (⟨S2x600000, .i32⟩ : BufTy).Contents (Elt Ideal)) (r : Fin 100000) (q : Fin 128) :
    Read.val_main_v43 (F := Ideal) x0 x2 x12 (ix2 r q)
      = Read.val_main_v41 (F := Ideal) (ix2 r q)
        + ∑ j : Fin 700000, if (Read.val_main_v42 (F := Ideal) x12 (ix2 j 0)).toInt = (r.val : Int)
            then Read.val_main_v40 (F := Ideal) x0 x2 x12 (ix2 j q) else 0 := by
  unfold Read.val_main_v43
  generalize Read.val_main_v41 (F := Ideal) = a
  generalize Read.val_main_v42 (F := Ideal) x12 = b
  generalize Read.val_main_v40 (F := Ideal) x0 x2 x12 = c
  exact scatterAdd_rows_apply scatter_S100000x128_S700000x1_S700000x128_1_0_0_1 rfl rfl rfl rfl a b c r q

/-- The second aggregation at (r, q): the operand there plus the sum, over the entries j whose index is r, of the update at (j, q). -/
theorem val_main_v61_apply (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x12 : (⟨S2x600000, .i32⟩ : BufTy).Contents (Elt Ideal)) (r : Fin 100000) (q : Fin 128) :
    Read.val_main_v61 (F := Ideal) x0 x2 x3 x4 x12 (ix2 r q)
      = Read.val_main_v59 (F := Ideal) (ix2 r q)
        + ∑ j : Fin 700000, if (Read.val_main_v60 (F := Ideal) x12 (ix2 j 0)).toInt = (r.val : Int)
            then Read.val_main_v58 (F := Ideal) x0 x2 x3 x4 x12 (ix2 j q) else 0 := by
  unfold Read.val_main_v61
  generalize Read.val_main_v59 (F := Ideal) = a
  generalize Read.val_main_v60 (F := Ideal) x12 = b
  generalize Read.val_main_v58 (F := Ideal) x0 x2 x3 x4 x12 = c
  exact scatterAdd_rows_apply scatter_S100000x128_S700000x1_S700000x128_1_0_0_1 rfl rfl rfl rfl a b c r q

/-- The first gather of rows at (j, q): the operand at the row entry j's index names, column q. -/
theorem val_main_v37_apply (x0 : (⟨S100000x4, .f32⟩ : BufTy).Contents (Elt Ideal)) (x2 : (⟨S4x128, .f32⟩ : BufTy).Contents (Elt Ideal)) (x12 : (⟨S2x600000, .i32⟩ : BufTy).Contents (Elt Ideal)) (j : Fin 700000) (q : Fin 128) :
    Read.val_main_v37 (F := Ideal) x0 x2 x12 (ix2 j q)
      = Read.val_main_v30 (F := Ideal) x0 x2 (ix2 (rowAt (by decide) (Read.val_main_v36 (F := Ideal) x12) j) q) := by
  unfold Read.val_main_v37
  generalize Read.val_main_v30 (F := Ideal) x0 x2 = a
  generalize Read.val_main_v36 (F := Ideal) x12 = b
  exact gather_rows_apply (by decide) gather_S100000x128_S700000x1_S700000x128_1_0_n_n_0_1_1128 rfl rfl rfl rfl rfl rfl rfl a b j q

/-- The second gather of rows at (j, q): the operand at the row entry j's index names, column q. -/
theorem val_main_v55_apply (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x12 : (⟨S2x600000, .i32⟩ : BufTy).Contents (Elt Ideal)) (j : Fin 700000) (q : Fin 128) :
    Read.val_main_v55 (F := Ideal) x0 x2 x3 x4 x12 (ix2 j q)
      = Read.val_main_v48 (F := Ideal) x0 x2 x3 x4 x12 (ix2 (rowAt (by decide) (Read.val_main_v54 (F := Ideal) x12) j) q) := by
  unfold Read.val_main_v55
  generalize Read.val_main_v48 (F := Ideal) x0 x2 x3 x4 x12 = a
  generalize Read.val_main_v54 (F := Ideal) x12 = b
  exact gather_rows_apply (by decide) gather_S100000x128_S700000x1_S700000x128_1_0_n_n_0_1_1128 rfl rfl rfl rfl rfl rfl rfl a b j q

/-- The gather of the rows of one endpoint at (j, q): the operand at the row entry j's index names, column q. -/
theorem val_main_v71_apply (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (j : Fin 600000) (q : Fin 128) :
    Read.val_main_v71 (F := Ideal) x0 x2 x3 x4 x5 x12 (ix2 j q)
      = Read.val_main_v64 (F := Ideal) x0 x2 x3 x4 x5 x12 (ix2 (rowAt (by decide) (Read.val_main_v70 (F := Ideal) x12) j) q) := by
  unfold Read.val_main_v71
  generalize Read.val_main_v64 (F := Ideal) x0 x2 x3 x4 x5 x12 = a
  generalize Read.val_main_v70 (F := Ideal) x12 = b
  exact gather_rows_apply (by decide) gather_S100000x128_S600000x1_S600000x128_1_0_n_n_0_1_1128 rfl rfl rfl rfl rfl rfl rfl a b j q

/-- The gather of the rows of the other endpoint at (j, q): the operand at the row entry j's index names, column q. -/
theorem val_main_v78_apply (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (j : Fin 600000) (q : Fin 128) :
    Read.val_main_v78 (F := Ideal) x0 x2 x3 x4 x5 x12 (ix2 j q)
      = Read.val_main_v64 (F := Ideal) x0 x2 x3 x4 x5 x12 (ix2 (rowAt (by decide) (Read.val_main_v77 (F := Ideal) x12) j) q) := by
  unfold Read.val_main_v78
  generalize Read.val_main_v64 (F := Ideal) x0 x2 x3 x4 x5 x12 = a
  generalize Read.val_main_v77 (F := Ideal) x12 = b
  exact gather_rows_apply (by decide) gather_S100000x128_S600000x1_S600000x128_1_0_n_n_0_1_1128 rfl rfl rfl rfl rfl rfl rfl a b j q

/-- The gather of the per-node scalar at entry j: the operand at the entry that j's index names. -/
theorem val_main_v21_apply (x12 : (⟨S2x600000, .i32⟩ : BufTy).Contents (Elt Ideal)) (j : Fin 700000) :
    Read.val_main_v21 (F := Ideal) x12 (ix1 j)
      = Read.val_main_v14 (F := Ideal) x12 (ix1 (rowAt (by decide) (Read.val_main_v20 (F := Ideal) x12) j)) := by
  unfold Read.val_main_v21
  generalize Read.val_main_v14 (F := Ideal) x12 = a
  generalize Read.val_main_v20 (F := Ideal) x12 = b
  exact gather_vec_apply (by decide) gather_S100000_S700000x1_S700000_n_0_n_n_0_1_1 rfl rfl rfl rfl rfl rfl rfl a b j

/-- The second gather of the per-node scalar at entry j: the operand at the entry that j's index names. -/
theorem val_main_v28_apply (x12 : (⟨S2x600000, .i32⟩ : BufTy).Contents (Elt Ideal)) (j : Fin 700000) :
    Read.val_main_v28 (F := Ideal) x12 (ix1 j)
      = Read.val_main_v14 (F := Ideal) x12 (ix1 (rowAt (by decide) (Read.val_main_v27 (F := Ideal) x12) j)) := by
  unfold Read.val_main_v28
  generalize Read.val_main_v14 (F := Ideal) x12 = a
  generalize Read.val_main_v27 (F := Ideal) x12 = b
  exact gather_vec_apply (by decide) gather_S100000_S700000x1_S700000_n_0_n_n_0_1_1 rfl rfl rfl rfl rfl rfl rfl a b j

/-- The joined edge matrix at a column j' < 128: the rows gathered at one endpoint, same column. -/
theorem val_main_v79_p0 (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (e : Fin 600000) (j : Fin 128) (j' : Fin 261) (h : j'.val = j.val) :
    Read.val_main_v79 (F := Ideal) x0 x1 x2 x3 x4 x5 x12 (ix2 e j') = Read.val_main_v71 (F := Ideal) x0 x2 x3 x4 x5 x12 (ix2 e j) := by
  unfold Read.val_main_v79
  generalize Read.val_main_v71 (F := Ideal) x0 x2 x3 x4 x5 x12 = a
  generalize Read.val_main_v78 (F := Ideal) x0 x2 x3 x4 x5 x12 = b
  exact LibConcat3.concat3_cols_0 a b x1 concatenates_S600000x128_S600000x128_S600000x5_S600000x261_d1 e j j' (by omega)

/-- The joined edge matrix at a column j' = 128 + j, j < 128: the rows gathered at the other endpoint, column j. -/
theorem val_main_v79_p1 (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (e : Fin 600000) (j : Fin 128) (j' : Fin 261) (h : j'.val = 128 + j.val) :
    Read.val_main_v79 (F := Ideal) x0 x1 x2 x3 x4 x5 x12 (ix2 e j') = Read.val_main_v78 (F := Ideal) x0 x2 x3 x4 x5 x12 (ix2 e j) := by
  unfold Read.val_main_v79
  generalize Read.val_main_v71 (F := Ideal) x0 x2 x3 x4 x5 x12 = a
  generalize Read.val_main_v78 (F := Ideal) x0 x2 x3 x4 x5 x12 = b
  exact LibConcat3.concat3_cols_1 a b x1 concatenates_S600000x128_S600000x128_S600000x5_S600000x261_d1 e j j' h

/-- The joined edge matrix at a column j' = 256 + j, j < 5: the edge features, column j. -/
theorem val_main_v79_p2 (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (e : Fin 600000) (j : Fin 5) (j' : Fin 261) (h : j'.val = 256 + j.val) :
    Read.val_main_v79 (F := Ideal) x0 x1 x2 x3 x4 x5 x12 (ix2 e j') = x1 (ix2 e j) := by
  unfold Read.val_main_v79
  generalize Read.val_main_v71 (F := Ideal) x0 x2 x3 x4 x5 x12 = a
  generalize Read.val_main_v78 (F := Ideal) x0 x2 x3 x4 x5 x12 = b
  exact LibConcat3.concat3_cols_2 a b x1 concatenates_S600000x128_S600000x128_S600000x5_S600000x261_d1 e j j' (by omega)

end Cert.ReferenceIdeal.RefRead

end
-- ==== Proof.RefPoint.lean ====
/-
  THE REFERENCE PROGRAM'S STAGES AT A POINT.

  Each stage value of the reference program read at literal coordinates, at the exact (extended-real) instance, as a
  closed expression in earlier stage values and the program's arguments: the edge endpoints with self loops, the node
  degree, the wrap of a negative index, the two graph-convolution layers (a sum over the edges into a node of the source
  row times the two endpoint factors, plus a bias, then a maximum with zero), and the edge network (three affine maps,
  the first two followed by a maximum with zero, the last by the logistic function).
-/
import proofs.«140584_j4020089389438_2_alg».proof.Proof.RefUnread
import proofs.«140584_j4020089389438_2_alg».proof.Proof.IndexFacts

noncomputable section

open scoped BigOperators

namespace Cert.ReferenceIdeal.RefRead

open Cert.ReferenceIdeal Cert.ReferenceIdeal.Gen Idealize.ShloMosaic Idealize.ShloMosaic.TcCoe Idealize.SL.Sem Idealize.ShloMosaic.StableHlo
open Idealize.ShloMosaic.ValueIdx
open Cert.Lib.AggColumns (rowAt)
open Cert.IndexFacts (nrm row)

/-! ## The edge endpoints -/

/-- Entry e of the first endpoint vector: row 0 of the edge array at column e. -/
theorem v1_at (x12 : (⟨S2x600000, .i32⟩ : BufTy).Contents (Elt Ideal)) (e : Fin 600000) :
    Read.val_main_v1 (F := Ideal) x12 (ix1 e) = x12 (ix2 0 e) := by
  rw [Read.val_main_v1_apply, Read.val_main_v0_apply]
  refine congrArg x12 ?_
  funext a
  match a with
  | ⟨0, _⟩ => rfl
  | ⟨1, _⟩ => exact Fin.ext (Nat.mod_eq_of_lt e.isLt)

/-- Entry e of the second endpoint vector: row 1 of the edge array at column e. -/
theorem v3_at (x12 : (⟨S2x600000, .i32⟩ : BufTy).Contents (Elt Ideal)) (e : Fin 600000) :
    Read.val_main_v3 (F := Ideal) x12 (ix1 e) = x12 (ix2 1 e) := by
  rw [Read.val_main_v3_apply, Read.val_main_v2_apply]
  refine congrArg x12 ?_
  funext a
  match a with
  | ⟨0, _⟩ => rfl
  | ⟨1, _⟩ => exact Fin.ext (Nat.mod_eq_of_lt e.isLt)

/-! ## The node degree -/

/-- The index column of stage 9 at row j: the vector it was made from at j. -/
theorem v9_at (x12 : (⟨S2x600000, .i32⟩ : BufTy).Contents (Elt Ideal)) (j : Fin 700000) :
    Read.val_main_v9 (F := Ideal) x12 (ix2 j 0) = Read.val_main_v6 (F := Ideal) x12 (ix1 j) := by
  rw [Read.val_main_v9_apply]
  exact congrArg _ (by funext a; match a with | ⟨0, _⟩ => rfl)

/-- The degree of node r: zero plus one for every entry of the target vector (self loops included) that is r. -/
theorem deg_at (x12 : (⟨S2x600000, .i32⟩ : BufTy).Contents (Elt Ideal)) (r : Fin 100000) :
    Read.val_main_v10 (F := Ideal) x12 (ix1 r)
      = FloatOps.ofBits (F := Ideal) .f32 0x00000000#32
        + ∑ j : Fin 700000, if (Read.val_main_v6 (F := Ideal) x12 (ix1 j)).toInt = (r.val : Int)
            then FloatOps.ofBits (F := Ideal) .f32 0x3F800000#32 else 0 := by
  rw [val_main_v10_apply, Read.val_main_v8_apply, Read.val_main_cst_0_apply]
  simp only [v9_at, Read.val_main_v7_apply, Read.val_main_cst_apply]

/-! ## The normalised index, and the row an index names -/

/-- The row an index array names for row e is the row its word there names. -/
theorem rowAt_eq {E : Nat} {hN : 0 < 100000} (idx : IVec ⟨2, ![E, 1]⟩ 32) (e : Fin E) :
    rowAt (N := 100000) hN idx e = row (idx (ix2 e 0)) := rfl

/-- The index column of stage 20 at row j: the normalised entry j of the vector it was made from. -/
theorem v20_at (x12 : (⟨S2x600000, .i32⟩ : BufTy).Contents (Elt Ideal)) (j : Fin 700000) :
    Read.val_main_v20 (F := Ideal) x12 (ix2 j 0) = nrm (Read.val_main_v5 (F := Ideal) x12 (ix1 j)) := by
  rw [Read.val_main_v20_apply, show Read.idx_main_v20 (ix2 j 0) = ix1 j from (by funext a; match a with | ⟨0, _⟩ => rfl),
    Read.val_main_v19_apply, Read.val_main_v16_apply, Read.val_main_v18_apply,
    Read.val_main_v15_apply, Read.val_main_v17_apply, Read.val_main_c_apply, Read.val_main_c_3_apply]
  rfl

/-- The index column of stage 27 at row j: the normalised entry j of the vector it was made from. -/
theorem v27_at (x12 : (⟨S2x600000, .i32⟩ : BufTy).Contents (Elt Ideal)) (j : Fin 700000) :
    Read.val_main_v27 (F := Ideal) x12 (ix2 j 0) = nrm (Read.val_main_v6 (F := Ideal) x12 (ix1 j)) := by
  rw [Read.val_main_v27_apply, show Read.idx_main_v27 (ix2 j 0) = ix1 j from (by funext a; match a with | ⟨0, _⟩ => rfl),
    Read.val_main_v26_apply, Read.val_main_v23_apply, Read.val_main_v25_apply,
    Read.val_main_v22_apply, Read.val_main_v24_apply, Read.val_main_c_4_apply, Read.val_main_c_5_apply]
  rfl

/-- The index column of stage 36 at row j: the normalised entry j of the vector it was made from. -/
theorem v36_at (x12 : (⟨S2x600000, .i32⟩ : BufTy).Contents (Elt Ideal)) (j : Fin 700000) :
    Read.val_main_v36 (F := Ideal) x12 (ix2 j 0) = nrm (Read.val_main_v5 (F := Ideal) x12 (ix1 j)) := by
  rw [Read.val_main_v36_apply, show Read.idx_main_v36 (ix2 j 0) = ix1 j from (by funext a; match a with | ⟨0, _⟩ => rfl),
    Read.val_main_v35_apply, Read.val_main_v32_apply, Read.val_main_v34_apply,
    Read.val_main_v31_apply, Read.val_main_v33_apply, Read.val_main_c_6_apply, Read.val_main_c_7_apply]
  rfl

/-- The index column of stage 54 at row j: the normalised entry j of the vector it was made from. -/
theorem v54_at (x12 : (⟨S2x600000, .i32⟩ : BufTy).Contents (Elt Ideal)) (j : Fin 700000) :
    Read.val_main_v54 (F := Ideal) x12 (ix2 j 0) = nrm (Read.val_main_v5 (F := Ideal) x12 (ix1 j)) := by
  rw [Read.val_main_v54_apply, show Read.idx_main_v54 (ix2 j 0) = ix1 j from (by funext a; match a with | ⟨0, _⟩ => rfl),
    Read.val_main_v53_apply, Read.val_main_v50_apply, Read.val_main_v52_apply,
    Read.val_main_v49_apply, Read.val_main_v51_apply, Read.val_main_c_9_apply, Read.val_main_c_10_apply]
  rfl

/-- The index column of stage 70 at row j: the normalised entry j of the vector it was made from. -/
theorem v70_at (x12 : (⟨S2x600000, .i32⟩ : BufTy).Contents (Elt Ideal)) (j : Fin 600000) :
    Read.val_main_v70 (F := Ideal) x12 (ix2 j 0) = nrm (Read.val_main_v1 (F := Ideal) x12 (ix1 j)) := by
  rw [Read.val_main_v70_apply, show Read.idx_main_v70 (ix2 j 0) = ix1 j from (by funext a; match a with | ⟨0, _⟩ => rfl),
    Read.val_main_v69_apply, Read.val_main_v66_apply, Read.val_main_v68_apply,
    Read.val_main_v65_apply, Read.val_main_v67_apply, Read.val_main_c_12_apply, Read.val_main_c_13_apply]
  rfl

/-- The index column of stage 77 at row j: the normalised entry j of the vector it was made from. -/
theorem v77_at (x12 : (⟨S2x600000, .i32⟩ : BufTy).Contents (Elt Ideal)) (j : Fin 600000) :
    Read.val_main_v77 (F := Ideal) x12 (ix2 j 0) = nrm (Read.val_main_v3 (F := Ideal) x12 (ix1 j)) := by
  rw [Read.val_main_v77_apply, show Read.idx_main_v77 (ix2 j 0) = ix1 j from (by funext a; match a with | ⟨0, _⟩ => rfl),
    Read.val_main_v76_apply, Read.val_main_v73_apply, Read.val_main_v75_apply,
    Read.val_main_v72_apply, Read.val_main_v74_apply, Read.val_main_c_14_apply, Read.val_main_c_15_apply]
  rfl

/-- The index column of stage 42 at row j: the vector it was made from at j. -/
theorem v42_at (x12 : (⟨S2x600000, .i32⟩ : BufTy).Contents (Elt Ideal)) (j : Fin 700000) :
    Read.val_main_v42 (F := Ideal) x12 (ix2 j 0) = Read.val_main_v6 (F := Ideal) x12 (ix1 j) := by
  rw [Read.val_main_v42_apply]
  exact congrArg _ (by funext a; match a with | ⟨0, _⟩ => rfl)

/-- The index column of stage 60 at row j: the vector it was made from at j. -/
theorem v60_at (x12 : (⟨S2x600000, .i32⟩ : BufTy).Contents (Elt Ideal)) (j : Fin 700000) :
    Read.val_main_v60 (F := Ideal) x12 (ix2 j 0) = Read.val_main_v6 (F := Ideal) x12 (ix1 j) := by
  rw [Read.val_main_v60_apply]
  exact congrArg _ (by funext a; match a with | ⟨0, _⟩ => rfl)

/-! ## The gathers, by the node the endpoint names -/

/-- The per-node factor gathered at entry j: the factor of the node that entry j of the endpoint vector names. -/
theorem v21_at (x12 : (⟨S2x600000, .i32⟩ : BufTy).Contents (Elt Ideal)) (j : Fin 700000) :
    Read.val_main_v21 (F := Ideal) x12 (ix1 j) = Read.val_main_v14 (F := Ideal) x12 (ix1 (row (nrm (Read.val_main_v5 (F := Ideal) x12 (ix1 j))))) := by
  rw [val_main_v21_apply, rowAt_eq, v20_at]

/-- The per-node factor gathered at entry j: the factor of the node that entry j of the endpoint vector names. -/
theorem v28_at (x12 : (⟨S2x600000, .i32⟩ : BufTy).Contents (Elt Ideal)) (j : Fin 700000) :
    Read.val_main_v28 (F := Ideal) x12 (ix1 j) = Read.val_main_v14 (F := Ideal) x12 (ix1 (row (nrm (Read.val_main_v6 (F := Ideal) x12 (ix1 j))))) := by
  rw [val_main_v28_apply, rowAt_eq, v27_at]

/-- The source rows of the first layer at (j, q): the operand at the node entry j of the source vector names. -/
theorem v37_at (x0 : (⟨S100000x4, .f32⟩ : BufTy).Contents (Elt Ideal)) (x2 : (⟨S4x128, .f32⟩ : BufTy).Contents (Elt Ideal)) (x12 : (⟨S2x600000, .i32⟩ : BufTy).Contents (Elt Ideal)) (j : Fin 700000) (q : Fin 128) :
    Read.val_main_v37 (F := Ideal) x0 x2 x12 (ix2 j q) = Read.val_main_v30 (F := Ideal) x0 x2 (ix2 (row (nrm (Read.val_main_v5 (F := Ideal) x12 (ix1 j)))) q) := by
  rw [val_main_v37_apply, rowAt_eq, v36_at]

/-- The source rows of the second layer at (j, q): the operand at the node entry j of the source vector names. -/
theorem v55_at (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x12 : (⟨S2x600000, .i32⟩ : BufTy).Contents (Elt Ideal)) (j : Fin 700000) (q : Fin 128) :
    Read.val_main_v55 (F := Ideal) x0 x2 x3 x4 x12 (ix2 j q) = Read.val_main_v48 (F := Ideal) x0 x2 x3 x4 x12 (ix2 (row (nrm (Read.val_main_v5 (F := Ideal) x12 (ix1 j)))) q) := by
  rw [val_main_v55_apply, rowAt_eq, v54_at]

/-- The node rows at the first endpoint of edge j. -/
theorem v71_at (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (j : Fin 600000) (q : Fin 128) :
    Read.val_main_v71 (F := Ideal) x0 x2 x3 x4 x5 x12 (ix2 j q) = Read.val_main_v64 (F := Ideal) x0 x2 x3 x4 x5 x12 (ix2 (row (nrm (Read.val_main_v1 (F := Ideal) x12 (ix1 j)))) q) := by
  rw [val_main_v71_apply, rowAt_eq, v70_at]

/-- The node rows at the second endpoint of edge j. -/
theorem v78_at (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (j : Fin 600000) (q : Fin 128) :
    Read.val_main_v78 (F := Ideal) x0 x2 x3 x4 x5 x12 (ix2 j q) = Read.val_main_v64 (F := Ideal) x0 x2 x3 x4 x5 x12 (ix2 (row (nrm (Read.val_main_v3 (F := Ideal) x12 (ix1 j)))) q) := by
  rw [val_main_v78_apply, rowAt_eq, v77_at]

/-! ## The first layer -/

/-- The node features times the first weight matrix, at (r, q). -/
theorem v30_at (x0 : (⟨S100000x4, .f32⟩ : BufTy).Contents (Elt Ideal)) (x2 : (⟨S4x128, .f32⟩ : BufTy).Contents (Elt Ideal)) (r : Fin 100000) (q : Fin 128) :
    Read.val_main_v30 (F := Ideal) x0 x2 (ix2 r q) = ∑ k : Fin 4, x0 (ix2 r k) * x2 (ix2 k q) := by
  rw [Read.val_main_v30_apply]
  refine Finset.sum_congr rfl fun k _ => ?_
  rw [show Read.lidx_main_v30 (ix2 r q) k = ix2 r k from (by funext a; match a with | ⟨0, _⟩ => rfl | ⟨1, _⟩ => rfl),
    show Read.ridx_main_v30 (ix2 r q) k = ix2 k q from (by funext a; match a with | ⟨0, _⟩ => rfl | ⟨1, _⟩ => rfl)]

/-- The edge factor spread over the columns, at (j, q): the product of the two endpoint factors of entry j. -/
theorem v39_at (x12 : (⟨S2x600000, .i32⟩ : BufTy).Contents (Elt Ideal)) (j : Fin 700000) (q : Fin 128) :
    Read.val_main_v39 (F := Ideal) x12 (ix2 j q) = (Read.val_main_v14 (F := Ideal) x12 (ix1 (row (nrm (Read.val_main_v5 (F := Ideal) x12 (ix1 j))))) * Read.val_main_v14 (F := Ideal) x12 (ix1 (row (nrm (Read.val_main_v6 (F := Ideal) x12 (ix1 j)))))) := by
  rw [Read.val_main_v39_apply, show Read.idx_main_v39 (ix2 j q) = ix2 j 0 from (by funext a; match a with | ⟨0, _⟩ => rfl | ⟨1, _⟩ => rfl),
    Read.val_main_v38_apply, show Read.idx_main_v38 (ix2 j 0) = ix1 j from (by funext a; match a with | ⟨0, _⟩ => rfl),
    Read.val_main_v29_apply, v21_at, v28_at, Ideal.mulf_def]

/-- The aggregation of stage 43 at (r, q): zero plus the sum, over the entries j (edges and self loops) whose target is r, of
    the source row's entry in column q times the two endpoint factors. -/
theorem v43_at (x0 : (⟨S100000x4, .f32⟩ : BufTy).Contents (Elt Ideal)) (x2 : (⟨S4x128, .f32⟩ : BufTy).Contents (Elt Ideal)) (x12 : (⟨S2x600000, .i32⟩ : BufTy).Contents (Elt Ideal)) (r : Fin 100000) (q : Fin 128) :
    Read.val_main_v43 (F := Ideal) x0 x2 x12 (ix2 r q)
      = FloatOps.ofBits (F := Ideal) .f32 0x00000000#32
        + ∑ j : Fin 700000, if (Read.val_main_v6 (F := Ideal) x12 (ix1 j)).toInt = (r.val : Int)
            then Read.val_main_v30 (F := Ideal) x0 x2 (ix2 (row (nrm (Read.val_main_v5 (F := Ideal) x12 (ix1 j)))) q) * (Read.val_main_v14 (F := Ideal) x12 (ix1 (row (nrm (Read.val_main_v5 (F := Ideal) x12 (ix1 j))))) * Read.val_main_v14 (F := Ideal) x12 (ix1 (row (nrm (Read.val_main_v6 (F := Ideal) x12 (ix1 j)))))) else 0 := by
  rw [val_main_v43_apply, Read.val_main_v41_apply, Read.val_main_cst_8_apply]
  refine congrArg _ (Finset.sum_congr rfl fun j _ => ?_)
  rw [v42_at, Read.val_main_v40_apply, v37_at, v39_at, Ideal.mulf_def]

/-- The first bias spread over the rows, at (r, q). -/
theorem v45_at (x3 : (⟨S128, .f32⟩ : BufTy).Contents (Elt Ideal)) (r : Fin 100000) (q : Fin 128) :
    Read.val_main_v45 (F := Ideal) x3 (ix2 r q) = x3 (ix1 q) := by
  rw [Read.val_main_v45_apply, Read.val_main_v44_apply]
  exact congrArg x3 (by funext a; match a with | ⟨0, _⟩ => rfl)

/-- The layer output before the maximum, at (r, q): the aggregation there plus the bias of column q. -/
theorem v46_at (x0 : (⟨S100000x4, .f32⟩ : BufTy).Contents (Elt Ideal)) (x2 : (⟨S4x128, .f32⟩ : BufTy).Contents (Elt Ideal)) (x3 : (⟨S128, .f32⟩ : BufTy).Contents (Elt Ideal)) (x12 : (⟨S2x600000, .i32⟩ : BufTy).Contents (Elt Ideal)) (r : Fin 100000) (q : Fin 128) :
    Read.val_main_v46 (F := Ideal) x0 x2 x3 x12 (ix2 r q)
      = (FloatOps.ofBits (F := Ideal) .f32 0x00000000#32
        + ∑ j : Fin 700000, if (Read.val_main_v6 (F := Ideal) x12 (ix1 j)).toInt = (r.val : Int)
            then Read.val_main_v30 (F := Ideal) x0 x2 (ix2 (row (nrm (Read.val_main_v5 (F := Ideal) x12 (ix1 j)))) q) * (Read.val_main_v14 (F := Ideal) x12 (ix1 (row (nrm (Read.val_main_v5 (F := Ideal) x12 (ix1 j))))) * Read.val_main_v14 (F := Ideal) x12 (ix1 (row (nrm (Read.val_main_v6 (F := Ideal) x12 (ix1 j)))))) else 0)
        + x3 (ix1 q) := by
  rw [Read.val_main_v46_apply, v43_at, v45_at, Ideal.addf_def]

/-- The first layer's output at (r, q): the maximum of the value before it and zero. -/
theorem v47_at (x0 : (⟨S100000x4, .f32⟩ : BufTy).Contents (Elt Ideal)) (x2 : (⟨S4x128, .f32⟩ : BufTy).Contents (Elt Ideal)) (x3 : (⟨S128, .f32⟩ : BufTy).Contents (Elt Ideal)) (x12 : (⟨S2x600000, .i32⟩ : BufTy).Contents (Elt Ideal)) (r : Fin 100000) (q : Fin 128) :
    Read.val_main_v47 (F := Ideal) x0 x2 x3 x12 (ix2 r q) = max (Read.val_main_v46 (F := Ideal) x0 x2 x3 x12 (ix2 r q)) (FloatOps.ofBits (F := Ideal) .f32 0x00000000#32) := by
  rw [Read.val_main_v47_apply, Read.val_main_call1_v0_apply, Read.val_main_call1_cst_apply, Ideal.maximumf_def]

/-! ## The second layer -/

/-- The first layer's output times the second weight matrix, at (r, q). -/
theorem v48_at (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x12 : (⟨S2x600000, .i32⟩ : BufTy).Contents (Elt Ideal)) (r : Fin 100000) (q : Fin 128) :
    Read.val_main_v48 (F := Ideal) x0 x2 x3 x4 x12 (ix2 r q) = ∑ k : Fin 128, Read.val_main_v47 (F := Ideal) x0 x2 x3 x12 (ix2 r k) * x4 (ix2 k q) := by
  rw [Read.val_main_v48_apply]
  refine Finset.sum_congr rfl fun k _ => ?_
  rw [show Read.lidx_main_v48 (ix2 r q) k = ix2 r k from (by funext a; match a with | ⟨0, _⟩ => rfl | ⟨1, _⟩ => rfl),
    show Read.ridx_main_v48 (ix2 r q) k = ix2 k q from (by funext a; match a with | ⟨0, _⟩ => rfl | ⟨1, _⟩ => rfl)]

/-- The edge factor spread over the columns, at (j, q): the product of the two endpoint factors of entry j. -/
theorem v57_at (x12 : (⟨S2x600000, .i32⟩ : BufTy).Contents (Elt Ideal)) (j : Fin 700000) (q : Fin 128) :
    Read.val_main_v57 (F := Ideal) x12 (ix2 j q) = (Read.val_main_v14 (F := Ideal) x12 (ix1 (row (nrm (Read.val_main_v5 (F := Ideal) x12 (ix1 j))))) * Read.val_main_v14 (F := Ideal) x12 (ix1 (row (nrm (Read.val_main_v6 (F := Ideal) x12 (ix1 j)))))) := by
  rw [Read.val_main_v57_apply, show Read.idx_main_v57 (ix2 j q) = ix2 j 0 from (by funext a; match a with | ⟨0, _⟩ => rfl | ⟨1, _⟩ => rfl),
    Read.val_main_v56_apply, show Read.idx_main_v56 (ix2 j 0) = ix1 j from (by funext a; match a with | ⟨0, _⟩ => rfl),
    Read.val_main_v29_apply, v21_at, v28_at, Ideal.mulf_def]

/-- The aggregation of stage 61 at (r, q): zero plus the sum, over the entries j (edges and self loops) whose target is r, of
    the source row's entry in column q times the two endpoint factors. -/
theorem v61_at (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x12 : (⟨S2x600000, .i32⟩ : BufTy).Contents (Elt Ideal)) (r : Fin 100000) (q : Fin 128) :
    Read.val_main_v61 (F := Ideal) x0 x2 x3 x4 x12 (ix2 r q)
      = FloatOps.ofBits (F := Ideal) .f32 0x00000000#32
        + ∑ j : Fin 700000, if (Read.val_main_v6 (F := Ideal) x12 (ix1 j)).toInt = (r.val : Int)
            then Read.val_main_v48 (F := Ideal) x0 x2 x3 x4 x12 (ix2 (row (nrm (Read.val_main_v5 (F := Ideal) x12 (ix1 j)))) q) * (Read.val_main_v14 (F := Ideal) x12 (ix1 (row (nrm (Read.val_main_v5 (F := Ideal) x12 (ix1 j))))) * Read.val_main_v14 (F := Ideal) x12 (ix1 (row (nrm (Read.val_main_v6 (F := Ideal) x12 (ix1 j)))))) else 0 := by
  rw [val_main_v61_apply, Read.val_main_v59_apply, Read.val_main_cst_11_apply]
  refine congrArg _ (Finset.sum_congr rfl fun j _ => ?_)
  rw [v60_at, Read.val_main_v58_apply, v55_at, v57_at, Ideal.mulf_def]

/-- The second bias spread over the rows, at (r, q). -/
theorem v63_at (x5 : (⟨S128, .f32⟩ : BufTy).Contents (Elt Ideal)) (r : Fin 100000) (q : Fin 128) :
    Read.val_main_v63 (F := Ideal) x5 (ix2 r q) = x5 (ix1 q) := by
  rw [Read.val_main_v63_apply, Read.val_main_v62_apply]
  exact congrArg x5 (by funext a; match a with | ⟨0, _⟩ => rfl)

/-- The layer output before the maximum, at (r, q): the aggregation there plus the bias of column q. -/
theorem v64_at (x0 : (⟨S100000x4, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (r : Fin 100000) (q : Fin 128) :
    Read.val_main_v64 (F := Ideal) x0 x2 x3 x4 x5 x12 (ix2 r q)
      = (FloatOps.ofBits (F := Ideal) .f32 0x00000000#32
        + ∑ j : Fin 700000, if (Read.val_main_v6 (F := Ideal) x12 (ix1 j)).toInt = (r.val : Int)
            then Read.val_main_v48 (F := Ideal) x0 x2 x3 x4 x12 (ix2 (row (nrm (Read.val_main_v5 (F := Ideal) x12 (ix1 j)))) q) * (Read.val_main_v14 (F := Ideal) x12 (ix1 (row (nrm (Read.val_main_v5 (F := Ideal) x12 (ix1 j))))) * Read.val_main_v14 (F := Ideal) x12 (ix1 (row (nrm (Read.val_main_v6 (F := Ideal) x12 (ix1 j)))))) else 0)
        + x5 (ix1 q) := by
  rw [Read.val_main_v64_apply, v61_at, v63_at, Ideal.addf_def]

/-! ## The edge network -/

/-- The joined edge row at a column below 128: the second layer's output at the edge's first endpoint. -/
theorem v79_at_p0 (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (e : Fin 600000) (j : Fin 128) (j' : Fin 261) (h : j'.val = j.val) :
    Read.val_main_v79 (F := Ideal) x0 x1 x2 x3 x4 x5 x12 (ix2 e j') = Read.val_main_v64 (F := Ideal) x0 x2 x3 x4 x5 x12 (ix2 (row (nrm (Read.val_main_v1 (F := Ideal) x12 (ix1 e)))) j) := by
  rw [val_main_v79_p0 x0 x1 x2 x3 x4 x5 x12 e j j' h, v71_at]

/-- The joined edge row at a column 128 + j, j below 128: the second layer's output at the edge's second endpoint. -/
theorem v79_at_p1 (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x12 : (⟨S2x600000, .i32⟩ : BufTy).Contents (Elt Ideal)) (e : Fin 600000) (j : Fin 128) (j' : Fin 261) (h : j'.val = 128 + j.val) :
    Read.val_main_v79 (F := Ideal) x0 x1 x2 x3 x4 x5 x12 (ix2 e j') = Read.val_main_v64 (F := Ideal) x0 x2 x3 x4 x5 x12 (ix2 (row (nrm (Read.val_main_v3 (F := Ideal) x12 (ix1 e)))) j) := by
  rw [val_main_v79_p1 x0 x1 x2 x3 x4 x5 x12 e j j' h, v78_at]

/-- The joined edge rows times the first weight matrix of the edge network, at (e, q). -/
theorem v80_at (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S261x128, .f32⟩ : BufTy).Contents (Elt Ideal)) (x12 : (⟨S2x600000, .i32⟩ : BufTy).Contents (Elt Ideal)) (e : Fin 600000) (q : Fin 128) :
    Read.val_main_v80 (F := Ideal) x0 x1 x2 x3 x4 x5 x6 x12 (ix2 e q) = ∑ k : Fin 261, Read.val_main_v79 (F := Ideal) x0 x1 x2 x3 x4 x5 x12 (ix2 e k) * x6 (ix2 k q) := by
  rw [Read.val_main_v80_apply]
  refine Finset.sum_congr rfl fun k _ => ?_
  rw [show Read.lidx_main_v80 (ix2 e q) k = ix2 e k from (by funext a; match a with | ⟨0, _⟩ => rfl | ⟨1, _⟩ => rfl),
    show Read.ridx_main_v80 (ix2 e q) k = ix2 k q from (by funext a; match a with | ⟨0, _⟩ => rfl | ⟨1, _⟩ => rfl)]

/-- The first bias of the edge network spread over the edges, at (e, q). -/
theorem v82_at (x7 : (⟨S128, .f32⟩ : BufTy).Contents (Elt Ideal)) (e : Fin 600000) (q : Fin 128) :
    Read.val_main_v82 (F := Ideal) x7 (ix2 e q) = x7 (ix1 q) := by
  rw [Read.val_main_v82_apply, Read.val_main_v81_apply]
  exact congrArg x7 (by funext a; match a with | ⟨0, _⟩ => rfl)

/-- The first hidden layer of the edge network at (e, q): the maximum of the affine map and zero. -/
theorem v84_at (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S261x128, .f32⟩ : BufTy).Contents (Elt Ideal)) (x7 : (⟨S128, .f32⟩ : BufTy).Contents (Elt Ideal)) (x12 : (⟨S2x600000, .i32⟩ : BufTy).Contents (Elt Ideal)) (e : Fin 600000) (q : Fin 128) :
    Read.val_main_v84 (F := Ideal) x0 x1 x2 x3 x4 x5 x6 x7 x12 (ix2 e q) = max (Read.val_main_v80 (F := Ideal) x0 x1 x2 x3 x4 x5 x6 x12 (ix2 e q) + x7 (ix1 q)) (FloatOps.ofBits (F := Ideal) .f32 0x00000000#32) := by
  rw [Read.val_main_v84_apply, Read.val_main_v83_apply, v82_at, Read.val_main_call2_v0_apply, Read.val_main_call2_cst_apply,
    Ideal.maximumf_def, Ideal.addf_def]

/-- The first hidden layer times the second weight matrix of the edge network, at (e, q). -/
theorem v85_at (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S261x128, .f32⟩ : BufTy).Contents (Elt Ideal)) (x7 : (⟨S128, .f32⟩ : BufTy).Contents (Elt Ideal)) (x8 : (⟨S128x128, .f32⟩ : BufTy).Contents (Elt Ideal)) (x12 : (⟨S2x600000, .i32⟩ : BufTy).Contents (Elt Ideal)) (e : Fin 600000) (q : Fin 128) :
    Read.val_main_v85 (F := Ideal) x0 x1 x2 x3 x4 x5 x6 x7 x8 x12 (ix2 e q) = ∑ k : Fin 128, Read.val_main_v84 (F := Ideal) x0 x1 x2 x3 x4 x5 x6 x7 x12 (ix2 e k) * x8 (ix2 k q) := by
  rw [Read.val_main_v85_apply]
  refine Finset.sum_congr rfl fun k _ => ?_
  rw [show Read.lidx_main_v85 (ix2 e q) k = ix2 e k from (by funext a; match a with | ⟨0, _⟩ => rfl | ⟨1, _⟩ => rfl),
    show Read.ridx_main_v85 (ix2 e q) k = ix2 k q from (by funext a; match a with | ⟨0, _⟩ => rfl | ⟨1, _⟩ => rfl)]

/-- The second bias of the edge network spread over the edges, at (e, q). -/
theorem v87_at (x9 : (⟨S128, .f32⟩ : BufTy).Contents (Elt Ideal)) (e : Fin 600000) (q : Fin 128) :
    Read.val_main_v87 (F := Ideal) x9 (ix2 e q) = x9 (ix1 q) := by
  rw [Read.val_main_v87_apply, Read.val_main_v86_apply]
  exact congrArg x9 (by funext a; match a with | ⟨0, _⟩ => rfl)

/-- The second hidden layer of the edge network at (e, q): the maximum of the affine map and zero. -/
theorem v89_at (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S261x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x12 : (⟨S2x600000, .i32⟩ : BufTy).Contents (Elt Ideal)) (e : Fin 600000) (q : Fin 128) :
    Read.val_main_v89 (F := Ideal) x0 x1 x2 x3 x4 x5 x6 x7 x8 x9 x12 (ix2 e q)
      = max ((∑ k : Fin 128, Read.val_main_v84 (F := Ideal) x0 x1 x2 x3 x4 x5 x6 x7 x12 (ix2 e k) * x8 (ix2 k q)) + x9 (ix1 q)) (FloatOps.ofBits (F := Ideal) .f32 0x00000000#32) := by
  rw [Read.val_main_v89_apply, Read.val_main_v88_apply, v85_at, v87_at, Read.val_main_call3_v0_apply, Read.val_main_call3_cst_apply,
    Ideal.maximumf_def, Ideal.addf_def]

/-- The second hidden layer times the last weight column, at edge e. -/
theorem v90_at (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S261x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x12 : (⟨S2x600000, .i32⟩ : BufTy).Contents (Elt Ideal)) (e : Fin 600000) :
    Read.val_main_v90 (F := Ideal) x0 x1 x2 x3 x4 x5 x6 x7 x8 x9 x10 x12 (ix2 e 0) = ∑ k : Fin 128, Read.val_main_v89 (F := Ideal) x0 x1 x2 x3 x4 x5 x6 x7 x8 x9 x12 (ix2 e k) * x10 (ix2 k 0) := by
  rw [Read.val_main_v90_apply]
  refine Finset.sum_congr rfl fun k _ => ?_
  rw [show Read.lidx_main_v90 (ix2 e 0) k = ix2 e k from (by funext a; match a with | ⟨0, _⟩ => rfl | ⟨1, _⟩ => rfl),
    show Read.ridx_main_v90 (ix2 e 0) k = ix2 k 0 from (by funext a; match a with | ⟨0, _⟩ => rfl | ⟨1, _⟩ => rfl)]

/-- The last bias spread over the edges. -/
theorem v92_at (x11 : (⟨S1, .f32⟩ : BufTy).Contents (Elt Ideal)) (e : Fin 600000) :
    Read.val_main_v92 (F := Ideal) x11 (ix2 e 0) = x11 (ix1 0) := by
  rw [Read.val_main_v92_apply, Read.val_main_v91_apply]
  exact congrArg x11 (by funext a; match a with | ⟨0, _⟩ => rfl)

/-- The score of edge e before the logistic function: the last affine map. -/
theorem v94_at (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S261x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (x12 : (⟨S2x600000, .i32⟩ : BufTy).Contents (Elt Ideal)) (e : Fin 600000) :
    Read.val_main_v94 (F := Ideal) x0 x1 x2 x3 x4 x5 x6 x7 x8 x9 x10 x11 x12 (ix1 e)
      = (∑ k : Fin 128, Read.val_main_v89 (F := Ideal) x0 x1 x2 x3 x4 x5 x6 x7 x8 x9 x12 (ix2 e k) * x10 (ix2 k 0)) + x11 (ix1 0) := by
  rw [Read.val_main_v94_apply, show Read.idx_main_v94 (ix1 e) = ix2 e 0 from
      (by funext a; match a with | ⟨0, _⟩ => exact Fin.ext (Nat.div_one _) | ⟨1, _⟩ => rfl),
    Read.val_main_v93_apply, v90_at, v92_at, Ideal.addf_def]

/-- The word of the float one denotes one. -/
theorem ofBits_one : Ideal.ofBits .f32 0x3F800000#32 = 1 := by
  simp [Ideal.ofBits, Ideal.ieee, -EReal.coe_mul]; norm_num

/-- THE RESULT at edge e: the logistic function of the score. -/
theorem v100_at (x0 : (⟨S100000x4, .f32⟩ : BufTy).Contents (Elt Ideal)) (x1 : (⟨S600000x5, .f32⟩ : BufTy).Contents (Elt Ideal)) (x2 : (⟨S4x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S261x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (x12 : (⟨S2x600000, .i32⟩ : BufTy).Contents (Elt Ideal)) (e : Fin 600000) :
    Read.val_main_v100 (F := Ideal) x0 x1 x2 x3 x4 x5 x6 x7 x8 x9 x10 x11 x12 (ix1 e)
      = Ideal.logistic ((∑ k : Fin 128, Read.val_main_v89 (F := Ideal) x0 x1 x2 x3 x4 x5 x6 x7 x8 x9 x12 (ix2 e k) * x10 (ix2 k 0)) + x11 (ix1 0)) := by
  rw [Read.val_main_v100_apply, Read.val_main_v99_apply, Read.val_main_cst_17_apply, Read.val_main_v98_apply,
    Read.val_main_v97_apply, Read.val_main_cst_16_apply, Read.val_main_v96_apply, Read.val_main_v95_apply, v94_at,
    Ideal.hostDivf_def, Ideal.addf_def, Ideal.hostUnary_exp_def, Ideal.hostNegf_def, Ideal.negf_def, Ideal.ofBits_def,
    ofBits_one, Ideal.logistic]

end Cert.ReferenceIdeal.RefRead

end
-- ==== Proof.GcnLaw.lean ====
/-
  Three laws of finite sums on the extended reals, over abstract index sets.

  (1) A finite sum times a factor c with 0 ≤ c < ⊤ is the sum of the products: multiplication by such a factor is additive
      on all of the extended reals (also at the infinities, where general distributivity fails).
  (2) The graph-convolution law.  Messages are summed into node r over E edges followed by N self-loops (index set of
      E + N elements: edge e lands at r when its target is r, loop k lands at r when k = r).  With each message scaled by
      the product of the source's and the target's normalisation, the sum equals: (the sum over the edges landing at r
      of the source feature times the source's normalisation, plus r's own feature times r's normalisation), all times
      r's normalisation — provided the normalisation is nonnegative and finite.
  (3) The same index set summed with a constant per landing element: the count over edges, plus one for the loop.
  (4) A sum over A + B + C elements is the sum of its three consecutive blocks.
-/
import Mathlib.Data.EReal.Operations
import Mathlib.Data.EReal.Inv
import Mathlib.Algebra.BigOperators.Fin

open scoped BigOperators

namespace Cert.GcnLaw

/-- A finite sum times a nonnegative finite factor is the sum of the products. -/
theorem sum_mul_of_nonneg_ne_top {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A sum over E + N elements, given by its values on the first E and on the last N. -/
theorem sum_split2 {T E N : ℕ} (hT : T = E + N) (f : Fin T → EReal) (f0 : Fin E → EReal) (f1 : Fin N → EReal)
    (h0 : ∀ (j : Fin T) (e : Fin E), j.val = e.val → f j = f0 e)
    (h1 : ∀ (j : Fin T) (k : Fin N), j.val = E + k.val → f j = f1 k) :
    ∑ j, f j = ∑ e, f0 e + ∑ k, f1 k := by
  subst hT
  rw [Fin.sum_univ_add]
  congr 1
  · exact Finset.sum_congr rfl fun e _ => h0 _ e rfl
  · exact Finset.sum_congr rfl fun k _ => h1 _ k rfl

/-- A sum over A + B + C elements is the sum of its three consecutive blocks. -/
theorem sum_split3 {T A B C : ℕ} (hT : T = A + B + C) (f : Fin T → EReal) (f0 : Fin A → EReal) (f1 : Fin B → EReal)
    (f2 : Fin C → EReal)
    (h0 : ∀ (j : Fin T) (a : Fin A), j.val = a.val → f j = f0 a)
    (h1 : ∀ (j : Fin T) (b : Fin B), j.val = A + b.val → f j = f1 b)
    (h2 : ∀ (j : Fin T) (c : Fin C), j.val = A + B + c.val → f j = f2 c) :
    ∑ j, f j = (∑ a, f0 a + ∑ b, f1 b) + ∑ c, f2 c := by
  subst hT
  rw [Fin.sum_univ_add, Fin.sum_univ_add]
  congr 1
  · congr 1
    · exact Finset.sum_congr rfl fun a _ => h0 _ a rfl
    · exact Finset.sum_congr rfl fun b _ => h1 _ b rfl
  · exact Finset.sum_congr rfl fun c _ => h2 _ c rfl

/-- A guarded sum over the N loops, loop k landing at r exactly when k = r, is the r-th term. -/
theorem sum_loop {N : ℕ} (r : Fin N) (g : Fin N → EReal) :
    (∑ k : Fin N, if k = r then g k else 0) = g r := by
  rw [Finset.sum_ite_eq' Finset.univ r g]; simp

/-- The degree: counting a constant over the E edges landing at r and the N loops gives the count over the edges plus
    one more constant. -/
theorem deg_law {T E N : ℕ} (hT : T = E + N) (tgt : Fin E → Int) (r : Fin N) (one z : EReal)
    (G : Fin T → Prop) [DecidablePred G]
    (hG0 : ∀ (j : Fin T) (e : Fin E), j.val = e.val → (G j ↔ tgt e = (r.val : Int)))
    (hG1 : ∀ (j : Fin T) (k : Fin N), j.val = E + k.val → (G j ↔ k = r)) :
    z + (∑ j, if G j then one else 0) = (z + ∑ e, if tgt e = (r.val : Int) then one else 0) + one := by
  rw [sum_split2 hT (fun j => if G j then one else 0) (fun e => if tgt e = (r.val : Int) then one else 0)
      (fun k => if k = r then one else 0)
      (fun j e h => by simp only [hG0 j e h]) (fun j k h => by simp only [hG1 j k h]),
    sum_loop r (fun _ => one), add_assoc]

/-- The graph-convolution law at one node r and one feature column. -/
theorem layer_law {T E N : ℕ} (hT : T = E + N) (tgt : Fin E → Int) (s : Fin E → Fin N) (d : Fin N → EReal)
    (hd0 : ∀ r, 0 ≤ d r) (hdt : ∀ r, d r ≠ ⊤) (h : Fin N → EReal) (r : Fin N)
    (G : Fin T → Prop) [DecidablePred G] (M : Fin T → EReal)
    (hG0 : ∀ (j : Fin T) (e : Fin E), j.val = e.val → (G j ↔ tgt e = (r.val : Int)))
    (hM0 : ∀ (j : Fin T) (e : Fin E), j.val = e.val → tgt e = (r.val : Int) → M j = h (s e) * (d (s e) * d r))
    (hG1 : ∀ (j : Fin T) (k : Fin N), j.val = E + k.val → (G j ↔ k = r))
    (hM1 : ∀ (j : Fin T), j.val = E + r.val → M j = h r * (d r * d r)) :
    (∑ j, if G j then M j else 0)
      = ((∑ e, if tgt e = (r.val : Int) then h (s e) * d (s e) else 0) + h r * d r) * d r := by
  rw [sum_split2 hT (fun j => if G j then M j else 0)
      (fun e => if tgt e = (r.val : Int) then (h (s e) * d (s e)) * d r else 0)
      (fun k => if k = r then (h r * d r) * d r else 0)
      (fun j e hj => by
        by_cases hg : tgt e = (r.val : Int)
        · rw [if_pos ((hG0 j e hj).mpr hg), if_pos hg, hM0 j e hj hg]; exact (mul_assoc (h (s e)) (d (s e)) (d r)).symm
        · rw [if_neg (fun hh => hg ((hG0 j e hj).mp hh)), if_neg hg])
      (fun j k hj => by
        by_cases hk : k = r
        · subst hk; rw [if_pos ((hG1 j k hj).mpr rfl), if_pos rfl, hM1 j hj]; exact (mul_assoc (h k) (d k) (d k)).symm
        · rw [if_neg (fun hh => hk ((hG1 j k hj).mp hh)), if_neg hk]),
    sum_loop r (fun _ => (h r * d r) * d r),
    EReal.right_distrib_of_nonneg_of_ne_top (hd0 r) (hdt r),
    sum_mul_of_nonneg_ne_top _ _ (hd0 r) (hdt r)]
  congr 1
  refine Finset.sum_congr rfl fun e _ => ?_
  by_cases hg : tgt e = (r.val : Int)
  · rw [if_pos hg, if_pos hg]
  · rw [if_neg hg, if_neg hg, zero_mul]

end Cert.GcnLaw
-- ==== Proof.LayerEq.lean ====
/-
  The graph-convolution law and the degree count, for the index words of this graph.

  The reference sums messages over 700000 elements: the 600000 edges followed by the 100000 self-loops, whose source
  and target words are the counting sequence 0, 1, 2, ….  The kernel sums over the 600000 edges only and adds the
  node's own (scaled) feature.  With the two laws of sums on the extended reals and the index facts (a word that reads
  signed as a node number names that node's row; the k-th counting word names row k) the two arrangements agree, for
  any nonnegative finite normalisation d.
-/
import proofs.«140584_j4020089389438_2_alg».proof.Proof.GcnLaw
import proofs.«140584_j4020089389438_2_alg».proof.Proof.IndexFacts

open scoped BigOperators

namespace Cert.LayerEq

open Cert.IndexFacts Cert.GcnLaw

section
variable (src dst : Fin 600000 → BitVec 32) (t5 t6 : Fin 700000 → BitVec 32)
variable (h5lo : ∀ (j : Fin 700000) (e : Fin 600000), j.val = e.val → t5 j = src e)
variable (h5hi : ∀ (j : Fin 700000) (k : Fin 100000), j.val = 600000 + k.val → t5 j = BitVec.ofNat 32 k.val)
variable (h6lo : ∀ (j : Fin 700000) (e : Fin 600000), j.val = e.val → t6 j = dst e)
variable (h6hi : ∀ (j : Fin 700000) (k : Fin 100000), j.val = 600000 + k.val → t6 j = BitVec.ofNat 32 k.val)
include h6lo h6hi

/-- The degree: the count over edges and loops landing at r is the count over the edges plus one. -/
theorem deg_eq (r : Fin 100000) (one z : EReal) :
    z + (∑ j : Fin 700000, if (t6 j).toInt = (r.val : Int) then one else 0)
      = (z + ∑ e : Fin 600000, if (dst e).toInt = (r.val : Int) then one else 0) + one :=
  deg_law (T := 700000) (E := 600000) (N := 100000) rfl (fun e => (dst e).toInt) r one z
    (fun j => (t6 j).toInt = (r.val : Int))
    (fun j e hj => by rw [h6lo j e hj])
    (fun j k hj => by
      rw [h6hi j k hj, toInt_ofNat k]
      constructor
      · intro h; exact Fin.ext (by omega)
      · intro h; rw [h])

include h5lo h5hi

/-- One layer at node r and one feature column. -/
theorem layer_eq (d : Fin 100000 → EReal) (hd0 : ∀ r, 0 ≤ d r) (hdt : ∀ r, d r ≠ ⊤) (hW : Fin 100000 → EReal)
    (r : Fin 100000) :
    (∑ j : Fin 700000, if (t6 j).toInt = (r.val : Int)
        then hW (row (nrm (t5 j))) * (d (row (nrm (t5 j))) * d (row (nrm (t6 j)))) else 0)
      = ((∑ e : Fin 600000, if (dst e).toInt = (r.val : Int) then hW (row (nrm (src e))) * d (row (nrm (src e))) else 0)
          + hW r * d r) * d r :=
  layer_law (T := 700000) (E := 600000) (N := 100000) rfl (fun e => (dst e).toInt) (fun e => row (nrm (src e))) d hd0 hdt hW r
    (fun j => (t6 j).toInt = (r.val : Int))
    (fun j => hW (row (nrm (t5 j))) * (d (row (nrm (t5 j))) * d (row (nrm (t6 j)))))
    (fun j e hj => by rw [h6lo j e hj])
    (fun j e hj hg => by
      show hW (row (nrm (t5 j))) * (d (row (nrm (t5 j))) * d (row (nrm (t6 j)))) = _
      rw [h5lo j e hj, h6lo j e hj, row_nrm_of_toInt (dst e) r hg])
    (fun j k hj => by
      rw [h6hi j k hj, toInt_ofNat k]
      constructor
      · intro h; exact Fin.ext (by omega)
      · intro h; rw [h])
    (fun j hj => by
      show hW (row (nrm (t5 j))) * (d (row (nrm (t5 j))) * d (row (nrm (t6 j)))) = _
      rw [h5hi j r hj, h6hi j r hj, row_nrm_ofNat r])

end

end Cert.LayerEq
-- ==== Proof.DinvFacts.lean ====
/-
  The symmetric normalisation's factor is a nonnegative finite number.

  The factor is  select (deg > 0) (rsqrt deg) 0 : where the degree is positive it is the reciprocal square root of a
  positive extended real — a positive real, or 0 at ⊤ — and elsewhere it is 0.  Whatever the degree is, the factor is
  therefore ≥ 0 and < ⊤: multiplication by it distributes over sums on all of the extended reals.
-/
import Idealize.ShloMosaic.PureOps.Ideal
import Idealize.ShloMosaic.Lib.IdealHost

namespace Cert.DinvFacts

open Idealize.ShloMosaic

/-- The reciprocal square root of a positive extended real is nonnegative and finite. -/
theorem rsqrt_nonneg_ne_top {x : EReal} (hx : 0 < x) : 0 ≤ Ideal.rsqrt x ∧ Ideal.rsqrt x ≠ ⊤ := by
  induction x using EReal.rec with
  | bot => exact absurd hx (by simp)
  | top => rw [Ideal.rsqrt_top]; exact ⟨le_refl _, EReal.zero_ne_top⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

/-- The guarded reciprocal square root: nonnegative and finite at every degree. -/
theorem sel_rsqrt_nonneg_ne_top (D Z Z2 : EReal) (hZ : Z = 0) (hZ2 : Z2 = 0) :
    0 ≤ Scalar.select (Ideal.cmp .ogt D Z) (Ideal.rsqrt D) Z2
      ∧ Scalar.select (Ideal.cmp .ogt D Z) (Ideal.rsqrt D) Z2 ≠ ⊤ := by
  subst hZ hZ2
  rw [show Ideal.cmp .ogt D 0 = BitVec.ofBool (decide ((0 : EReal) < D)) from rfl]
  unfold Scalar.select
  by_cases h : (0 : EReal) < D
  · have hc : (BitVec.ofBool (decide ((0 : EReal) < D))) = (1 : BitVec 1) := by simp [h]
    rw [if_pos hc]
    exact rsqrt_nonneg_ne_top h
  · have hc : ¬ (BitVec.ofBool (decide ((0 : EReal) < D))) = (1 : BitVec 1) := by simp [h]
    rw [if_neg hc]
    exact ⟨le_refl _, EReal.zero_ne_top⟩

end Cert.DinvFacts
-- ==== Proof.LibColumn.lean ====
/-
  Two layout facts about a COLUMN of width one, for any lengths: a vector of length `a` recast as an `[a, 1]` column
  reads, at `(i, u)`, the vector at `i`; and an `[a, 1]` column broadcast along a second axis of length `b` reads,
  at `(i, j)`, the column at `(i, 0)`. Both are the library's read-at-an-index lemmas with the coordinate arithmetic
  discharged. No program is imported.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to an `[a, 1]` column reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`: the unit axis is read at
    zero, the other at the same coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) fun ax => by
    match ax with
    | ⟨0, _⟩ =>
      show i.val = if a = 1 then 0 else i.val
      by_cases ha : a = 1
      · rw [if_pos ha]; have := i.isLt; omega
      · rw [if_neg ha]
    | ⟨1, _⟩ => show 0 = if (1 : Nat) = 1 then 0 else j.val; rw [if_pos rfl]

end Cert.LibColumn
-- ==== Proof.Bridge1.lean ====
/-
  The normalisation column of the kernel program is the reference's normalisation vector.

  Both programs count, for every node, the edges that land on it, and take the guarded reciprocal square root of the
  count.  The kernel counts over the 600000 edges and adds one; the reference counts over the edges followed by the
  100000 self-loops.  The two counts agree (the loops contribute exactly one per node), so the two normalisations,
  the same function of the count, agree; the kernel stores it as a 100000 × 1 column.  The factor is nonnegative and
  finite at every node.
-/
import proofs.«140584_j4020089389438_2_alg».proof.Proof.KKeep
import proofs.«140584_j4020089389438_2_alg».proof.Proof.KHost
import proofs.«140584_j4020089389438_2_alg».proof.Proof.KHostPoint
import proofs.«140584_j4020089389438_2_alg».proof.Proof.RefPoint
import proofs.«140584_j4020089389438_2_alg».proof.Proof.LayerEq
import proofs.«140584_j4020089389438_2_alg».proof.Proof.DinvFacts
import proofs.«140584_j4020089389438_2_alg».proof.Proof.LibColumn
import Idealize.ShloMosaic.Lib.IdealHost

set_option maxRecDepth 16384

noncomputable section

open scoped BigOperators

namespace Cert.Bridge

open Idealize.ShloMosaic Idealize.ShloMosaic.ValueIdx Idealize.ShloMosaic.TcCoe
open Cert.KernelIdeal Cert.KernelIdeal.Gen Cert.KernelIdeal.Chain Cert.KernelIdeal.HostPoint
open Cert.ReferenceIdeal.RefRead Cert.IndexFacts

variable (m : (ℓ : Loc nD τ sig) → Buf (Elt Ideal) ℓ) (ρ : Dev nD → PrngReg) (c : Dev nD)

/-- The launched arguments. -/
abbrev X0 : Cert.ReferenceIdeal.S100000x4.Idx → EReal := m ((c : Thread nD τ).loc main_arg0)
abbrev X1 : Cert.ReferenceIdeal.S600000x5.Idx → EReal := m ((c : Thread nD τ).loc main_arg1)
abbrev X2 : Cert.ReferenceIdeal.S4x128.Idx → EReal := m ((c : Thread nD τ).loc main_arg2)
abbrev X3 : Cert.ReferenceIdeal.S128.Idx → EReal := m ((c : Thread nD τ).loc main_arg3)
abbrev X4 : Cert.ReferenceIdeal.S128x128.Idx → EReal := m ((c : Thread nD τ).loc main_arg4)
abbrev X5 : Cert.ReferenceIdeal.S128.Idx → EReal := m ((c : Thread nD τ).loc main_arg5)
abbrev X6 : Cert.ReferenceIdeal.S261x128.Idx → EReal := m ((c : Thread nD τ).loc main_arg6)
abbrev X7 : Cert.ReferenceIdeal.S128.Idx → EReal := m ((c : Thread nD τ).loc main_arg7)
abbrev X8 : Cert.ReferenceIdeal.S128x128.Idx → EReal := m ((c : Thread nD τ).loc main_arg8)
abbrev X9 : Cert.ReferenceIdeal.S128.Idx → EReal := m ((c : Thread nD τ).loc main_arg9)
abbrev X10 : Cert.ReferenceIdeal.S128x1.Idx → EReal := m ((c : Thread nD τ).loc main_arg10)
abbrev X11 : Cert.ReferenceIdeal.S1.Idx → EReal := m ((c : Thread nD τ).loc main_arg11)

/-- The launched edge list. -/
abbrev X12 : (⟨Cert.ReferenceIdeal.S2x600000, .i32⟩ : BufTy).Contents (Elt Ideal) := m ((c : Thread nD τ).loc main_arg12)

/-- The reference's normalisation vector. -/
abbrev dinvR : Cert.ReferenceIdeal.S100000.Idx → EReal := Cert.ReferenceIdeal.Read.val_main_v14 (F := Ideal) (X12 m c)

/-- The source and destination index rows, as the reference names them. -/
abbrev srcR : IVec S600000 32 := Cert.ReferenceIdeal.Read.val_main_v1 (F := Ideal) (X12 m c)
abbrev dstR : IVec S600000 32 := Cert.ReferenceIdeal.Read.val_main_v3 (F := Ideal) (X12 m c)

/-- The source row when region 0 is entered. -/
theorem w3_v1 : W3 m ρ c (Proc.devRef .tc main_v1) = srcR m c := by
  show StableHlo.after (hostOps0_2 (F := Ideal)) (StableHlo.after (hostOps0_1 (F := Ideal)) (StableHlo.after (hostOps0 (F := Ideal)) (W0 m ρ c))) (Proc.devRef .tc main_v1) = _
  rw [pre_v1, host0_v1]
  rfl

/-- The destination row when region 0 is entered. -/
theorem w3_v3 : W3 m ρ c (Proc.devRef .tc main_v3) = dstR m c := by
  show StableHlo.after (hostOps0_2 (F := Ideal)) (StableHlo.after (hostOps0_1 (F := Ideal)) (StableHlo.after (hostOps0 (F := Ideal)) (W0 m ρ c))) (Proc.devRef .tc main_v3) = _
  rw [pre_v3, host0_v3]
  rfl

/-- The degree the kernel's first stretch computes is the reference's. -/
theorem deg_eq (r : Fin 100000) :
    (StableHlo.after (hostOps0 (F := Ideal)) (W0 m ρ c) (Proc.devRef .tc main_v9) : S100000.Idx → EReal) (ix1 r)
      = Cert.ReferenceIdeal.Read.val_main_v10 (F := Ideal) (X12 m c) (ix1 r) := by
  rw [host0_v9, deg_read, deg_at]
  exact (Cert.LayerEq.deg_eq (fun e => Cert.ReferenceIdeal.Read.val_main_v3 (F := Ideal) (X12 m c) (ix1 e))
    (fun j => Cert.ReferenceIdeal.Read.val_main_v6 (F := Ideal) (X12 m c) (ix1 j))
    (val_main_v6_lo (X12 m c)) (val_main_v6_hi (X12 m c)) r _ _).symm

/-- The reference's factor at node r, as the guarded reciprocal square root of its degree there. -/
theorem dinvR_apply (r : Fin 100000) :
    dinvR m c (ix1 r)
      = Scalar.select (Ideal.cmp .ogt (Cert.ReferenceIdeal.Read.val_main_v10 (F := Ideal) (X12 m c) (ix1 r)) (Ideal.ofBits .f32 0x00000000#32))
          (Ideal.rsqrt (Cert.ReferenceIdeal.Read.val_main_v10 (F := Ideal) (X12 m c) (ix1 r)))
          (Ideal.ofBits .f32 0x00000000#32) := by
  show Cert.ReferenceIdeal.Read.val_main_v14 (F := Ideal) (X12 m c) (ix1 r) = _
  rw [Cert.ReferenceIdeal.Read.val_main_v14_apply, Cert.ReferenceIdeal.Read.val_main_v12_apply,
    Cert.ReferenceIdeal.Read.val_main_v13_apply, Cert.ReferenceIdeal.Read.val_main_v11_apply,
    Cert.ReferenceIdeal.Read.val_main_cst_1_apply, Cert.ReferenceIdeal.Read.val_main_call0_v1_apply,
    Cert.ReferenceIdeal.Read.val_main_call0_v0_apply, Cert.ReferenceIdeal.Read.val_main_cst_2_apply,
    Ideal.cmpf_def, Ideal.hostUnary_rsqrt_def, Ideal.ofBits_def]

/-- The host reciprocal square root of an array, at one index. -/
theorem hostRsqrt_apply {s : Shape} {φ : FTy} (x : FVec Ideal s φ) (i : s.Idx) :
    Host.rsqrt (F := Ideal) x i = Ideal.rsqrt (x i) := rfl

/-- The normalisation column when region 0 is entered. -/
theorem dinv_col :
    W3 m ρ c (Proc.devRef .tc main_v14) = shapeCast S100000x1 (dinvR m c) shapeCasts_S100000_S100000x1 := by
  show StableHlo.after (hostOps0_2 (F := Ideal)) (StableHlo.after (hostOps0_1 (F := Ideal)) (StableHlo.after (hostOps0 (F := Ideal)) (W0 m ρ c))) (Proc.devRef .tc main_v14) = _
  rw [pre_v14]
  refine congrArg (fun z => shapeCast S100000x1 z shapeCasts_S100000_S100000x1) ?_
  funext i
  obtain ⟨r, rfl⟩ : ∃ r : Fin 100000, i = ix1 r := ⟨i 0, eq_ix1 i⟩
  rw [dinvR_apply, select_apply, cmpf_apply, hostRsqrt_apply, Cert.Lib.BcastRead.scalar_spread_apply, constant_apply,
    deg_eq m ρ c r, Ideal.cmpf_def]

/-- The normalisation factor is nonnegative. -/
theorem dinvR_nonneg (r : Fin 100000) : 0 ≤ dinvR m c (ix1 r) := by
  rw [dinvR_apply]
  exact (Cert.DinvFacts.sel_rsqrt_nonneg_ne_top (Cert.ReferenceIdeal.Read.val_main_v10 (F := Ideal) (X12 m c) (ix1 r))
    (Ideal.ofBits .f32 0x00000000#32) (Ideal.ofBits .f32 0x00000000#32) Ideal.ofBits_zero_f32 Ideal.ofBits_zero_f32).1

/-- The normalisation factor is finite. -/
theorem dinvR_ne_top (r : Fin 100000) : dinvR m c (ix1 r) ≠ ⊤ := by
  rw [dinvR_apply]
  exact (Cert.DinvFacts.sel_rsqrt_nonneg_ne_top (Cert.ReferenceIdeal.Read.val_main_v10 (F := Ideal) (X12 m c) (ix1 r))
    (Ideal.ofBits .f32 0x00000000#32) (Ideal.ofBits .f32 0x00000000#32) Ideal.ofBits_zero_f32 Ideal.ofBits_zero_f32).2

/-- The column at (r, 0) is the factor at r. -/
theorem dinv_col_apply (r : Fin 100000) :
    (shapeCast S100000x1 (dinvR m c) shapeCasts_S100000_S100000x1) (ix2 r 0) = dinvR m c (ix1 r) :=
  Cert.LibColumn.shapeCast_a_a1_apply (dinvR m c) shapeCasts_S100000_S100000x1 r 0

end Cert.Bridge

end
-- ==== Proof.KRegionLib.lean ====
/-
  Two facts about zero offsets, shared by the per-region modules: the all-zero offset vectors of rank one and two,
  written as constant functions.
-/
import Idealize.ShloMosaic.Lib.ValueIdx

namespace Cert.KernelIdeal.Regions

/-- The rank-two zero offset is the constant-zero function. -/
theorem hz2 : (![0, 0] : Fin 2 → Nat) = fun _ => 0 := funext fun a => by fin_cases a <;> rfl

/-- The rank-one zero offset is the constant-zero function. -/
theorem hz1 : (![0] : Fin 1 → Nat) = fun _ => 0 := funext fun a => by fin_cases a; rfl

end Cert.KernelIdeal.Regions
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KRegion0.lean ====
/-
  Region 0 on the extended reals: the output array [100000, 128] as one function of the three arrays the region
  reads. Each of the 20 grid points takes rows 5000 t … 5000 t + 4999 of the [100000, 4] operand and of the
  [100000, 1] scale column, the whole [4, 128] weight, and writes the same rows of the output: entry (r, q) is
  (sum over k of operand (r, k) * weight (k, q)) * scale (r, 0). The blocks tile the rows, so the array after the
  last point is that function everywhere.
-/
import proofs.«140584_j4020089389438_2_alg».proof.Proof.Gen.KernelIdeal.Frame
import proofs.«140584_j4020089389438_2_alg».proof.Proof.KRegionLib
import Idealize.ShloMosaic.Lib.Pipeline.Value
import Idealize.ShloMosaic.Lib.ValueIdx
import Idealize.ShloMosaic.Lib.ValueLayout
import Idealize.ShloMosaic.PureOps.Ideal.Laws
import proofs.«140584_j4020089389438_2_alg».proof.Proof.LibMatmulPlain
import proofs.«140584_j4020089389438_2_alg».proof.Proof.LibColumn

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

-- multiplication and addition with both operands read as extended reals
local notation:70 a:70 " *ₑ " b:71 => (HMul.hMul : EReal → EReal → EReal) a b
local notation:65 a:65 " +ₑ " b:66 => (HAdd.hAdd : EReal → EReal → EReal) a b

variable (V : (c : Dev nD) → (b : Ref sig .tc) → Buf (Elt Ideal) ((c : Thread nD τ).loc b))

/-- Which buffer each window reads or writes. -/
theorem arrRef0 : Pipeline.arrRef spec0 0 = main_arg0 ∧ Pipeline.arrRef spec0 1 = main_arg2
    ∧ Pipeline.arrRef spec0 2 = main_v14 ∧ Pipeline.arrRef spec0 3 = main_v15 := ⟨rfl, rfl, rfl, rfl⟩

/-- The block index of every window at every grid point: the row windows move with the point, the weight stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the block of point `t` is row `5000 t + p` of the array. -/
def row0 (t : Fin cfg0.N) (p : Fin 5000) : Fin 100000 :=
  ⟨t.val * 5000 + p.val, by have h : t.val < 20 := t.isLt; have := p.isLt; omega⟩

/-- The operand's block at point `t`, entry `(p, k)`, is the array's entry `(5000 t + p, k)`. -/
theorem iblk0_0_apply (c : Dev nD) (t : Fin cfg0.N) (p : Fin 5000) (k : Fin 4) :
    (iblk0 V c 0 t : Vec Ideal S5000x4 .f32) (ix2 p k) = (V c main_arg0 : S100000x4.Idx → EReal) (ix2 (row0 t p) k) := by
  obtain ⟨e0, e1, -⟩ := idx0 t
  unfold iblk0
  rw [View.read_apply]
  show (V c main_arg0 : S100000x4.Idx → EReal) _ = _
  congr 1
  funext a
  apply Fin.ext
  match a with
  | ⟨0, _⟩ => show win0_0.index t 0 * 5000 + 1 * p.val = t.val * 5000 + p.val; rw [e0]; omega
  | ⟨1, _⟩ => show win0_0.index t 1 * 4 + 1 * k.val = k.val; rw [e1]; omega

/-- The weight's block at every point is the whole weight. -/
theorem iblk0_1_apply (c : Dev nD) (t : Fin cfg0.N) (k : Fin 4) (q : Fin 128) :
    (iblk0 V c 1 t : Vec Ideal S4x128 .f32) (ix2 k q) = (V c main_arg2 : S4x128.Idx → EReal) (ix2 k q) := by
  obtain ⟨-, -, e0, e1, -⟩ := idx0 t
  unfold iblk0
  rw [View.read_apply]
  show (V c main_arg2 : S4x128.Idx → EReal) _ = _
  congr 1
  funext a
  apply Fin.ext
  match a with
  | ⟨0, _⟩ => show win0_1.index t 0 * 4 + 1 * k.val = k.val; rw [e0]; omega
  | ⟨1, _⟩ => show win0_1.index t 1 * 128 + 1 * q.val = q.val; rw [e1]; omega

/-- The scale column's block at point `t`, entry `(p, u)`, is the column's entry `(5000 t + p, u)`. -/
theorem iblk0_2_apply (c : Dev nD) (t : Fin cfg0.N) (p : Fin 5000) (u : Fin 1) :
    (iblk0 V c 2 t : Vec Ideal S5000x1 .f32) (ix2 p u) = (V c main_v14 : S100000x1.Idx → EReal) (ix2 (row0 t p) u) := by
  obtain ⟨-, -, -, -, e0, e1, -⟩ := idx0 t
  unfold iblk0
  rw [View.read_apply]
  show (V c main_v14 : S100000x1.Idx → EReal) _ = _
  congr 1
  funext a
  apply Fin.ext
  match a with
  | ⟨0, _⟩ => show win0_2.index t 0 * 5000 + 1 * p.val = t.val * 5000 + p.val; rw [e0]; omega
  | ⟨1, _⟩ => show win0_2.index t 1 * 1 + 1 * u.val = u.val; rw [e1]; omega

/-- Entry `(p, q)` of the output's block at point `t` sits at `(5000 t + p, q)` of the output array. -/
theorem emb0_3 (t : Fin cfg0.N) (p : Fin 5000) (q : Fin 128) :
    ((cfg0.win 3).blk t).view.emb (ix2 p q) = (ix2 (row0 t p) q : S100000x128.Idx) := by
  obtain ⟨-, -, -, -, -, -, e0, e1⟩ := idx0 t
  funext a
  apply Fin.ext
  match a with
  | ⟨0, _⟩ => show win0_3.index t 0 * 5000 + 1 * p.val = t.val * 5000 + p.val; rw [e0]; omega
  | ⟨1, _⟩ => show win0_3.index t 1 * 128 + 1 * q.val = q.val; rw [e1]; omega

/-- The output array as one function of the three input arrays. -/
def G0 (A : S100000x4.Idx → EReal) (B : S4x128.Idx → EReal) (S : S100000x1.Idx → EReal) : S100000x128.Idx → EReal :=
  fun i => (∑ k : Fin 4, A (ix2 (i 0 : Fin 100000) k) * B (ix2 k (i 1 : Fin 128))) * S (ix2 (i 0 : Fin 100000) 0)

/-- `G0` at coordinates `(r, q)`. -/
theorem G0_apply (A : S100000x4.Idx → EReal) (B : S4x128.Idx → EReal) (S : S100000x1.Idx → EReal) (r : Fin 100000) (q : Fin 128) :
    G0 A B S (ix2 r q) = (∑ k : Fin 4, A (ix2 r k) * B (ix2 k q)) * S (ix2 r 0) := rfl

/-- The body's stored value at `(p, q)`: the product into the zero accumulator is the sum over the contracted axis,
    the narrowing casts are the identity on the extended reals, and the scale column is read at `(p, 0)`. -/
theorem pay0_apply (x0 : Vec Ideal S5000x4 .f32) (x1 : Vec Ideal S4x128 .f32) (x2 : Vec Ideal S5000x1 .f32) (p : Fin 5000) (q : Fin 128) :
    k0_pay1 x0 x1 x2 (ix2 p q) = (∑ k : Fin 4, x0 (ix2 p k) * x1 (ix2 k q)) * x2 (ix2 p 0) := by
  unfold k0_pay1
  rw [mulf_apply, shapeCast_self]
  rw [Cert.LibColumn.broadcastTo_a1_ab_apply x2 broadcasts_S5000x1_S5000x128 p q]
  rw [Cert.LibMatmulPlain.matmul_zero_apply dot_S5000x4_S4x128_S5000x128_1_0_0_1_n_n rfl rfl rfl rfl rfl rfl _ _ p q]
  rfl

/-- What point `t` writes back is block `t` of `G0` of the arrays as the region finds them. -/
theorem flushed0_eq (c : Dev nD) (t : Fin cfg0.N) :
    (dat0 V c).flushed 3 t = ((cfg0.win 3).blk t).view.read (Elt Ideal)
      (G0 (V c main_arg0) (V c main_arg2) (V c main_v14)) := by
  show (cfg0.win 3).cut (grid0.coords t) ((dat0 V c).after 3 t) = _
  rw [after0_3]
  unfold out0_3
  rw [View.canon_unit_zero hz2]
  simp only [View.ld_unit_zero (S := S5000x4) hz2, View.ld_unit_zero (S := S4x128) hz2, View.ld_unit_zero (S := S5000x1) hz2]
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = G0 (V c main_arg0) (V c main_arg2) (V c main_v14) (((cfg0.win 3).blk t).view.emb (ix2 p q))
  rw [pay0_apply (iblk0 V c 0 t) (iblk0 V c 1 t) (iblk0 V c 2 t) p q, emb0_3 t p q, G0_apply, iblk0_2_apply V c t p 0]
  congr 1
  refine Finset.sum_congr rfl fun k _ => ?_
  rw [iblk0_0_apply V c t p k, iblk0_1_apply V c t k q]

/-- An index is in point `t`'s output block iff each coordinate is in the block's range on its axis. -/
theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Row `r` is covered by point `r / 5000`: the output's blocks tile the array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by show (i 0).val / 5000 < 20; omega⟩
  have ht : t.val = (i 0).val / 5000 := rfl
  obtain ⟨-, -, -, -, -, -, e0, e1⟩ := idx0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- The output array of region 0 after the run, as one function of the arrays the region finds. -/
theorem final0_fun (c : Dev nD) :
    (dat0 V c).arrAt 3 cfg0.N = G0 (V c main_arg0) (V c main_arg2) (V c main_v14) :=
  (dat0 V c).arrAt_eq_of_cover 3 (G0 (V c main_arg0) (V c main_arg2) (V c main_v14)) (fun t _ => flushed0_eq V c t) cover0

/-- The output array after the run, read at `(r, q)`. -/
theorem final0 (c : Dev nD) (r : Fin 100000) (q : Fin 128) :
    ((dat0 V c).arrAt 3 cfg0.N : S100000x128.Idx → EReal) (ix2 r q)
      = (∑ k : Fin 4, (V c main_arg0 : S100000x4.Idx → EReal) (ix2 r k) *ₑ (V c main_arg2 : S4x128.Idx → EReal) (ix2 k q))
        *ₑ (V c main_v14 : S100000x1.Idx → EReal) (ix2 r 0) := by
  rw [final0_fun V c]
  rfl

end Cert.KernelIdeal.Regions

end
-- ==== Proof.KRegion1.lean ====
/-
  Region 1 on the extended reals: the output array [100000, 128] as one function of the three arrays the region
  reads. Each of the 20 grid points takes rows 5000 t … 5000 t + 4999 of the [100000, 128] operand and of the
  [100000, 1] scale column, the whole [128] bias, and writes the same rows of the output: entry (r, q) is
  max (operand (r, q) * scale (r, 0) + bias q) 0. The blocks tile the rows, so the array after the last point is that
  function everywhere.
-/
import proofs.«140584_j4020089389438_2_alg».proof.Proof.Gen.KernelIdeal.Frame
import proofs.«140584_j4020089389438_2_alg».proof.Proof.KRegionLib
import Idealize.ShloMosaic.Lib.Pipeline.Value
import Idealize.ShloMosaic.Lib.ValueIdx
import Idealize.ShloMosaic.Lib.ValueLayout
import Idealize.ShloMosaic.PureOps.Ideal.Laws
import proofs.«140584_j4020089389438_2_alg».proof.Proof.LibColumn

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

-- multiplication and addition with both operands read as extended reals
local notation:70 a:70 " *ₑ " b:71 => (HMul.hMul : EReal → EReal → EReal) a b
local notation:65 a:65 " +ₑ " b:66 => (HAdd.hAdd : EReal → EReal → EReal) a b

variable (V : (c : Dev nD) → (b : Ref sig .tc) → Buf (Elt Ideal) ((c : Thread nD τ).loc b))

/-- Which buffer each window reads or writes. -/
theorem arrRef1 : Pipeline.arrRef spec1 0 = main_v26 ∧ Pipeline.arrRef spec1 1 = main_v14
    ∧ Pipeline.arrRef spec1 2 = main_arg3 ∧ Pipeline.arrRef spec1 3 = main_v27 := ⟨rfl, rfl, rfl, rfl⟩

/-- The block index of every window at every grid point: the row windows move with the point, the bias stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the block of point `t` is row `5000 t + p` of the array. -/
def row1 (t : Fin cfg1.N) (p : Fin 5000) : Fin 100000 :=
  ⟨t.val * 5000 + p.val, by have h : t.val < 20 := t.isLt; have := p.isLt; omega⟩

/-- The operand's block at point `t`, entry `(p, q)`, is the array's entry `(5000 t + p, q)`. -/
theorem iblk1_0_apply (c : Dev nD) (t : Fin cfg1.N) (p : Fin 5000) (q : Fin 128) :
    (iblk1 V c 0 t : Vec Ideal S5000x128 .f32) (ix2 p q) = (V c main_v26 : S100000x128.Idx → EReal) (ix2 (row1 t p) q) := by
  obtain ⟨e0, e1, -⟩ := idx1 t
  unfold iblk1
  rw [View.read_apply]
  show (V c main_v26 : S100000x128.Idx → EReal) _ = _
  congr 1
  funext a
  apply Fin.ext
  match a with
  | ⟨0, _⟩ => show win1_0.index t 0 * 5000 + 1 * p.val = t.val * 5000 + p.val; rw [e0]; omega
  | ⟨1, _⟩ => show win1_0.index t 1 * 128 + 1 * q.val = q.val; rw [e1]; omega

/-- The scale column's block at point `t`, entry `(p, u)`, is the column's entry `(5000 t + p, u)`. -/
theorem iblk1_1_apply (c : Dev nD) (t : Fin cfg1.N) (p : Fin 5000) (u : Fin 1) :
    (iblk1 V c 1 t : Vec Ideal S5000x1 .f32) (ix2 p u) = (V c main_v14 : S100000x1.Idx → EReal) (ix2 (row1 t p) u) := by
  obtain ⟨-, -, e0, e1, -⟩ := idx1 t
  unfold iblk1
  rw [View.read_apply]
  show (V c main_v14 : S100000x1.Idx → EReal) _ = _
  congr 1
  funext a
  apply Fin.ext
  match a with
  | ⟨0, _⟩ => show win1_1.index t 0 * 5000 + 1 * p.val = t.val * 5000 + p.val; rw [e0]; omega
  | ⟨1, _⟩ => show win1_1.index t 1 * 1 + 1 * u.val = u.val; rw [e1]; omega

/-- The bias's block at every point is the whole bias. -/
theorem iblk1_2_apply (c : Dev nD) (t : Fin cfg1.N) (q : Fin 128) :
    (iblk1 V c 2 t : Vec Ideal S128 .f32) (ix1 q) = (V c main_arg3 : S128.Idx → EReal) (ix1 q) := by
  obtain ⟨-, -, -, -, e0, -⟩ := idx1 t
  unfold iblk1
  rw [View.read_apply]
  show (V c main_arg3 : S128.Idx → EReal) _ = _
  congr 1
  funext a
  apply Fin.ext
  match a with
  | ⟨0, _⟩ => show win1_2.index t 0 * 128 + 1 * q.val = q.val; rw [e0]; omega

/-- Entry `(p, q)` of the output's block at point `t` sits at `(5000 t + p, q)` of the output array. -/
theorem emb1_3 (t : Fin cfg1.N) (p : Fin 5000) (q : Fin 128) :
    ((cfg1.win 3).blk t).view.emb (ix2 p q) = (ix2 (row1 t p) q : S100000x128.Idx) := by
  obtain ⟨-, -, -, -, -, e0, e1⟩ := idx1 t
  funext a
  apply Fin.ext
  match a with
  | ⟨0, _⟩ => show win1_3.index t 0 * 5000 + 1 * p.val = t.val * 5000 + p.val; rw [e0]; omega
  | ⟨1, _⟩ => show win1_3.index t 1 * 128 + 1 * q.val = q.val; rw [e1]; omega

/-- The output array as one function of the three input arrays. -/
def G1 (A : S100000x128.Idx → EReal) (S : S100000x1.Idx → EReal) (b : S128.Idx → EReal) : S100000x128.Idx → EReal :=
  fun i => max (A (ix2 (i 0 : Fin 100000) (i 1 : Fin 128)) * S (ix2 (i 0 : Fin 100000) 0) + b (ix1 (i 1 : Fin 128)))
    (Ideal.ofBits .f32 0x00000000#32)

/-- `G1` at coordinates `(r, q)`. -/
theorem G1_apply (A : S100000x128.Idx → EReal) (S : S100000x1.Idx → EReal) (b : S128.Idx → EReal) (r : Fin 100000) (q : Fin 128) :
    G1 A S b (ix2 r q) = max (A (ix2 r q) * S (ix2 r 0) + b (ix1 q)) (Ideal.ofBits .f32 0x00000000#32) := rfl

/-- The body's stored value at `(p, q)`: the same-shape casts are the identity, the scale column is read at `(p, 0)`,
    the bias row at `q`, and the maximum is taken against the zero word. -/
theorem pay1_apply (x0 : Vec Ideal S5000x128 .f32) (x1 : Vec Ideal S5000x1 .f32) (x2 : Vec Ideal S128 .f32) (p : Fin 5000) (q : Fin 128) :
    k1_pay1 x0 x1 x2 (ix2 p q) = max (x0 (ix2 p q) * x1 (ix2 p 0) + x2 (ix1 q)) (Ideal.ofBits .f32 0x00000000#32) := by
  unfold k1_pay1
  rw [maximumf_apply, addf_apply, mulf_apply, shapeCast_self, shapeCast_self]
  rw [Cert.LibColumn.broadcastTo_a1_ab_apply x1 broadcasts_S5000x1_S5000x128 p q]
  rw [broadcastTo_1b_ab_apply _ broadcasts_S1x128_S5000x128 p q, shapeCast_a_1a_apply x2 shapeCasts_S128_S1x128 0 q]
  rfl

/-- What point `t` writes back is block `t` of `G1` of the arrays as the region finds them. -/
theorem flushed1_eq (c : Dev nD) (t : Fin cfg1.N) :
    (dat1 V c).flushed 3 t = ((cfg1.win 3).blk t).view.read (Elt Ideal)
      (G1 (V c main_v26) (V c main_v14) (V c main_arg3)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S5000x1) hz2, View.ld_unit_zero (S := S128) hz1]
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = G1 (V c main_v26) (V c main_v14) (V c main_arg3) (((cfg1.win 3).blk t).view.emb (ix2 p q))
  rw [pay1_apply (iblk1 V c 0 t) (iblk1 V c 1 t) (iblk1 V c 2 t) p q, emb1_3 t p q, G1_apply,
    iblk1_0_apply V c t p q, iblk1_1_apply V c t p 0, iblk1_2_apply V c t q]

/-- An index is in point `t`'s output block iff each coordinate is in the block's range on its axis. -/
theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v27).slice (win1_3.rect t)).set ↔ _
  rw [View.set_slice_whole, Rect.mem_set_unit]
  exact Iff.rfl

/-- Row `r` is covered by point `r / 5000`: the output's blocks tile the array. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 5000, by show (i 0).val / 5000 < 20; omega⟩
  have ht : t.val = (i 0).val / 5000 := rfl
  obtain ⟨-, -, -, -, -, e0, e1⟩ := idx1 t
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 128 ≤ (i 1).val ∧ (i 1).val < win1_3.index t (1 : Fin 2) * 128 + 128; rw [e1]; omega

/-- The output array of region 1 after the run, as one function of the arrays the region finds. -/
theorem final1_fun (c : Dev nD) :
    (dat1 V c).arrAt 3 cfg1.N = G1 (V c main_v26) (V c main_v14) (V c main_arg3) :=
  (dat1 V c).arrAt_eq_of_cover 3 (G1 (V c main_v26) (V c main_v14) (V c main_arg3)) (fun t _ => flushed1_eq V c t) cover1

/-- The output array after the run, read at `(r, q)`. -/
theorem final1 (c : Dev nD) (r : Fin 100000) (q : Fin 128) :
    ((dat1 V c).arrAt 3 cfg1.N : S100000x128.Idx → EReal) (ix2 r q)
      = max (((V c main_v26 : S100000x128.Idx → EReal) (ix2 r q) *ₑ (V c main_v14 : S100000x1.Idx → EReal) (ix2 r 0))
          +ₑ (V c main_arg3 : S128.Idx → EReal) (ix1 q)) (Ideal.ofBits .f32 0x00000000#32) := by
  rw [final1_fun V c]
  rfl

end Cert.KernelIdeal.Regions

end
-- ==== Proof.Bridge2.lean ====
/-
  The first graph-convolution layer: the kernel program's node features after its second region are the reference's.

  The kernel scales the transformed features by the normalisation before the gather, sums the gathered rows over the
  600000 edges, adds the node's own scaled row, and scales once more, adds the bias and clamps at zero.  The reference
  scales each message by the product of the two endpoint normalisations and sums over the edges followed by the
  self-loops, adds the bias and clamps.  The two agree by the graph-convolution law (the normalisation is nonnegative
  and finite, so the outer scaling distributes over the sum).
-/
import proofs.«140584_j4020089389438_2_alg».proof.Proof.Bridge1
import proofs.«140584_j4020089389438_2_alg».proof.Proof.KRegion0
import proofs.«140584_j4020089389438_2_alg».proof.Proof.KRegion1
import Idealize.ShloMosaic.Lib.IdealHost

set_option maxRecDepth 16384

noncomputable section

open scoped BigOperators

namespace Cert.Bridge

open Idealize.ShloMosaic Idealize.ShloMosaic.ValueIdx Idealize.ShloMosaic.TcCoe
open Cert.KernelIdeal Cert.KernelIdeal.Gen Cert.KernelIdeal.Chain Cert.KernelIdeal.Regions Cert.KernelIdeal.HostPoint
open Cert.ReferenceIdeal.RefRead Cert.IndexFacts

variable (m : (ℓ : Loc nD τ sig) → Buf (Elt Ideal) ℓ) (ρ : Dev nD → PrngReg) (c : Dev nD)

/-- The transformed, source-scaled features after region 0. -/
theorem w4_v15 :
    W4 m ρ c (Proc.devRef .tc main_v15)
      = G0 (X0 m c) (X2 m c) (shapeCast S100000x1 (dinvR m c) shapeCasts_S100000_S100000x1) := by
  refine (W4_arr m ρ c 3).trans ((final0_fun (V3 m ρ) c).trans ?_)
  have h0 : V3 m ρ c main_arg0 = X0 m c := arg_3 m ρ c main_arg0 (by decide)
  have h2 : V3 m ρ c main_arg2 = X2 m c := arg_3 m ρ c main_arg2 (by decide)
  have h14 : V3 m ρ c main_v14 = shapeCast S100000x1 (dinvR m c) shapeCasts_S100000_S100000x1 := dinv_col m ρ c
  rw [h0, h2, h14]

/-- The scaled features at (r, q): the transformed feature times the node's normalisation. -/
theorem k15_apply (r : Fin 100000) (q : Fin 128) :
    G0 (X0 m c) (X2 m c) (shapeCast S100000x1 (dinvR m c) shapeCasts_S100000_S100000x1) (ix2 r q)
      = Cert.ReferenceIdeal.Read.val_main_v30 (F := Ideal) (X0 m c) (X2 m c) (ix2 r q) * dinvR m c (ix1 r) := by
  rw [G0_apply, dinv_col_apply, v30_at]

/-- The aggregated features when region 1 is entered. -/
theorem w5_v26 (r : Fin 100000) (q : Fin 128) :
    (W5 m ρ c (Proc.devRef .tc main_v26) : S100000x128.Idx → EReal) (ix2 r q)
      = (Ideal.ofBits .f32 0x00000000#32
          + ∑ e : Fin 600000, if (dstR m c (ix1 e)).toInt = (r.val : Int)
              then Cert.ReferenceIdeal.Read.val_main_v30 (F := Ideal) (X0 m c) (X2 m c) (ix2 (row (nrm (srcR m c (ix1 e)))) q)
                * dinvR m c (ix1 (row (nrm (srcR m c (ix1 e))))) else 0)
        + Cert.ReferenceIdeal.Read.val_main_v30 (F := Ideal) (X0 m c) (X2 m c) (ix2 r q) * dinvR m c (ix1 r) := by
  show (StableHlo.after (hostOps1 (F := Ideal)) (W4 m ρ c) (Proc.devRef .tc main_v26) : S100000x128.Idx → EReal) (ix2 r q) = _
  rw [host1_v26, w4_v15, (keep_3_4 m ρ c main_v1 (by decide)).trans (w3_v1 m ρ c),
    (keep_3_4 m ρ c main_v3 (by decide)).trans (w3_v3 m ρ c), agg_read]
  refine congrArg₂ (· + ·) (congrArg₂ (· + ·) rfl (Finset.sum_congr rfl fun e _ => ?_)) (k15_apply m c r q)
  by_cases hg : (dstR m c (ix1 e)).toInt = (r.val : Int)
  · rw [if_pos hg, if_pos hg, k15_apply]
  · rw [if_neg hg, if_neg hg]

/-- LAYER 1: the node features after region 1 are the reference's first hidden layer. -/
theorem h1_eq :
    W6 m ρ c (Proc.devRef .tc main_v27)
      = Cert.ReferenceIdeal.Read.val_main_v47 (F := Ideal) (X0 m c) (X2 m c) (X3 m c) (X12 m c) := by
  refine (W6_arr m ρ c 3).trans ((final1_fun (V5 m ρ) c).trans ?_)
  have h14 : V5 m ρ c main_v14 = shapeCast S100000x1 (dinvR m c) shapeCasts_S100000_S100000x1 :=
    (keep_3_5 m ρ c main_v14 (by decide)).trans (dinv_col m ρ c)
  have h3 : V5 m ρ c main_arg3 = X3 m c := arg_5 m ρ c main_arg3 (by decide)
  rw [h14, h3]
  funext i
  obtain ⟨r, q, rfl⟩ : ∃ (r : Fin 100000) (q : Fin 128), i = ix2 r q := ⟨i 0, i 1, eq_ix2 i⟩
  rw [G1_apply, dinv_col_apply, v47_at, v46_at]
  have hagg := w5_v26 m ρ c r q
  rw [show (V5 m ρ c main_v26 : S100000x128.Idx → EReal) (ix2 r q) = _ from hagg]
  have hlaw := Cert.LayerEq.layer_eq (fun e => srcR m c (ix1 e)) (fun e => dstR m c (ix1 e))
    (fun j => Cert.ReferenceIdeal.Read.val_main_v5 (F := Ideal) (X12 m c) (ix1 j))
    (fun j => Cert.ReferenceIdeal.Read.val_main_v6 (F := Ideal) (X12 m c) (ix1 j))
    (val_main_v5_lo (X12 m c)) (val_main_v5_hi (X12 m c)) (val_main_v6_lo (X12 m c)) (val_main_v6_hi (X12 m c))
    (fun r' => dinvR m c (ix1 r')) (dinvR_nonneg m c) (dinvR_ne_top m c)
    (fun r' => Cert.ReferenceIdeal.Read.val_main_v30 (F := Ideal) (X0 m c) (X2 m c) (ix2 r' q)) r
  beta_reduce at hlaw
  rw [hlaw, Ideal.ofBits_def, Ideal.ofBits_zero_f32, zero_add, zero_add]

end Cert.Bridge

end
-- ==== Proof.KRegion2.lean ====
/-
  Region 2 on the extended reals: the output array [100000, 128] as one function of the three arrays the region
  reads. Each of the 20 grid points takes rows 5000 t … 5000 t + 4999 of the [100000, 128] operand and of the
  [100000, 1] scale column, the whole [128, 128] weight, and writes the same rows of the output: entry (r, q) is
  (sum over k of operand (r, k) * weight (k, q)) * scale (r, 0). The blocks tile the rows, so the array after the
  last point is that function everywhere.
-/
import proofs.«140584_j4020089389438_2_alg».proof.Proof.Gen.KernelIdeal.Frame
import proofs.«140584_j4020089389438_2_alg».proof.Proof.KRegionLib
import Idealize.ShloMosaic.Lib.Pipeline.Value
import Idealize.ShloMosaic.Lib.ValueIdx
import Idealize.ShloMosaic.Lib.ValueLayout
import Idealize.ShloMosaic.PureOps.Ideal.Laws
import proofs.«140584_j4020089389438_2_alg».proof.Proof.LibMatmulPlain
import proofs.«140584_j4020089389438_2_alg».proof.Proof.LibColumn

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

-- multiplication and addition with both operands read as extended reals
local notation:70 a:70 " *ₑ " b:71 => (HMul.hMul : EReal → EReal → EReal) a b
local notation:65 a:65 " +ₑ " b:66 => (HAdd.hAdd : EReal → EReal → EReal) a b

variable (V : (c : Dev nD) → (b : Ref sig .tc) → Buf (Elt Ideal) ((c : Thread nD τ).loc b))

/-- Which buffer each window reads or writes. -/
theorem arrRef2 : Pipeline.arrRef spec2 0 = main_v27 ∧ Pipeline.arrRef spec2 1 = main_arg4
    ∧ Pipeline.arrRef spec2 2 = main_v14 ∧ Pipeline.arrRef spec2 3 = main_v28 := ⟨rfl, rfl, rfl, rfl⟩

/-- The block index of every window at every grid point: the row windows move with the point, the weight stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of the block of point `t` is row `5000 t + p` of the array. -/
def row2 (t : Fin cfg2.N) (p : Fin 5000) : Fin 100000 :=
  ⟨t.val * 5000 + p.val, by have h : t.val < 20 := t.isLt; have := p.isLt; omega⟩

/-- The operand's block at point `t`, entry `(p, k)`, is the array's entry `(5000 t + p, k)`. -/
theorem iblk2_0_apply (c : Dev nD) (t : Fin cfg2.N) (p : Fin 5000) (k : Fin 128) :
    (iblk2 V c 0 t : Vec Ideal S5000x128 .f32) (ix2 p k) = (V c main_v27 : S100000x128.Idx → EReal) (ix2 (row2 t p) k) := by
  obtain ⟨e0, e1, -⟩ := idx2 t
  unfold iblk2
  rw [View.read_apply]
  show (V c main_v27 : S100000x128.Idx → EReal) _ = _
  congr 1
  funext a
  apply Fin.ext
  match a with
  | ⟨0, _⟩ => show win2_0.index t 0 * 5000 + 1 * p.val = t.val * 5000 + p.val; rw [e0]; omega
  | ⟨1, _⟩ => show win2_0.index t 1 * 128 + 1 * k.val = k.val; rw [e1]; omega

/-- The weight's block at every point is the whole weight. -/
theorem iblk2_1_apply (c : Dev nD) (t : Fin cfg2.N) (k : Fin 128) (q : Fin 128) :
    (iblk2 V c 1 t : Vec Ideal S128x128 .f32) (ix2 k q) = (V c main_arg4 : S128x128.Idx → EReal) (ix2 k q) := by
  obtain ⟨-, -, e0, e1, -⟩ := idx2 t
  unfold iblk2
  rw [View.read_apply]
  show (V c main_arg4 : S128x128.Idx → EReal) _ = _
  congr 1
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- The scale column's block at point `t`, entry `(p, u)`, is the column's entry `(5000 t + p, u)`. -/
theorem iblk2_2_apply (c : Dev nD) (t : Fin cfg2.N) (p : Fin 5000) (u : Fin 1) :
    (iblk2 V c 2 t : Vec Ideal S5000x1 .f32) (ix2 p u) = (V c main_v14 : S100000x1.Idx → EReal) (ix2 (row2 t p) u) := by
  obtain ⟨-, -, -, -, e0, e1, -⟩ := idx2 t
  unfold iblk2
  rw [View.read_apply]
  show (V c main_v14 : S100000x1.Idx → EReal) _ = _
  congr 1
  funext a
  apply Fin.ext
  match a with
  | ⟨0, _⟩ => show win2_2.index t 0 * 5000 + 1 * p.val = t.val * 5000 + p.val; rw [e0]; omega
  | ⟨1, _⟩ => show win2_2.index t 1 * 1 + 1 * u.val = u.val; rw [e1]; omega

/-- Entry `(p, q)` of the output's block at point `t` sits at `(5000 t + p, q)` of the output array. -/
theorem emb2_3 (t : Fin cfg2.N) (p : Fin 5000) (q : Fin 128) :
    ((cfg2.win 3).blk t).view.emb (ix2 p q) = (ix2 (row2 t p) q : S100000x128.Idx) := by
  obtain ⟨-, -, -, -, -, -, e0, e1⟩ := idx2 t
  funext a
  apply Fin.ext
  match a with
  | ⟨0, _⟩ => show win2_3.index t 0 * 5000 + 1 * p.val = t.val * 5000 + p.val; rw [e0]; omega
  | ⟨1, _⟩ => show win2_3.index t 1 * 128 + 1 * q.val = q.val; rw [e1]; omega

/-- The output array as one function of the three input arrays. -/
def G2 (A : S100000x128.Idx → EReal) (B : S128x128.Idx → EReal) (S : S100000x1.Idx → EReal) : S100000x128.Idx → EReal :=
  fun i => (∑ k : Fin 128, A (ix2 (i 0 : Fin 100000) k) * B (ix2 k (i 1 : Fin 128))) * S (ix2 (i 0 : Fin 100000) 0)

/-- `G2` at coordinates `(r, q)`. -/
theorem G2_apply (A : S100000x128.Idx → EReal) (B : S128x128.Idx → EReal) (S : S100000x1.Idx → EReal) (r : Fin 100000) (q : Fin 128) :
    G2 A B S (ix2 r q) = (∑ k : Fin 128, A (ix2 r k) * B (ix2 k q)) * S (ix2 r 0) := rfl

/-- The body's stored value at `(p, q)`: the product into the zero accumulator is the sum over the contracted axis,
    the narrowing casts are the identity on the extended reals, and the scale column is read at `(p, 0)`. -/
theorem pay2_apply (x0 : Vec Ideal S5000x128 .f32) (x1 : Vec Ideal S128x128 .f32) (x2 : Vec Ideal S5000x1 .f32) (p : Fin 5000) (q : Fin 128) :
    k2_pay1 x0 x1 x2 (ix2 p q) = (∑ k : Fin 128, x0 (ix2 p k) * x1 (ix2 k q)) * x2 (ix2 p 0) := by
  unfold k2_pay1
  rw [mulf_apply, shapeCast_self, shapeCast_self]
  rw [Cert.LibColumn.broadcastTo_a1_ab_apply x2 broadcasts_S5000x1_S5000x128 p q]
  rw [Cert.LibMatmulPlain.matmul_zero_apply dot_S5000x128_S128x128_S5000x128_1_0_0_1_n_n rfl rfl rfl rfl rfl rfl _ _ p q]
  rfl

/-- What point `t` writes back is block `t` of `G2` of the arrays as the region finds them. -/
theorem flushed2_eq (c : Dev nD) (t : Fin cfg2.N) :
    (dat2 V c).flushed 3 t = ((cfg2.win 3).blk t).view.read (Elt Ideal)
      (G2 (V c main_v27) (V c main_arg4) (V c main_v14)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S5000x1) hz2]
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = G2 (V c main_v27) (V c main_arg4) (V c main_v14) (((cfg2.win 3).blk t).view.emb (ix2 p q))
  rw [pay2_apply (iblk2 V c 0 t) (iblk2 V c 1 t) (iblk2 V c 2 t) p q, emb2_3 t p q, G2_apply, iblk2_2_apply V c t p 0]
  congr 1
  refine Finset.sum_congr rfl fun k _ => ?_
  rw [iblk2_0_apply V c t p k, iblk2_1_apply V c t k q]

/-- An index is in point `t`'s output block iff each coordinate is in the block's range on its axis. -/
theorem mem_blk2_3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v28).slice (win2_3.rect t)).set ↔ _
  rw [View.set_slice_whole, Rect.mem_set_unit]
  exact Iff.rfl

/-- Row `r` is covered by point `r / 5000`: the output's blocks tile the array. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 5000, by show (i 0).val / 5000 < 20; omega⟩
  have ht : t.val = (i 0).val / 5000 := rfl
  obtain ⟨-, -, -, -, -, -, e0, e1⟩ := idx2 t
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 128 ≤ (i 1).val ∧ (i 1).val < win2_3.index t (1 : Fin 2) * 128 + 128; rw [e1]; omega

/-- The output array of region 0 after the run, as one function of the arrays the region finds. -/
theorem final2_fun (c : Dev nD) :
    (dat2 V c).arrAt 3 cfg2.N = G2 (V c main_v27) (V c main_arg4) (V c main_v14) :=
  (dat2 V c).arrAt_eq_of_cover 3 (G2 (V c main_v27) (V c main_arg4) (V c main_v14)) (fun t _ => flushed2_eq V c t) cover2

/-- The output array after the run, read at `(r, q)`. -/
theorem final2 (c : Dev nD) (r : Fin 100000) (q : Fin 128) :
    ((dat2 V c).arrAt 3 cfg2.N : S100000x128.Idx → EReal) (ix2 r q)
      = (∑ k : Fin 128, (V c main_v27 : S100000x128.Idx → EReal) (ix2 r k) *ₑ (V c main_arg4 : S128x128.Idx → EReal) (ix2 k q))
        *ₑ (V c main_v14 : S100000x1.Idx → EReal) (ix2 r 0) := by
  rw [final2_fun V c]
  rfl

end Cert.KernelIdeal.Regions

end
-- ==== Proof.KRegion3.lean ====
/-
  Region 3 on the extended reals: the output array [100000, 128] as one function of the three arrays the region
  reads. Each of the 20 grid points takes rows 5000 t … 5000 t + 4999 of the [100000, 128] operand and of the
  [100000, 1] scale column, the whole [128] bias, and writes the same rows of the output: entry (r, q) is
  operand (r, q) * scale (r, 0) + bias q. The blocks tile the rows, so the array after the last point is that
  function everywhere.
-/
import proofs.«140584_j4020089389438_2_alg».proof.Proof.Gen.KernelIdeal.Frame
import proofs.«140584_j4020089389438_2_alg».proof.Proof.KRegionLib
import Idealize.ShloMosaic.Lib.Pipeline.Value
import Idealize.ShloMosaic.Lib.ValueIdx
import Idealize.ShloMosaic.Lib.ValueLayout
import Idealize.ShloMosaic.PureOps.Ideal.Laws
import proofs.«140584_j4020089389438_2_alg».proof.Proof.LibColumn

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

-- multiplication and addition with both operands read as extended reals
local notation:70 a:70 " *ₑ " b:71 => (HMul.hMul : EReal → EReal → EReal) a b
local notation:65 a:65 " +ₑ " b:66 => (HAdd.hAdd : EReal → EReal → EReal) a b

variable (V : (c : Dev nD) → (b : Ref sig .tc) → Buf (Elt Ideal) ((c : Thread nD τ).loc b))

/-- Which buffer each window reads or writes. -/
theorem arrRef3 : Pipeline.arrRef spec3 0 = main_v39 ∧ Pipeline.arrRef spec3 1 = main_v14
    ∧ Pipeline.arrRef spec3 2 = main_arg5 ∧ Pipeline.arrRef spec3 3 = main_v40 := ⟨rfl, rfl, rfl, rfl⟩

/-- The block index of every window at every grid point: the row windows move with the point, the bias stays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row `p` of the block of point `t` is row `5000 t + p` of the array. -/
def row3 (t : Fin cfg3.N) (p : Fin 5000) : Fin 100000 :=
  ⟨t.val * 5000 + p.val, by have h : t.val < 20 := t.isLt; have := p.isLt; omega⟩

/-- The operand's block at point `t`, entry `(p, q)`, is the array's entry `(5000 t + p, q)`. -/
theorem iblk3_0_apply (c : Dev nD) (t : Fin cfg3.N) (p : Fin 5000) (q : Fin 128) :
    (iblk3 V c 0 t : Vec Ideal S5000x128 .f32) (ix2 p q) = (V c main_v39 : S100000x128.Idx → EReal) (ix2 (row3 t p) q) := by
  obtain ⟨e0, e1, -⟩ := idx3 t
  unfold iblk3
  rw [View.read_apply]
  show (V c main_v39 : S100000x128.Idx → EReal) _ = _
  congr 1
  funext a
  apply Fin.ext
  match a with
  | ⟨0, _⟩ => show win3_0.index t 0 * 5000 + 1 * p.val = t.val * 5000 + p.val; rw [e0]; omega
  | ⟨1, _⟩ => show win3_0.index t 1 * 128 + 1 * q.val = q.val; rw [e1]; omega

/-- The scale column's block at point `t`, entry `(p, u)`, is the column's entry `(5000 t + p, u)`. -/
theorem iblk3_1_apply (c : Dev nD) (t : Fin cfg3.N) (p : Fin 5000) (u : Fin 1) :
    (iblk3 V c 1 t : Vec Ideal S5000x1 .f32) (ix2 p u) = (V c main_v14 : S100000x1.Idx → EReal) (ix2 (row3 t p) u) := by
  obtain ⟨-, -, e0, e1, -⟩ := idx3 t
  unfold iblk3
  rw [View.read_apply]
  show (V c main_v14 : S100000x1.Idx → EReal) _ = _
  congr 1
  funext a
  apply Fin.ext
  match a with
  | ⟨0, _⟩ => show win3_1.index t 0 * 5000 + 1 * p.val = t.val * 5000 + p.val; rw [e0]; omega
  | ⟨1, _⟩ => show win3_1.index t 1 * 1 + 1 * u.val = u.val; rw [e1]; omega

/-- The bias's block at every point is the whole bias. -/
theorem iblk3_2_apply (c : Dev nD) (t : Fin cfg3.N) (q : Fin 128) :
    (iblk3 V c 2 t : Vec Ideal S128 .f32) (ix1 q) = (V c main_arg5 : S128.Idx → EReal) (ix1 q) := by
  obtain ⟨-, -, -, -, e0, -⟩ := idx3 t
  unfold iblk3
  rw [View.read_apply]
  show (V c main_arg5 : S128.Idx → EReal) _ = _
  congr 1
  funext a
  apply Fin.ext
  match a with
  | ⟨0, _⟩ => show win3_2.index t 0 * 128 + 1 * q.val = q.val; rw [e0]; omega

/-- Entry `(p, q)` of the output's block at point `t` sits at `(5000 t + p, q)` of the output array. -/
theorem emb3_3 (t : Fin cfg3.N) (p : Fin 5000) (q : Fin 128) :
    ((cfg3.win 3).blk t).view.emb (ix2 p q) = (ix2 (row3 t p) q : S100000x128.Idx) := by
  obtain ⟨-, -, -, -, -, e0, e1⟩ := idx3 t
  funext a
  apply Fin.ext
  match a with
  | ⟨0, _⟩ => show win3_3.index t 0 * 5000 + 1 * p.val = t.val * 5000 + p.val; rw [e0]; omega
  | ⟨1, _⟩ => show win3_3.index t 1 * 128 + 1 * q.val = q.val; rw [e1]; omega

/-- The output array as one function of the three input arrays. -/
def G3 (A : S100000x128.Idx → EReal) (S : S100000x1.Idx → EReal) (b : S128.Idx → EReal) : S100000x128.Idx → EReal :=
  fun i => A (ix2 (i 0 : Fin 100000) (i 1 : Fin 128)) * S (ix2 (i 0 : Fin 100000) 0) + b (ix1 (i 1 : Fin 128))

/-- `G3` at coordinates `(r, q)`. -/
theorem G3_apply (A : S100000x128.Idx → EReal) (S : S100000x1.Idx → EReal) (b : S128.Idx → EReal) (r : Fin 100000) (q : Fin 128) :
    G3 A S b (ix2 r q) = A (ix2 r q) * S (ix2 r 0) + b (ix1 q) := rfl

/-- The body's stored value at `(p, q)`: the same-shape casts are the identity, the scale column is read at `(p, 0)`,
    the bias row at `q`. -/
theorem pay3_apply (x0 : Vec Ideal S5000x128 .f32) (x1 : Vec Ideal S5000x1 .f32) (x2 : Vec Ideal S128 .f32) (p : Fin 5000) (q : Fin 128) :
    k3_pay1 x0 x1 x2 (ix2 p q) = x0 (ix2 p q) * x1 (ix2 p 0) + x2 (ix1 q) := by
  unfold k3_pay1
  rw [addf_apply, mulf_apply, shapeCast_self, shapeCast_self]
  rw [Cert.LibColumn.broadcastTo_a1_ab_apply x1 broadcasts_S5000x1_S5000x128 p q]
  rw [broadcastTo_1b_ab_apply _ broadcasts_S1x128_S5000x128 p q, shapeCast_a_1a_apply x2 shapeCasts_S128_S1x128 0 q]

/-- What point `t` writes back is block `t` of `G3` of the arrays as the region finds them. -/
theorem flushed3_eq (c : Dev nD) (t : Fin cfg3.N) :
    (dat3 V c).flushed 3 t = ((cfg3.win 3).blk t).view.read (Elt Ideal)
      (G3 (V c main_v39) (V c main_v14) (V c main_arg5)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S5000x1) hz2, View.ld_unit_zero (S := S128) hz1]
  refine funext fun (j : S5000x128.Idx) => ?_
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
    = G3 (V c main_v39) (V c main_v14) (V c main_arg5) (((cfg3.win 3).blk t).view.emb (ix2 p q))
  rw [pay3_apply (iblk3 V c 0 t) (iblk3 V c 1 t) (iblk3 V c 2 t) p q, emb3_3 t p q, G3_apply,
    iblk3_0_apply V c t p q, iblk3_1_apply V c t p 0, iblk3_2_apply V c t q]

/-- An index is in point `t`'s output block iff each coordinate is in the block's range on its axis. -/
theorem mem_blk3_3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v40).slice (win3_3.rect t)).set ↔ _
  rw [View.set_slice_whole, Rect.mem_set_unit]
  exact Iff.rfl

/-- Row `r` is covered by point `r / 5000`: the output's blocks tile the array. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  let t : Fin cfg3.N := ⟨(i 0).val / 5000, by show (i 0).val / 5000 < 20; omega⟩
  have ht : t.val = (i 0).val / 5000 := rfl
  obtain ⟨-, -, -, -, -, e0, e1⟩ := idx3 t
  refine ⟨t, flush3_3 t, ?_⟩
  rw [mem_blk3_3]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 128 ≤ (i 1).val ∧ (i 1).val < win3_3.index t (1 : Fin 2) * 128 + 128; rw [e1]; omega

/-- The output array of region 1 after the run, as one function of the arrays the region finds. -/
theorem final3_fun (c : Dev nD) :
    (dat3 V c).arrAt 3 cfg3.N = G3 (V c main_v39) (V c main_v14) (V c main_arg5) :=
  (dat3 V c).arrAt_eq_of_cover 3 (G3 (V c main_v39) (V c main_v14) (V c main_arg5)) (fun t _ => flushed3_eq V c t) cover3

/-- The output array after the run, read at `(r, q)`. -/
theorem final3 (c : Dev nD) (r : Fin 100000) (q : Fin 128) :
    ((dat3 V c).arrAt 3 cfg3.N : S100000x128.Idx → EReal) (ix2 r q)
      = ((V c main_v39 : S100000x128.Idx → EReal) (ix2 r q) *ₑ (V c main_v14 : S100000x1.Idx → EReal) (ix2 r 0))
          +ₑ (V c main_arg5 : S128.Idx → EReal) (ix1 q) := by
  rw [final3_fun V c]
  rfl

end Cert.KernelIdeal.Regions

end
-- ==== Proof.Bridge3.lean ====
/-
  The second graph-convolution layer: the kernel program's node features after its fourth region are the reference's,
  given that its node features after the second region are the reference's first layer.

  The same arrangement as the first layer, over the first layer's output and the second weight matrix, without the
  clamp: the kernel scales by the normalisation before the gather and once more after the sum over the 600000 edges
  and the node's own row; the reference scales each message by the product of the endpoint normalisations and sums
  over the edges followed by the self-loops.  The graph-convolution law joins the two.
-/
import proofs.«140584_j4020089389438_2_alg».proof.Proof.Bridge1
import proofs.«140584_j4020089389438_2_alg».proof.Proof.KRegion2
import proofs.«140584_j4020089389438_2_alg».proof.Proof.KRegion3
import Idealize.ShloMosaic.Lib.IdealHost

set_option maxRecDepth 16384

noncomputable section

open scoped BigOperators

namespace Cert.Bridge

open Idealize.ShloMosaic Idealize.ShloMosaic.ValueIdx Idealize.ShloMosaic.TcCoe
open Cert.KernelIdeal Cert.KernelIdeal.Gen Cert.KernelIdeal.Chain Cert.KernelIdeal.Regions Cert.KernelIdeal.HostPoint
open Cert.ReferenceIdeal.RefRead Cert.IndexFacts

variable (m : (ℓ : Loc nD τ sig) → Buf (Elt Ideal) ℓ) (ρ : Dev nD → PrngReg) (c : Dev nD)

/-- The transformed, source-scaled features after region 2, given the first layer. -/
theorem w7_v28 (h1 : W6 m ρ c (Proc.devRef .tc main_v27) = Cert.ReferenceIdeal.Read.val_main_v47 (F := Ideal) (X0 m c) (X2 m c) (X3 m c) (X12 m c)) :
    W7 m ρ c (Proc.devRef .tc main_v28)
      = G2 (Cert.ReferenceIdeal.Read.val_main_v47 (F := Ideal) (X0 m c) (X2 m c) (X3 m c) (X12 m c)) (X4 m c) (shapeCast S100000x1 (dinvR m c) shapeCasts_S100000_S100000x1) := by
  refine (W7_arr m ρ c 3).trans ((final2_fun (V6 m ρ) c).trans ?_)
  have h27 : V6 m ρ c main_v27 = Cert.ReferenceIdeal.Read.val_main_v47 (F := Ideal) (X0 m c) (X2 m c) (X3 m c) (X12 m c) := h1
  have h4 : V6 m ρ c main_arg4 = X4 m c := arg_6 m ρ c main_arg4 (by decide)
  have h14 : V6 m ρ c main_v14 = shapeCast S100000x1 (dinvR m c) shapeCasts_S100000_S100000x1 :=
    (keep_3_6 m ρ c main_v14 (by decide)).trans (dinv_col m ρ c)
  rw [h27, h4, h14]

/-- The scaled features at (r, q): the second transform of the first layer's output times the node's normalisation. -/
theorem k28_apply (r : Fin 100000) (q : Fin 128) :
    G2 (Cert.ReferenceIdeal.Read.val_main_v47 (F := Ideal) (X0 m c) (X2 m c) (X3 m c) (X12 m c)) (X4 m c) (shapeCast S100000x1 (dinvR m c) shapeCasts_S100000_S100000x1) (ix2 r q)
      = Cert.ReferenceIdeal.Read.val_main_v48 (F := Ideal) (X0 m c) (X2 m c) (X3 m c) (X4 m c) (X12 m c) (ix2 r q) * dinvR m c (ix1 r) := by
  rw [G2_apply, dinv_col_apply, v48_at]

/-- The aggregated features when region 3 is entered, given the first layer. -/
theorem w8_v39 (h1 : W6 m ρ c (Proc.devRef .tc main_v27) = Cert.ReferenceIdeal.Read.val_main_v47 (F := Ideal) (X0 m c) (X2 m c) (X3 m c) (X12 m c)) (r : Fin 100000) (q : Fin 128) :
    (W8 m ρ c (Proc.devRef .tc main_v39) : S100000x128.Idx → EReal) (ix2 r q)
      = (Ideal.ofBits .f32 0x00000000#32
          + ∑ e : Fin 600000, if (dstR m c (ix1 e)).toInt = (r.val : Int)
              then Cert.ReferenceIdeal.Read.val_main_v48 (F := Ideal) (X0 m c) (X2 m c) (X3 m c) (X4 m c) (X12 m c) (ix2 (row (nrm (srcR m c (ix1 e)))) q)
                * dinvR m c (ix1 (row (nrm (srcR m c (ix1 e))))) else 0)
        + Cert.ReferenceIdeal.Read.val_main_v48 (F := Ideal) (X0 m c) (X2 m c) (X3 m c) (X4 m c) (X12 m c) (ix2 r q) * dinvR m c (ix1 r) := by
  show (StableHlo.after (hostOps3 (F := Ideal)) (W7 m ρ c) (Proc.devRef .tc main_v39) : S100000x128.Idx → EReal) (ix2 r q) = _
  rw [host3_v39, w7_v28 m ρ c h1, (keep_3_7 m ρ c main_v1 (by decide)).trans (w3_v1 m ρ c),
    (keep_3_7 m ρ c main_v3 (by decide)).trans (w3_v3 m ρ c), agg_read]
  refine congrArg₂ (· + ·) (congrArg₂ (· + ·) rfl (Finset.sum_congr rfl fun e _ => ?_)) ?_
  · rw [k28_apply]
  · rw [k28_apply]

/-- LAYER 2: the node features after region 3 are the reference's second layer, given that those after region 1 are
    its first. -/
theorem h2_eq_of (h1 : W6 m ρ c (Proc.devRef .tc main_v27) = Cert.ReferenceIdeal.Read.val_main_v47 (F := Ideal) (X0 m c) (X2 m c) (X3 m c) (X12 m c)) :
    W9 m ρ c (Proc.devRef .tc main_v40)
      = Cert.ReferenceIdeal.Read.val_main_v64 (F := Ideal) (X0 m c) (X2 m c) (X3 m c) (X4 m c) (X5 m c) (X12 m c) := by
  refine (W9_arr m ρ c 3).trans ((final3_fun (V8 m ρ) c).trans ?_)
  have h14 : V8 m ρ c main_v14 = shapeCast S100000x1 (dinvR m c) shapeCasts_S100000_S100000x1 :=
    (keep_3_8 m ρ c main_v14 (by decide)).trans (dinv_col m ρ c)
  have h5 : V8 m ρ c main_arg5 = X5 m c := arg_8 m ρ c main_arg5 (by decide)
  rw [h14, h5]
  funext i
  obtain ⟨r, q, rfl⟩ : ∃ (r : Fin 100000) (q : Fin 128), i = ix2 r q := ⟨i 0, i 1, eq_ix2 i⟩
  rw [G3_apply, dinv_col_apply, v64_at]
  have hagg := w8_v39 m ρ c h1 r q
  rw [show (V8 m ρ c main_v39 : S100000x128.Idx → EReal) (ix2 r q) = _ from hagg]
  have hlaw := Cert.LayerEq.layer_eq (fun e => srcR m c (ix1 e)) (fun e => dstR m c (ix1 e))
    (fun j => Cert.ReferenceIdeal.Read.val_main_v5 (F := Ideal) (X12 m c) (ix1 j))
    (fun j => Cert.ReferenceIdeal.Read.val_main_v6 (F := Ideal) (X12 m c) (ix1 j))
    (val_main_v5_lo (X12 m c)) (val_main_v5_hi (X12 m c)) (val_main_v6_lo (X12 m c)) (val_main_v6_hi (X12 m c))
    (fun r' => dinvR m c (ix1 r')) (dinvR_nonneg m c) (dinvR_ne_top m c)
    (fun r' => Cert.ReferenceIdeal.Read.val_main_v48 (F := Ideal) (X0 m c) (X2 m c) (X3 m c) (X4 m c) (X12 m c) (ix2 r' q)) r
  rw [Ideal.ofBits_def, Ideal.ofBits_zero_f32, zero_add, zero_add]
  exact congrArg (· + X5 m c (ix1 q)) hlaw.symm

end Cert.Bridge

end
-- ==== Proof.KRegion4Pay.lean ====
/-
  Region 4's body on the extended reals, read at a row: a three-layer perceptron on each row `e`. The first hidden
  layer `z1 e j` is max (x0 e · W0 j + x1 e · W1 j + x2 e · W2 j + b j) 0 over two 128-wide inputs and one 5-wide
  input, the second `z2 e k` is max (z1 e · W3 k + b3 k) 0, and the output `zout e` is the logistic function of
  z2 e · W4 + b4. The narrowing and widening casts between the layers are the identity on the extended reals. The
  functions are stated for any number of rows, so that the same definitions read a block of rows and the whole array.
-/
import proofs.«140584_j4020089389438_2_alg».proof.Proof.Gen.KernelIdeal.Skeleton
import proofs.«140584_j4020089389438_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic
open Idealize.ShloMosaic.ValueIdx

/-- The first hidden layer at row `e`, unit `j`. -/
def z1 {n : ℕ} (A0 A1 : (⟨2, ![n, 128]⟩ : Shape).Idx → EReal) (A2 : (⟨2, ![n, 5]⟩ : Shape).Idx → EReal)
    (W0 W1 : S128x128.Idx → EReal) (W2 : S5x128.Idx → EReal) (b : S128.Idx → EReal) (e : Fin n) (j : Fin 128) : EReal :=
  max ((((∑ k : Fin 128, A0 (ix2 e k) * W0 (ix2 k j)) + (∑ k : Fin 128, A1 (ix2 e k) * W1 (ix2 k j)))
      + (∑ k : Fin 5, A2 (ix2 e k) * W2 (ix2 k j))) + b (ix1 j)) (Ideal.ofBits .f32 0x00000000#32)

/-- The second hidden layer at row `e`, unit `k`. -/
def z2 {n : ℕ} (A0 A1 : (⟨2, ![n, 128]⟩ : Shape).Idx → EReal) (A2 : (⟨2, ![n, 5]⟩ : Shape).Idx → EReal)
    (W0 W1 : S128x128.Idx → EReal) (W2 : S5x128.Idx → EReal) (b : S128.Idx → EReal)
    (W3 : S128x128.Idx → EReal) (b3 : S128.Idx → EReal) (e : Fin n) (k : Fin 128) : EReal :=
  max ((∑ j : Fin 128, z1 A0 A1 A2 W0 W1 W2 b e j * W3 (ix2 j k)) + b3 (ix1 k)) (Ideal.ofBits .f32 0x00000000#32)

/-- The output at row `e`. -/
def zout {n : ℕ} (A0 A1 : (⟨2, ![n, 128]⟩ : Shape).Idx → EReal) (A2 : (⟨2, ![n, 5]⟩ : Shape).Idx → EReal)
    (W0 W1 : S128x128.Idx → EReal) (W2 : S5x128.Idx → EReal) (b : S128.Idx → EReal)
    (W3 : S128x128.Idx → EReal) (b3 : S128.Idx → EReal) (W4 : S128x1.Idx → EReal) (b4 : S1.Idx → EReal) (e : Fin n) : EReal :=
  Ideal.logistic ((∑ k : Fin 128, z2 A0 A1 A2 W0 W1 W2 b W3 b3 e k * W4 (ix2 k 0)) + b4 (ix1 0))

/-- The output at a row depends only on that row of the three inputs and on the weights' and biases' entries. -/
theorem zout_congr {n m : ℕ} (A0 A1 : (⟨2, ![n, 128]⟩ : Shape).Idx → EReal) (A2 : (⟨2, ![n, 5]⟩ : Shape).Idx → EReal)
    (W0 W1 : S128x128.Idx → EReal) (W2 : S5x128.Idx → EReal) (b : S128.Idx → EReal)
    (W3 : S128x128.Idx → EReal) (b3 : S128.Idx → EReal) (W4 : S128x1.Idx → EReal) (b4 : S1.Idx → EReal)
    (A0' A1' : (⟨2, ![m, 128]⟩ : Shape).Idx → EReal) (A2' : (⟨2, ![m, 5]⟩ : Shape).Idx → EReal)
    (W0' W1' : S128x128.Idx → EReal) (W2' : S5x128.Idx → EReal) (b' : S128.Idx → EReal)
    (W3' : S128x128.Idx → EReal) (b3' : S128.Idx → EReal) (W4' : S128x1.Idx → EReal) (b4' : S1.Idx → EReal)
    (e : Fin n) (e' : Fin m)
    (h0 : ∀ k : Fin 128, A0 (ix2 e k) = A0' (ix2 e' k)) (h1 : ∀ k : Fin 128, A1 (ix2 e k) = A1' (ix2 e' k))
    (h2 : ∀ k : Fin 5, A2 (ix2 e k) = A2' (ix2 e' k))
    (hW0 : ∀ (k j : Fin 128), W0 (ix2 k j) = W0' (ix2 k j)) (hW1 : ∀ (k j : Fin 128), W1 (ix2 k j) = W1' (ix2 k j))
    (hW2 : ∀ (k : Fin 5) (j : Fin 128), W2 (ix2 k j) = W2' (ix2 k j)) (hb : ∀ j : Fin 128, b (ix1 j) = b' (ix1 j))
    (hW3 : ∀ (k j : Fin 128), W3 (ix2 k j) = W3' (ix2 k j)) (hb3 : ∀ j : Fin 128, b3 (ix1 j) = b3' (ix1 j))
    (hW4 : ∀ (k : Fin 128) (u : Fin 1), W4 (ix2 k u) = W4' (ix2 k u)) (hb4 : ∀ u : Fin 1, b4 (ix1 u) = b4' (ix1 u)) :
    zout A0 A1 A2 W0 W1 W2 b W3 b3 W4 b4 e = zout A0' A1' A2' W0' W1' W2' b' W3' b3' W4' b4' e' := by
  unfold zout z2 z1
  simp only [h0, h1, h2, hW0, hW1, hW2, hb, hW3, hb3, hW4, hb4]

/-- The second hidden layer as the body computes it from its loaded blocks, at `(p, k)`. -/
theorem pay4_2_apply (x0 x1 : Vec Ideal S4800x128 .bf16) (x2 : Vec Ideal S4800x5 .bf16) (x3 x4 : Vec Ideal S128x128 .bf16)
    (x5 : Vec Ideal S5x128 .bf16) (x6 : Vec Ideal S128 .f32) (x7 : Vec Ideal S128x128 .bf16) (x8 : Vec Ideal S128 .f32)
    (p : Fin 4800) (k : Fin 128) :
    k4_pay2 x0 x1 x2 x3 x4 x5 x6 x7 x8 (ix2 p k) = z2 (n := 4800) x0 x1 x2 x3 x4 x5 x6 x7 x8 p k := by
  unfold k4_pay2 z2
  rw [truncf_apply, maximumf_apply, broadcast_apply, addf_apply,
    Cert.LibMatmulPlain.matmul_zero_apply dot_S4800x128_S128x128_S4800x128_1_0_0_1_n_n rfl rfl rfl rfl rfl rfl _ _ p k,
    broadcastTo_1b_ab_apply _ broadcasts_S1x128_S4800x128 p k, shapeCast_a_1a_apply x8 shapeCasts_S128_S1x128 0 k]
  congr 1
  congr 1
  refine Finset.sum_congr rfl fun j _ => ?_
  rw [shapeCast_self x7]
  congr 1
  unfold z1
  rw [truncf_apply, maximumf_apply, broadcast_apply, addf_apply, addf_apply, addf_apply,
    Cert.LibMatmulPlain.matmul_zero_apply dot_S4800x128_S128x128_S4800x128_1_0_0_1_n_n rfl rfl rfl rfl rfl rfl _ _ p j,
    Cert.LibMatmulPlain.matmul_zero_apply dot_S4800x128_S128x128_S4800x128_1_0_0_1_n_n rfl rfl rfl rfl rfl rfl _ _ p j,
    Cert.LibMatmulPlain.matmul_zero_apply dot_S4800x5_S5x128_S4800x128_1_0_0_1_n_n rfl rfl rfl rfl rfl rfl _ _ p j,
    broadcastTo_1b_ab_apply _ broadcasts_S1x128_S4800x128 p j, shapeCast_a_1a_apply x6 shapeCasts_S128_S1x128 0 j,
    shapeCast_self x0, shapeCast_self x1, shapeCast_self x2, shapeCast_self x3, shapeCast_self x4, shapeCast_self x5]
  rfl

/-- The stored value as the body computes it from the second hidden layer, at `(p, 0)`. -/
theorem pay4_1_apply (y : FVec Ideal S4800x128 .bf16) (x9 : Vec Ideal S128x1 .bf16) (x10 : Vec Ideal S1 .f32) (p : Fin 4800) :
    k4_pay1 y x9 x10 (ix2 p 0) = Ideal.logistic ((∑ k : Fin 128, y (ix2 p k) * x9 (ix2 k 0)) + x10 (ix1 0)) := by
  unfold k4_pay1
  show Ideal.logistic ((addf _ _ : FVec Ideal S4800x1 .f32) (ix2 p 0)) = _
  rw [addf_apply,
    Cert.LibMatmulPlain.matmul_zero_apply dot_S4800x128_S128x1_S4800x1_1_0_0_1_n_n rfl rfl rfl rfl rfl rfl _ _ p 0,
    broadcastTo_1b_ab_apply _ broadcasts_S1x1_S4800x1 p 0, shapeCast_a_1a_apply x10 shapeCasts_S1_S1x1 0 0,
    shapeCast_self x9]

/-- The body's stored value at `(p, 0)` is the perceptron's output at row `p` of the loaded blocks. -/
theorem pay4_apply (x0 x1 : Vec Ideal S4800x128 .bf16) (x2 : Vec Ideal S4800x5 .bf16) (x3 x4 : Vec Ideal S128x128 .bf16)
    (x5 : Vec Ideal S5x128 .bf16) (x6 : Vec Ideal S128 .f32) (x7 : Vec Ideal S128x128 .bf16) (x8 : Vec Ideal S128 .f32)
    (x9 : Vec Ideal S128x1 .bf16) (x10 : Vec Ideal S1 .f32) (p : Fin 4800) :
    k4_pay1 (k4_pay2 x0 x1 x2 x3 x4 x5 x6 x7 x8) x9 x10 (ix2 p 0)
      = zout (n := 4800) x0 x1 x2 x3 x4 x5 x6 x7 x8 x9 x10 p := by
  rw [pay4_1_apply (k4_pay2 x0 x1 x2 x3 x4 x5 x6 x7 x8) x9 x10 p]
  unfold zout
  congr 1
  congr 1
  refine Finset.sum_congr rfl fun k _ => ?_
  rw [pay4_2_apply x0 x1 x2 x3 x4 x5 x6 x7 x8 p k]

end Cert.KernelIdeal.Regions

end
-- ==== Proof.KRegion4.lean ====
/-
  Region 4 on the extended reals: the output column [600000, 1] as one function of the eleven arrays the region
  reads. Each of the 125 grid points takes rows 4800 t … 4800 t + 4799 of the three row inputs, the whole of every
  weight and bias, and writes the same rows of the output: entry (e, 0) is the three-layer perceptron's output at row
  e. The blocks tile the rows, so the array after the last point is that function everywhere.
-/
import proofs.«140584_j4020089389438_2_alg».proof.Proof.Gen.KernelIdeal.Frame
import proofs.«140584_j4020089389438_2_alg».proof.Proof.KRegionLib
import Idealize.ShloMosaic.Lib.Pipeline.Value
import Idealize.ShloMosaic.Lib.ValueIdx
import Idealize.ShloMosaic.Lib.ValueLayout
import Idealize.ShloMosaic.PureOps.Ideal.Laws
import proofs.«140584_j4020089389438_2_alg».proof.Proof.KRegion4Pay

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

-- multiplication and addition with both operands read as extended reals
local notation:70 a:70 " *ₑ " b:71 => (HMul.hMul : EReal → EReal → EReal) a b
local notation:65 a:65 " +ₑ " b:66 => (HAdd.hAdd : EReal → EReal → EReal) a b

variable (V : (c : Dev nD) → (b : Ref sig .tc) → Buf (Elt Ideal) ((c : Thread nD τ).loc b))

/-- Which buffer each window reads or writes. -/
theorem arrRef4 : Pipeline.arrRef spec4 0 = main_v48 ∧ Pipeline.arrRef spec4 1 = main_v55 ∧ Pipeline.arrRef spec4 2 = main_v56
    ∧ Pipeline.arrRef spec4 3 = main_v58 ∧ Pipeline.arrRef spec4 4 = main_v60 ∧ Pipeline.arrRef spec4 5 = main_v62
    ∧ Pipeline.arrRef spec4 6 = main_arg7 ∧ Pipeline.arrRef spec4 7 = main_v63 ∧ Pipeline.arrRef spec4 8 = main_arg9
    ∧ Pipeline.arrRef spec4 9 = main_v64 ∧ Pipeline.arrRef spec4 10 = main_arg11 ∧ Pipeline.arrRef spec4 11 = main_v65 :=
  ⟨rfl, rfl, rfl, rfl, rfl, rfl, rfl, rfl, rfl, rfl, rfl, rfl⟩

/-- The block index of every window at every grid point: the row windows move with the point, the weights and biases stay. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0
    ∧ win4_8.index t (0 : Fin 1) = 0
    ∧ win4_9.index t (0 : Fin 2) = 0 ∧ win4_9.index t (1 : Fin 2) = 0
    ∧ win4_10.index t (0 : Fin 1) = 0
    ∧ win4_11.index t (0 : Fin 2) = t.val ∧ win4_11.index t (1 : Fin 2) = 0 :=
  (by decide +kernel : ∀ t : Fin grid4.N, _)

/-- Row `p` of the block of point `t` is row `4800 t + p` of the array. -/
def row4 (t : Fin cfg4.N) (p : Fin 4800) : Fin 600000 :=
  ⟨t.val * 4800 + p.val, by have h : t.val < 125 := t.isLt; have := p.isLt; omega⟩

/-- The first input's block at point `t`, entry `(p, k)`, is the array's entry `(4800 t + p, k)`. -/
theorem iblk4_0_apply (c : Dev nD) (t : Fin cfg4.N) (p : Fin 4800) (k : Fin 128) :
    (iblk4 V c 0 t : Vec Ideal S4800x128 .bf16) (ix2 p k) = (V c main_v48 : S600000x128.Idx → EReal) (ix2 (row4 t p) k) := by
  have e0 := (idx4 t).1
  have e1 := (idx4 t).2.1
  unfold iblk4
  rw [View.read_apply]
  show (V c main_v48 : S600000x128.Idx → EReal) _ = _
  congr 1
  funext a
  apply Fin.ext
  match a with
  | ⟨0, _⟩ => show win4_0.index t 0 * 4800 + 1 * p.val = t.val * 4800 + p.val; rw [e0]; omega
  | ⟨1, _⟩ => show win4_0.index t 1 * 128 + 1 * k.val = k.val; rw [e1]; omega

/-- The second input's block at point `t`, entry `(p, k)`, is the array's entry `(4800 t + p, k)`. -/
theorem iblk4_1_apply (c : Dev nD) (t : Fin cfg4.N) (p : Fin 4800) (k : Fin 128) :
    (iblk4 V c 1 t : Vec Ideal S4800x128 .bf16) (ix2 p k) = (V c main_v55 : S600000x128.Idx → EReal) (ix2 (row4 t p) k) := by
  have e0 := (idx4 t).2.2.1
  have e1 := (idx4 t).2.2.2.1
  unfold iblk4
  rw [View.read_apply]
  show (V c main_v55 : S600000x128.Idx → EReal) _ = _
  congr 1
  funext a
  apply Fin.ext
  match a with
  | ⟨0, _⟩ => show win4_1.index t 0 * 4800 + 1 * p.val = t.val * 4800 + p.val; rw [e0]; omega
  | ⟨1, _⟩ => show win4_1.index t 1 * 128 + 1 * k.val = k.val; rw [e1]; omega

/-- The third input's block at point `t`, entry `(p, k)`, is the array's entry `(4800 t + p, k)`. -/
theorem iblk4_2_apply (c : Dev nD) (t : Fin cfg4.N) (p : Fin 4800) (k : Fin 5) :
    (iblk4 V c 2 t : Vec Ideal S4800x5 .bf16) (ix2 p k) = (V c main_v56 : S600000x5.Idx → EReal) (ix2 (row4 t p) k) := by
  have e0 := (idx4 t).2.2.2.2.1
  have e1 := (idx4 t).2.2.2.2.2.1
  unfold iblk4
  rw [View.read_apply]
  show (V c main_v56 : S600000x5.Idx → EReal) _ = _
  congr 1
  funext a
  apply Fin.ext
  match a with
  | ⟨0, _⟩ => show win4_2.index t 0 * 4800 + 1 * p.val = t.val * 4800 + p.val; rw [e0]; omega
  | ⟨1, _⟩ => show win4_2.index t 1 * 5 + 1 * k.val = k.val; rw [e1]; omega

/-- The first weight's block at every point is the whole weight. -/
theorem iblk4_3_apply (c : Dev nD) (t : Fin cfg4.N) (k : Fin 128) (j : Fin 128) :
    (iblk4 V c 3 t : Vec Ideal S128x128 .bf16) (ix2 k j) = (V c main_v58 : S128x128.Idx → EReal) (ix2 k j) := by
  have e0 := (idx4 t).2.2.2.2.2.2.1
  have e1 := (idx4 t).2.2.2.2.2.2.2.1
  unfold iblk4
  rw [View.read_apply]
  show (V c main_v58 : S128x128.Idx → EReal) _ = _
  congr 1
  funext a
  apply Fin.ext
  match a with
  | ⟨0, _⟩ => show win4_3.index t 0 * 128 + 1 * k.val = k.val; rw [e0]; omega
  | ⟨1, _⟩ => show win4_3.index t 1 * 128 + 1 * j.val = j.val; rw [e1]; omega

/-- The second weight's block at every point is the whole weight. -/
theorem iblk4_4_apply (c : Dev nD) (t : Fin cfg4.N) (k : Fin 128) (j : Fin 128) :
    (iblk4 V c 4 t : Vec Ideal S128x128 .bf16) (ix2 k j) = (V c main_v60 : S128x128.Idx → EReal) (ix2 k j) := by
  have e0 := (idx4 t).2.2.2.2.2.2.2.2.1
  have e1 := (idx4 t).2.2.2.2.2.2.2.2.2.1
  unfold iblk4
  rw [View.read_apply]
  show (V c main_v60 : S128x128.Idx → EReal) _ = _
  congr 1
  funext a
  apply Fin.ext
  match a with
  | ⟨0, _⟩ => show win4_4.index t 0 * 128 + 1 * k.val = k.val; rw [e0]; omega
  | ⟨1, _⟩ => show win4_4.index t 1 * 128 + 1 * j.val = j.val; rw [e1]; omega

/-- The third weight's block at every point is the whole weight. -/
theorem iblk4_5_apply (c : Dev nD) (t : Fin cfg4.N) (k : Fin 5) (j : Fin 128) :
    (iblk4 V c 5 t : Vec Ideal S5x128 .bf16) (ix2 k j) = (V c main_v62 : S5x128.Idx → EReal) (ix2 k j) := by
  have e0 := (idx4 t).2.2.2.2.2.2.2.2.2.2.1
  have e1 := (idx4 t).2.2.2.2.2.2.2.2.2.2.2.1
  unfold iblk4
  rw [View.read_apply]
  show (V c main_v62 : S5x128.Idx → EReal) _ = _
  congr 1
  funext a
  apply Fin.ext
  match a with
  | ⟨0, _⟩ => show win4_5.index t 0 * 5 + 1 * k.val = k.val; rw [e0]; omega
  | ⟨1, _⟩ => show win4_5.index t 1 * 128 + 1 * j.val = j.val; rw [e1]; omega

/-- The first bias's block at every point is the whole bias. -/
theorem iblk4_6_apply (c : Dev nD) (t : Fin cfg4.N) (j : Fin 128) :
    (iblk4 V c 6 t : Vec Ideal S128 .f32) (ix1 j) = (V c main_arg7 : S128.Idx → EReal) (ix1 j) := by
  have e0 := (idx4 t).2.2.2.2.2.2.2.2.2.2.2.2.1
  unfold iblk4
  rw [View.read_apply]
  show (V c main_arg7 : S128.Idx → EReal) _ = _
  congr 1
  funext a
  apply Fin.ext
  match a with
  | ⟨0, _⟩ => show win4_6.index t 0 * 128 + 1 * j.val = j.val; rw [e0]; omega

/-- The second layer's weight block at every point is the whole weight. -/
theorem iblk4_7_apply (c : Dev nD) (t : Fin cfg4.N) (k : Fin 128) (j : Fin 128) :
    (iblk4 V c 7 t : Vec Ideal S128x128 .bf16) (ix2 k j) = (V c main_v63 : S128x128.Idx → EReal) (ix2 k j) := by
  have e0 := (idx4 t).2.2.2.2.2.2.2.2.2.2.2.2.2.1
  have e1 := (idx4 t).2.2.2.2.2.2.2.2.2.2.2.2.2.2.1
  unfold iblk4
  rw [View.read_apply]
  show (V c main_v63 : S128x128.Idx → EReal) _ = _
  congr 1
  funext a
  apply Fin.ext
  match a with
  | ⟨0, _⟩ => show win4_7.index t 0 * 128 + 1 * k.val = k.val; rw [e0]; omega
  | ⟨1, _⟩ => show win4_7.index t 1 * 128 + 1 * j.val = j.val; rw [e1]; omega

/-- The second bias's block at every point is the whole bias. -/
theorem iblk4_8_apply (c : Dev nD) (t : Fin cfg4.N) (j : Fin 128) :
    (iblk4 V c 8 t : Vec Ideal S128 .f32) (ix1 j) = (V c main_arg9 : S128.Idx → EReal) (ix1 j) := by
  have e0 := (idx4 t).2.2.2.2.2.2.2.2.2.2.2.2.2.2.2.1
  unfold iblk4
  rw [View.read_apply]
  show (V c main_arg9 : S128.Idx → EReal) _ = _
  congr 1
  funext a
  apply Fin.ext
  match a with
  | ⟨0, _⟩ => show win4_8.index t 0 * 128 + 1 * j.val = j.val; rw [e0]; omega

/-- The output layer's weight block at every point is the whole weight. -/
theorem iblk4_9_apply (c : Dev nD) (t : Fin cfg4.N) (k : Fin 128) (j : Fin 1) :
    (iblk4 V c 9 t : Vec Ideal S128x1 .bf16) (ix2 k j) = (V c main_v64 : S128x1.Idx → EReal) (ix2 k j) := by
  have e0 := (idx4 t).2.2.2.2.2.2.2.2.2.2.2.2.2.2.2.2.1
  have e1 := (idx4 t).2.2.2.2.2.2.2.2.2.2.2.2.2.2.2.2.2.1
  unfold iblk4
  rw [View.read_apply]
  show (V c main_v64 : S128x1.Idx → EReal) _ = _
  congr 1
  funext a
  apply Fin.ext
  match a with
  | ⟨0, _⟩ => show win4_9.index t 0 * 128 + 1 * k.val = k.val; rw [e0]; omega
  | ⟨1, _⟩ => show win4_9.index t 1 * 1 + 1 * j.val = j.val; rw [e1]; omega

/-- The output bias's block at every point is the whole bias. -/
theorem iblk4_10_apply (c : Dev nD) (t : Fin cfg4.N) (j : Fin 1) :
    (iblk4 V c 10 t : Vec Ideal S1 .f32) (ix1 j) = (V c main_arg11 : S1.Idx → EReal) (ix1 j) := by
  have e0 := (idx4 t).2.2.2.2.2.2.2.2.2.2.2.2.2.2.2.2.2.2.1
  unfold iblk4
  rw [View.read_apply]
  show (V c main_arg11 : S1.Idx → EReal) _ = _
  congr 1
  funext a
  apply Fin.ext
  match a with
  | ⟨0, _⟩ => show win4_10.index t 0 * 1 + 1 * j.val = j.val; rw [e0]; omega

/-- Entry `(p, u)` of the output's block at point `t` sits at `(4800 t + p, u)` of the output array. -/
theorem emb4_11 (t : Fin cfg4.N) (p : Fin 4800) (u : Fin 1) :
    ((cfg4.win 11).blk t).view.emb (ix2 p u) = (ix2 (row4 t p) u : S600000x1.Idx) := by
  have e0 := (idx4 t).2.2.2.2.2.2.2.2.2.2.2.2.2.2.2.2.2.2.2.1
  have e1 := (idx4 t).2.2.2.2.2.2.2.2.2.2.2.2.2.2.2.2.2.2.2.2
  funext a
  apply Fin.ext
  match a with
  | ⟨0, _⟩ => show win4_11.index t 0 * 4800 + 1 * p.val = t.val * 4800 + p.val; rw [e0]; omega
  | ⟨1, _⟩ => show win4_11.index t 1 * 1 + 1 * u.val = u.val; rw [e1]; omega

/-- The output array as one function of the eleven input arrays: the perceptron's output at each row. -/
def G4 (A0 A1 : S600000x128.Idx → EReal) (A2 : S600000x5.Idx → EReal) (W0 W1 : S128x128.Idx → EReal) (W2 : S5x128.Idx → EReal)
    (b : S128.Idx → EReal) (W3 : S128x128.Idx → EReal) (b3 : S128.Idx → EReal) (W4 : S128x1.Idx → EReal) (b4 : S1.Idx → EReal) :
    S600000x1.Idx → EReal :=
  fun i => zout (n := 600000) A0 A1 A2 W0 W1 W2 b W3 b3 W4 b4 (i 0 : Fin 600000)

/-- `G4` at coordinates `(e, u)`. -/
theorem G4_apply (A0 A1 : S600000x128.Idx → EReal) (A2 : S600000x5.Idx → EReal) (W0 W1 : S128x128.Idx → EReal) (W2 : S5x128.Idx → EReal)
    (b : S128.Idx → EReal) (W3 : S128x128.Idx → EReal) (b3 : S128.Idx → EReal) (W4 : S128x1.Idx → EReal) (b4 : S1.Idx → EReal)
    (e : Fin 600000) (u : Fin 1) :
    G4 A0 A1 A2 W0 W1 W2 b W3 b3 W4 b4 (ix2 e u) = zout (n := 600000) A0 A1 A2 W0 W1 W2 b W3 b3 W4 b4 e := rfl

/-- What point `t` writes back is block `t` of `G4` of the arrays as the region finds them. -/
theorem flushed4_eq (c : Dev nD) (t : Fin cfg4.N) :
    (dat4 V c).flushed 11 t = ((cfg4.win 11).blk t).view.read (Elt Ideal)
      (G4 (V c main_v48) (V c main_v55) (V c main_v56) (V c main_v58) (V c main_v60) (V c main_v62) (V c main_arg7)
        (V c main_v63) (V c main_arg9) (V c main_v64) (V c main_arg11)) := by
  show (cfg4.win 11).cut (grid4.coords t) ((dat4 V c).after 11 t) = _
  rw [after4_11]
  unfold out4_11
  rw [View.canon_unit_zero hz2]
  simp only [View.ld_unit_zero (S := S4800x128) hz2, View.ld_unit_zero (S := S4800x5) hz2, View.ld_unit_zero (S := S128x128) hz2,
    View.ld_unit_zero (S := S5x128) hz2, View.ld_unit_zero (S := S128) hz1, View.ld_unit_zero (S := S128x1) hz2,
    View.ld_unit_zero (S := S1) hz1]
  refine funext fun (j : S4800x1.Idx) => ?_
  obtain ⟨p, u, rfl⟩ : ∃ (p : Fin 4800) (u : Fin 1), j = ix2 p u := ⟨j 0, j 1, eq_ix2 j⟩
  obtain rfl : u = 0 := Fin.fin_one_eq_zero u
  show k4_pay1 (k4_pay2 (iblk4 V c 0 t) (iblk4 V c 1 t) (iblk4 V c 2 t) (iblk4 V c 3 t) (iblk4 V c 4 t) (iblk4 V c 5 t)
      (iblk4 V c 6 t) (iblk4 V c 7 t) (iblk4 V c 8 t)) (iblk4 V c 9 t) (iblk4 V c 10 t) (ix2 p 0)
    = G4 (V c main_v48) (V c main_v55) (V c main_v56) (V c main_v58) (V c main_v60) (V c main_v62) (V c main_arg7)
        (V c main_v63) (V c main_arg9) (V c main_v64) (V c main_arg11) (((cfg4.win 11).blk t).view.emb (ix2 p 0))
  rw [pay4_apply (iblk4 V c 0 t) (iblk4 V c 1 t) (iblk4 V c 2 t) (iblk4 V c 3 t) (iblk4 V c 4 t) (iblk4 V c 5 t)
      (iblk4 V c 6 t) (iblk4 V c 7 t) (iblk4 V c 8 t) (iblk4 V c 9 t) (iblk4 V c 10 t) p, emb4_11 t p 0, G4_apply]
  exact zout_congr (iblk4 V c 0 t) (iblk4 V c 1 t) (iblk4 V c 2 t) (iblk4 V c 3 t) (iblk4 V c 4 t) (iblk4 V c 5 t)
      (iblk4 V c 6 t) (iblk4 V c 7 t) (iblk4 V c 8 t) (iblk4 V c 9 t) (iblk4 V c 10 t)
      (V c main_v48) (V c main_v55) (V c main_v56) (V c main_v58) (V c main_v60) (V c main_v62) (V c main_arg7)
      (V c main_v63) (V c main_arg9) (V c main_v64) (V c main_arg11) p (row4 t p)
      (fun k => iblk4_0_apply V c t p k) (fun k => iblk4_1_apply V c t p k) (fun k => iblk4_2_apply V c t p k)
      (fun k j => iblk4_3_apply V c t k j) (fun k j => iblk4_4_apply V c t k j) (fun k j => iblk4_5_apply V c t k j)
      (fun j => iblk4_6_apply V c t j) (fun k j => iblk4_7_apply V c t k j) (fun j => iblk4_8_apply V c t j)
      (fun k u => iblk4_9_apply V c t k u) (fun u => iblk4_10_apply V c t u)

/-- An index is in point `t`'s output block iff each coordinate is in the block's range on its axis. -/
theorem mem_blk4_11 (t : Fin cfg4.N) (i : S600000x1.Idx) :
    i ∈ ((cfg4.win 11).blk t).view.set ↔ ∀ a : Fin 2, win4_11.index t a * S4800x1.size a ≤ (i a).val ∧ (i a).val < win4_11.index t a * S4800x1.size a + S4800x1.size a := by
  show i ∈ ((View.whole main_v65).slice (win4_11.rect t)).set ↔ _
  rw [View.set_slice_whole, Rect.mem_set_unit]
  exact Iff.rfl

/-- Row `e` is covered by point `e / 4800`: the output's blocks tile the array. -/
theorem cover4 (i : S600000x1.Idx) :
    ∃ t : Fin cfg4.N, (cfg4.win 11).flush t = true ∧ i ∈ ((cfg4.win 11).blk t).view.set := by
  have hi0 : (i 0).val < 600000 := (i 0).isLt
  have hi1 : (i 1).val < 1 := (i 1).isLt
  let t : Fin cfg4.N := ⟨(i 0).val / 4800, by show (i 0).val / 4800 < 125; omega⟩
  have ht : t.val = (i 0).val / 4800 := rfl
  have e0 := (idx4 t).2.2.2.2.2.2.2.2.2.2.2.2.2.2.2.2.2.2.2.1
  have e1 := (idx4 t).2.2.2.2.2.2.2.2.2.2.2.2.2.2.2.2.2.2.2.2
  refine ⟨t, flush4_11 t, ?_⟩
  rw [mem_blk4_11]
  intro a
  match a with
  | ⟨0, _⟩ => show win4_11.index t (0 : Fin 2) * 4800 ≤ (i 0).val ∧ (i 0).val < win4_11.index t (0 : Fin 2) * 4800 + 4800; rw [e0, ht]; omega
  | ⟨1, _⟩ => show win4_11.index t (1 : Fin 2) * 1 ≤ (i 1).val ∧ (i 1).val < win4_11.index t (1 : Fin 2) * 1 + 1; rw [e1]; omega

/-- The output array of region 4 after the run, as one function of the arrays the region finds. -/
theorem final4_fun (c : Dev nD) :
    (dat4 V c).arrAt 11 cfg4.N = G4 (V c main_v48) (V c main_v55) (V c main_v56) (V c main_v58) (V c main_v60) (V c main_v62)
      (V c main_arg7) (V c main_v63) (V c main_arg9) (V c main_v64) (V c main_arg11) :=
  (dat4 V c).arrAt_eq_of_cover 11 _ (fun t _ => flushed4_eq V c t) cover4

/-- The output array after the run, read at `(e, 0)`: the perceptron's output at row `e` of the arrays. -/
theorem final4 (c : Dev nD) (e : Fin 600000) :
    ((dat4 V c).arrAt 11 cfg4.N : S600000x1.Idx → EReal) (ix2 e 0)
      = zout (n := 600000) (V c main_v48) (V c main_v55) (V c main_v56) (V c main_v58) (V c main_v60) (V c main_v62)
          (V c main_arg7) (V c main_v63) (V c main_arg9) (V c main_v64) (V c main_arg11) e := by
  rw [final4_fun V c]
  rfl

end Cert.KernelIdeal.Regions

end
-- ==== Proof.LibColumnFlat.lean ====
/-
  A one-column matrix recast as a vector, read at an index.

  Both layouts list the a entries in the same order, so entry i of the vector is entry (i, 0) of the column.
  No program is imported: the extent is a variable.
-/
import Idealize.ShloMosaic.Lib.Pipeline.Value
import Idealize.ShloMosaic.Lib.ValueIdx

namespace Cert.LibColumnFlat

open Idealize.ShloMosaic Idealize.ShloMosaic.ValueIdx

/-- Entry i of an [a, 1] array recast as an [a] vector is the array's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnFlat
-- ==== Proof.Bridge4.lean ====
/-
  The edge classifier: the kernel program's result vector is the reference's, given that the node features entering
  the classifier agree.

  Both programs read, for every edge e, the second-layer features of its two endpoints and its five edge features,
  and apply the same three affine maps (the first two followed by a maximum with zero, the last by the logistic
  function).  The reference joins the three inputs into one 261-wide row and multiplies by the 261 x 128 weight; the
  kernel multiplies each input by its own row block of that weight and adds the three products: a sum over 261 terms
  is the sum of its three consecutive blocks.  The narrowing casts of the kernel's operands are the identity on the
  extended reals, the gathers read the row the normalised index word names, and the final column-to-vector recast
  keeps the order.
-/
import proofs.«140584_j4020089389438_2_alg».proof.Proof.Gen.KernelIdeal.Frame
import proofs.«140584_j4020089389438_2_alg».proof.Proof.KKeep
import proofs.«140584_j4020089389438_2_alg».proof.Proof.KHost
import proofs.«140584_j4020089389438_2_alg».proof.Proof.KHostPoint
import proofs.«140584_j4020089389438_2_alg».proof.Proof.KRegion4
import proofs.«140584_j4020089389438_2_alg».proof.Proof.GcnLaw
import proofs.«140584_j4020089389438_2_alg».proof.Proof.LibColumnFlat
import proofs.«140584_j4020089389438_2_alg».proof.Proof.IndexFacts
import proofs.«140584_j4020089389438_2_alg».proof.Proof.RefPoint
import Idealize.ShloMosaic.Lib.IdealHost

set_option maxRecDepth 16384

noncomputable section

open scoped BigOperators

namespace Cert.Bridge4

open Idealize.ShloMosaic Idealize.ShloMosaic.ValueIdx Idealize.ShloMosaic.TcCoe
open Cert.KernelIdeal Cert.KernelIdeal.Gen Cert.KernelIdeal.Chain Cert.KernelIdeal.Regions Cert.KernelIdeal.HostPoint
open Cert.ReferenceIdeal.RefRead Cert.IndexFacts

variable (m : (ℓ : Loc nD τ sig) → Buf (Elt Ideal) ℓ) (ρ : Dev nD → PrngReg) (c : Dev nD)

/-- The launched arguments, typed at the reference's shapes. -/
abbrev Y0 : Cert.ReferenceIdeal.S100000x4.Idx → EReal := m ((c : Thread nD τ).loc main_arg0)
abbrev Y1 : Cert.ReferenceIdeal.S600000x5.Idx → EReal := m ((c : Thread nD τ).loc main_arg1)
abbrev Y2 : Cert.ReferenceIdeal.S4x128.Idx → EReal := m ((c : Thread nD τ).loc main_arg2)
abbrev Y3 : Cert.ReferenceIdeal.S128.Idx → EReal := m ((c : Thread nD τ).loc main_arg3)
abbrev Y4 : Cert.ReferenceIdeal.S128x128.Idx → EReal := m ((c : Thread nD τ).loc main_arg4)
abbrev Y5 : Cert.ReferenceIdeal.S128.Idx → EReal := m ((c : Thread nD τ).loc main_arg5)
abbrev Y6 : Cert.ReferenceIdeal.S261x128.Idx → EReal := m ((c : Thread nD τ).loc main_arg6)
abbrev Y7 : Cert.ReferenceIdeal.S128.Idx → EReal := m ((c : Thread nD τ).loc main_arg7)
abbrev Y8 : Cert.ReferenceIdeal.S128x128.Idx → EReal := m ((c : Thread nD τ).loc main_arg8)
abbrev Y9 : Cert.ReferenceIdeal.S128.Idx → EReal := m ((c : Thread nD τ).loc main_arg9)
abbrev Y10 : Cert.ReferenceIdeal.S128x1.Idx → EReal := m ((c : Thread nD τ).loc main_arg10)
abbrev Y11 : Cert.ReferenceIdeal.S1.Idx → EReal := m ((c : Thread nD τ).loc main_arg11)
abbrev Y12 : (⟨Cert.ReferenceIdeal.S2x600000, .i32⟩ : BufTy).Contents (Elt Ideal) := m ((c : Thread nD τ).loc main_arg12)

/-! ## The arrays region 4 finds, read at an index -/

/-- The first input at (e, k): the node features at the row the edge's source word names. -/
theorem in_v48 (e : Fin 600000) (k : Fin 128) :
    (V10 m ρ c main_v48 : S600000x128.Idx → EReal) (ix2 e k)
      = (W9 m ρ c (Proc.devRef .tc main_v40) : S100000x128.Idx → EReal)
          (ix2 (row (nrm ((W9 m ρ c (Proc.devRef .tc main_v1) : IVec S600000 32) (ix1 e)))) k) := by
  show (StableHlo.after (hostOps4 (F := Ideal)) (W9 m ρ c) (Proc.devRef .tc main_v48) : S600000x128.Idx → EReal) (ix2 e k) = _
  rw [host4_v48, gather_read]
  rfl

/-- The second input at (e, k): the node features at the row the edge's target word names. -/
theorem in_v55 (e : Fin 600000) (k : Fin 128) :
    (V10 m ρ c main_v55 : S600000x128.Idx → EReal) (ix2 e k)
      = (W9 m ρ c (Proc.devRef .tc main_v40) : S100000x128.Idx → EReal)
          (ix2 (row (nrm ((W9 m ρ c (Proc.devRef .tc main_v3) : IVec S600000 32) (ix1 e)))) k) := by
  show (StableHlo.after (hostOps4 (F := Ideal)) (W9 m ρ c) (Proc.devRef .tc main_v55) : S600000x128.Idx → EReal) (ix2 e k) = _
  rw [host4_v55, gather_read]
  rfl

/-- The third input is the launched edge features. -/
theorem in_v56 (e : Fin 600000) (k : Fin 5) :
    (V10 m ρ c main_v56 : S600000x5.Idx → EReal) (ix2 e k) = Y1 m c (ix2 e k) := by
  show (StableHlo.after (hostOps4 (F := Ideal)) (W9 m ρ c) (Proc.devRef .tc main_v56) : S600000x5.Idx → EReal) (ix2 e k) = _
  rw [host4_v56, truncf_apply, arg_9 m ρ c main_arg1 (by decide)]

/-- The first weight block at (k, j): rows 0 … 127 of the launched 261-row weight. -/
theorem in_v58 (k : Fin 128) (j : Fin 128) (k' : Fin 261) (hk : k'.val = k.val) :
    (V10 m ρ c main_v58 : S128x128.Idx → EReal) (ix2 k j) = Y6 m c (ix2 k' j) := by
  show (StableHlo.after (hostOps4 (F := Ideal)) (W9 m ρ c) (Proc.devRef .tc main_v58) : S128x128.Idx → EReal) (ix2 k j) = _
  rw [host4_v58, truncf_apply, arg_9 m ρ c main_arg6 (by decide)]
  exact extractStridedSlice_apply ![0, 0] _ slices_S261x128_S128x128_0_0 (ix2 k j) (ix2 k' j) (fun a => match a with
    | ⟨0, _⟩ => by show k'.val = 0 + k.val; omega
    | ⟨1, _⟩ => by show j.val = 0 + j.val; omega)

/-- The second weight block at (k, j): rows 128 … 255 of the launched weight. -/
theorem in_v60 (k : Fin 128) (j : Fin 128) (k' : Fin 261) (hk : k'.val = 128 + k.val) :
    (V10 m ρ c main_v60 : S128x128.Idx → EReal) (ix2 k j) = Y6 m c (ix2 k' j) := by
  show (StableHlo.after (hostOps4 (F := Ideal)) (W9 m ρ c) (Proc.devRef .tc main_v60) : S128x128.Idx → EReal) (ix2 k j) = _
  rw [host4_v60, truncf_apply, arg_9 m ρ c main_arg6 (by decide)]
  exact extractStridedSlice_apply ![128, 0] _ slices_S261x128_S128x128_128_0 (ix2 k j) (ix2 k' j) (fun a => match a with
    | ⟨0, _⟩ => by show k'.val = 128 + k.val; omega
    | ⟨1, _⟩ => by show j.val = 0 + j.val; omega)

/-- The third weight block at (k, j): rows 256 … 260 of the launched weight. -/
theorem in_v62 (k : Fin 5) (j : Fin 128) (k' : Fin 261) (hk : k'.val = 256 + k.val) :
    (V10 m ρ c main_v62 : S5x128.Idx → EReal) (ix2 k j) = Y6 m c (ix2 k' j) := by
  show (StableHlo.after (hostOps4 (F := Ideal)) (W9 m ρ c) (Proc.devRef .tc main_v62) : S5x128.Idx → EReal) (ix2 k j) = _
  rw [host4_v62, truncf_apply, arg_9 m ρ c main_arg6 (by decide)]
  exact extractStridedSlice_apply ![256, 0] _ slices_S261x128_S5x128_256_0 (ix2 k j) (ix2 k' j) (fun a => match a with
    | ⟨0, _⟩ => by show k'.val = 256 + k.val; omega
    | ⟨1, _⟩ => by show j.val = 0 + j.val; omega)

/-- The second layer's weight is the launched one. -/
theorem in_v63 (k : Fin 128) (j : Fin 128) :
    (V10 m ρ c main_v63 : S128x128.Idx → EReal) (ix2 k j) = Y8 m c (ix2 k j) := by
  show (StableHlo.after (hostOps4 (F := Ideal)) (W9 m ρ c) (Proc.devRef .tc main_v63) : S128x128.Idx → EReal) (ix2 k j) = _
  rw [host4_v63, truncf_apply, arg_9 m ρ c main_arg8 (by decide)]

/-- The output layer's weight is the launched one. -/
theorem in_v64 (k : Fin 128) (u : Fin 1) :
    (V10 m ρ c main_v64 : S128x1.Idx → EReal) (ix2 k u) = Y10 m c (ix2 k u) := by
  show (StableHlo.after (hostOps4 (F := Ideal)) (W9 m ρ c) (Proc.devRef .tc main_v64) : S128x1.Idx → EReal) (ix2 k u) = _
  rw [host4_v64, truncf_apply, arg_9 m ρ c main_arg10 (by decide)]

/-- The three biases are the launched ones. -/
theorem in_arg7 : (V10 m ρ c main_arg7 : S128.Idx → EReal) = Y7 m c := arg_10 m ρ c main_arg7 (by decide)
theorem in_arg9 : (V10 m ρ c main_arg9 : S128.Idx → EReal) = Y9 m c := arg_10 m ρ c main_arg9 (by decide)
theorem in_arg11 : (V10 m ρ c main_arg11 : S1.Idx → EReal) = Y11 m c := arg_10 m ρ c main_arg11 (by decide)

/-! ## The two gathered inputs are the reference's node features at the edge's endpoints -/

/-- The first input at (e, k), given that the node features agree. -/
theorem in_v48_ref (hsrc : W3 m ρ c (Proc.devRef .tc main_v1) = Cert.ReferenceIdeal.Read.val_main_v1 (F := Ideal) (Y12 m c))
    (h2 : W9 m ρ c (Proc.devRef .tc main_v40) = Cert.ReferenceIdeal.Read.val_main_v64 (F := Ideal) (Y0 m c) (Y2 m c) (Y3 m c) (Y4 m c) (Y5 m c) (Y12 m c))
    (e : Fin 600000) (k : Fin 128) :
    (V10 m ρ c main_v48 : S600000x128.Idx → EReal) (ix2 e k)
      = Cert.ReferenceIdeal.Read.val_main_v64 (F := Ideal) (Y0 m c) (Y2 m c) (Y3 m c) (Y4 m c) (Y5 m c) (Y12 m c)
          (ix2 (row (nrm (Cert.ReferenceIdeal.Read.val_main_v1 (F := Ideal) (Y12 m c) (ix1 e)))) k) := by
  rw [in_v48, (keep_3_9 m ρ c main_v1 (by decide)).trans hsrc, h2]

/-- The second input at (e, k), given that the node features agree. -/
theorem in_v55_ref (hdst : W3 m ρ c (Proc.devRef .tc main_v3) = Cert.ReferenceIdeal.Read.val_main_v3 (F := Ideal) (Y12 m c))
    (h2 : W9 m ρ c (Proc.devRef .tc main_v40) = Cert.ReferenceIdeal.Read.val_main_v64 (F := Ideal) (Y0 m c) (Y2 m c) (Y3 m c) (Y4 m c) (Y5 m c) (Y12 m c))
    (e : Fin 600000) (k : Fin 128) :
    (V10 m ρ c main_v55 : S600000x128.Idx → EReal) (ix2 e k)
      = Cert.ReferenceIdeal.Read.val_main_v64 (F := Ideal) (Y0 m c) (Y2 m c) (Y3 m c) (Y4 m c) (Y5 m c) (Y12 m c)
          (ix2 (row (nrm (Cert.ReferenceIdeal.Read.val_main_v3 (F := Ideal) (Y12 m c) (ix1 e)))) k) := by
  rw [in_v55, (keep_3_9 m ρ c main_v3 (by decide)).trans hdst, h2]

/-! ## The three layers -/

/-- The first hidden layer: the kernel's three products added are the reference's one product over the joined row. -/
theorem z1_eq (hsrc : W3 m ρ c (Proc.devRef .tc main_v1) = Cert.ReferenceIdeal.Read.val_main_v1 (F := Ideal) (Y12 m c))
    (hdst : W3 m ρ c (Proc.devRef .tc main_v3) = Cert.ReferenceIdeal.Read.val_main_v3 (F := Ideal) (Y12 m c))
    (h2 : W9 m ρ c (Proc.devRef .tc main_v40) = Cert.ReferenceIdeal.Read.val_main_v64 (F := Ideal) (Y0 m c) (Y2 m c) (Y3 m c) (Y4 m c) (Y5 m c) (Y12 m c))
    (e : Fin 600000) (j : Fin 128) :
    z1 (n := 600000) (V10 m ρ c main_v48) (V10 m ρ c main_v55) (V10 m ρ c main_v56) (V10 m ρ c main_v58) (V10 m ρ c main_v60)
        (V10 m ρ c main_v62) (V10 m ρ c main_arg7) e j
      = Cert.ReferenceIdeal.Read.val_main_v84 (F := Ideal) (Y0 m c) (Y1 m c) (Y2 m c) (Y3 m c) (Y4 m c) (Y5 m c) (Y6 m c) (Y7 m c) (Y12 m c) (ix2 e j) := by
  rw [v84_at, v80_at]
  unfold z1
  rw [in_arg7]
  refine congrArg₂ max (congrArg₂ (· + ·) ?_ rfl) rfl
  symm
  refine Cert.GcnLaw.sum_split3 (T := 261) (A := 128) (B := 128) (C := 5) rfl _ _ _ _ ?_ ?_ ?_
  · intro j' a h
    show (_ : EReal) * _ = _ * _
    rw [v79_at_p0 (Y0 m c) (Y1 m c) (Y2 m c) (Y3 m c) (Y4 m c) (Y5 m c) (Y12 m c) e a j' h,
      in_v48_ref m ρ c hsrc h2 e a, in_v58 m ρ c a j j' h]
  · intro j' b h
    show (_ : EReal) * _ = _ * _
    rw [v79_at_p1 (Y0 m c) (Y1 m c) (Y2 m c) (Y3 m c) (Y4 m c) (Y5 m c) (Y12 m c) e b j' h,
      in_v55_ref m ρ c hdst h2 e b, in_v60 m ρ c b j j' h]
  · intro j' d h
    show (_ : EReal) * _ = _ * _
    rw [val_main_v79_p2 (Y0 m c) (Y1 m c) (Y2 m c) (Y3 m c) (Y4 m c) (Y5 m c) (Y12 m c) e d j' h,
      in_v56 m ρ c e d, in_v62 m ρ c d j j' h]

/-- The second hidden layer. -/
theorem z2_eq (hsrc : W3 m ρ c (Proc.devRef .tc main_v1) = Cert.ReferenceIdeal.Read.val_main_v1 (F := Ideal) (Y12 m c))
    (hdst : W3 m ρ c (Proc.devRef .tc main_v3) = Cert.ReferenceIdeal.Read.val_main_v3 (F := Ideal) (Y12 m c))
    (h2 : W9 m ρ c (Proc.devRef .tc main_v40) = Cert.ReferenceIdeal.Read.val_main_v64 (F := Ideal) (Y0 m c) (Y2 m c) (Y3 m c) (Y4 m c) (Y5 m c) (Y12 m c))
    (e : Fin 600000) (k : Fin 128) :
    z2 (n := 600000) (V10 m ρ c main_v48) (V10 m ρ c main_v55) (V10 m ρ c main_v56) (V10 m ρ c main_v58) (V10 m ρ c main_v60)
        (V10 m ρ c main_v62) (V10 m ρ c main_arg7) (V10 m ρ c main_v63) (V10 m ρ c main_arg9) e k
      = Cert.ReferenceIdeal.Read.val_main_v89 (F := Ideal) (Y0 m c) (Y1 m c) (Y2 m c) (Y3 m c) (Y4 m c) (Y5 m c) (Y6 m c) (Y7 m c) (Y8 m c) (Y9 m c) (Y12 m c) (ix2 e k) := by
  rw [v89_at]
  unfold z2
  rw [in_arg9]
  refine congrArg₂ max (congrArg₂ (· + ·) (Finset.sum_congr rfl fun j _ => ?_) rfl) rfl
  rw [z1_eq m ρ c hsrc hdst h2 e j, in_v63 m ρ c j k]

/-- THE EDGE CLASSIFIER: the kernel program's result vector is the reference's, given the two index rows and the
    node features entering the classifier. -/
theorem out_eq_of (hsrc : W3 m ρ c (Proc.devRef .tc main_v1) = Cert.ReferenceIdeal.Read.val_main_v1 (F := Ideal) (Y12 m c))
    (hdst : W3 m ρ c (Proc.devRef .tc main_v3) = Cert.ReferenceIdeal.Read.val_main_v3 (F := Ideal) (Y12 m c))
    (h2 : W9 m ρ c (Proc.devRef .tc main_v40) = Cert.ReferenceIdeal.Read.val_main_v64 (F := Ideal) (Y0 m c) (Y2 m c) (Y3 m c) (Y4 m c) (Y5 m c) (Y12 m c)) :
    W12 m ρ c (Proc.devRef .tc main_v66)
      = Cert.ReferenceIdeal.Read.val_main_v100 (F := Ideal) (Y0 m c) (Y1 m c) (Y2 m c) (Y3 m c) (Y4 m c) (Y5 m c) (Y6 m c) (Y7 m c)
          (Y8 m c) (Y9 m c) (Y10 m c) (Y11 m c) (Y12 m c) := by
  funext i
  obtain ⟨e, rfl⟩ : ∃ e : Fin 600000, i = ix1 e := ⟨i 0, eq_ix1 i⟩
  rw [v100_at]
  show (StableHlo.after (hostOps5 (F := Ideal)) (W11 m ρ c) (Proc.devRef .tc main_v66) : S600000.Idx → EReal) (ix1 e) = _
  rw [host5_v66]
  refine (Cert.LibColumnFlat.shapeCast_a1_a_apply (a := 600000) _ shapeCasts_S600000x1_S600000 e).trans ?_
  rw [show W11 m ρ c (Proc.devRef .tc main_v65) = _ from W11_arr m ρ c 11, final4_fun (V10 m ρ) c, G4_apply]
  unfold zout
  rw [in_arg11]
  refine congrArg Ideal.logistic (congrArg₂ (· + ·) (Finset.sum_congr rfl fun k _ => ?_) rfl)
  rw [z2_eq m ρ c hsrc hdst h2 e k, in_v64 m ρ c k 0]

end Cert.Bridge4

end
-- ==== Proof.lean ====
/-
  The certificate: the kernel program (a graph-convolution network's two layers and an edge classifier, computed by
  five tiled regions among stretches of host operations) against its reference (one straight line of host operations).

  Frames.  The kernel program's frame, at the word level and at the exact instance, is the generated one.  The
  reference has no kernel: its frame is its run with the result forgotten.

  The idealization rewrote nothing, so there is nothing to preserve.

  Equal results on the extended reals.  Both programs compute, from the edge list, the per-node normalisation
  d = select (deg > 0) (rsqrt deg) 0 of the in-degree with self-loops; two graph-convolution layers
  h ↦ A (h W) + b with A the normalised adjacency with self-loops (the first clamped at zero); and, per edge, a
  three-layer perceptron of the two endpoint features and the edge features, through a logistic.  They differ in three
  arrangements, each an identity of sums on the extended reals:
    • the degree: the reference counts edges and self-loops in one scatter-add, the kernel counts the edges and adds one;
    • a layer: the reference scales every message by d(src)·d(dst) and sums over edges and self-loops; the kernel scales
      the features by d before the gather, sums over the edges, adds the node's own scaled row, and scales by d again
      (d is nonnegative and finite, so this outer scaling distributes over the sum);
    • the perceptron's first layer: the reference multiplies the 261-column concatenation by the whole weight matrix,
      the kernel adds the three products of the pieces with the three row blocks of the matrix.
  Roundings to a narrower float format are the identity on the extended reals, and the kernel's logistic is the
  reference's 1 / (1 + exp (−x)).
-/
import proofs.«140584_j4020089389438_2_alg».proof.Defs
import proofs.«140584_j4020089389438_2_alg».proof.Proof.Gen.Kernel
import proofs.«140584_j4020089389438_2_alg».proof.Proof.Gen.Kernel.Skeleton
import proofs.«140584_j4020089389438_2_alg».proof.Proof.Gen.Kernel.Launch
import proofs.«140584_j4020089389438_2_alg».proof.Proof.Gen.Kernel.Points
import proofs.«140584_j4020089389438_2_alg».proof.Proof.Gen.Kernel.Frame
import proofs.«140584_j4020089389438_2_alg».proof.Proof.Gen.KernelIdeal
import proofs.«140584_j4020089389438_2_alg».proof.Proof.Gen.KernelIdeal.Skeleton
import proofs.«140584_j4020089389438_2_alg».proof.Proof.Gen.KernelIdeal.Launch
import proofs.«140584_j4020089389438_2_alg».proof.Proof.Gen.KernelIdeal.Points
import proofs.«140584_j4020089389438_2_alg».proof.Proof.Gen.KernelIdeal.Frame
import proofs.«140584_j4020089389438_2_alg».proof.Proof.Gen.ReferenceIdeal
import proofs.«140584_j4020089389438_2_alg».proof.Proof.Gen.Pre_finite_inputs
import proofs.«140584_j4020089389438_2_alg».proof.Proof.KRun
import proofs.«140584_j4020089389438_2_alg».proof.Proof.RefRun
import proofs.«140584_j4020089389438_2_alg».proof.Proof.Bridge2
import proofs.«140584_j4020089389438_2_alg».proof.Proof.Bridge3
import proofs.«140584_j4020089389438_2_alg».proof.Proof.Bridge4
import Idealize.ShloMosaic.Adequacy
import Idealize.ShloMosaic.Init

noncomputable section

namespace Cert.Proof

open Idealize.ShloMosaic Idealize.SL.Sem

/-- The word-level kernel program's frame. -/
theorem frame_k : Cert.frame_Kernel := fun m ρ _ => Cert.Kernel.Gen.frame m ρ

/-- The idealized kernel program's frame. -/
theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- The kernel program's result buffer ends at the reference's composed value of the launched arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W12 m ρ c (Proc.devRef .tc Cert.KernelIdeal.main_v66)
      = Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) :=
  Cert.Bridge4.out_eq_of m ρ c (Cert.Bridge.w3_v1 m ρ c) (Cert.Bridge.w3_v3 m ρ c) (Cert.Bridge.h2_eq_of m ρ c (Cert.Bridge.h1_eq m ρ c))

/-- Run from memories that agree on the arguments, the two idealized programs end with equal results. -/
theorem algebraic : Cert.algebraic_KernelIdeal_ReferenceIdeal := by
  intro m ρ m' ρ' _ hagree
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (result_eq m ρ c), (h c).2⟩)
      (Cert.KernelIdeal.Gen.run_val m ρ)
  · refine (θ_run Cert.ReferenceIdeal.defs _ _).mono (fun r h c => ⟨?_, (h c).2⟩)
      (Cert.ReferenceIdeal.RefValue.run (F := Ideal) m' ρ')
    obtain ⟨h0, h1, h2, h3, h4, h5, h6, h7, h8, h9, h10, h11, h12⟩ := hagree c
    rw [(h c).1, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
